-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S4096x32 : Shape := ⟨2, ![4096, 32]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S4096x32 : S_.BroadcastsInDim S4096x32 (![] : Fin 0 → Fin S4096x32.rank)
  reducesTo_S4096x32_S_d0_1 : S4096x32.ReducesTo [0, 1] S_

variable [Facts]

def fn_part1 {F : FTy → Type} [FloatOps F] (main_arg4 : FVec F S4096x32 .f32) (main_v13 : IVec S_ 1) (main_v16 : IVec S4096x32 1) : IVec S_ 1 :=
  let main_c_5 : IVec S_ 1 := constantI S_ 1 1#1
  let main_v17 : IVec S_ 1 := (fun x v => Host.reduce IntOp.andi x v reducesTo_S4096x32_S_d0_1 h_S_) main_v16 main_c_5
  let main_v18 : IVec S_ 1 := andi main_v13 main_v17
  let main_v19 : FVec F S4096x32 .f32 := Host.absf main_arg4
  let main_cst_6 : FVec F S_ .f32 := constant S_ .f32 0x7F800000#32
  let main_v20 : FVec F S4096x32 .f32 := broadcastInDim S4096x32 ![] bcast_S_S4096x32 main_cst_6
  let main_v21 : IVec S4096x32 1 := cmpf .olt main_v19 main_v20
  let main_c_7 : IVec S_ 1 := constantI S_ 1 1#1
  let main_v22 : IVec S_ 1 := (fun x v => Host.reduce IntOp.andi x v reducesTo_S4096x32_S_d0_1 h_S_) main_v21 main_c_7
  let main_v23 : IVec S_ 1 := andi main_v18 main_v22
  main_v23

def fn {F : FTy → Type} [FloatOps F] (main_arg0 : FVec F S4x2048x4096 .f32) (main_arg1 : FVec F S4096x4096 .f32) (main_arg2 : FVec F S4096 .f32) (main_arg3 : FVec F S4096x32 .f32) (main_arg4 : FVec F S4096x32 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x32 .f32 := Host.absf main_arg3
  let main_cst_4 : FVec F S_ .f32 := constant S_ .f32 0x7F800000#32
  let main_v15 : FVec F S4096x32 .f32 := broadcastInDim S4096x32 ![] bcast_S_S4096x32 main_cst_4
  let main_v16 : IVec S4096x32 1 := cmpf .olt main_v14 main_v15
  fn_part1 (F := F) main_arg4 main_v13 main_v16
-- ==== Kernel.lean ====
abbrev S4x2048x4096 : Shape := ⟨3, ![4, 2048, 4096]⟩
abbrev S4096x4096 : Shape := ⟨2, ![4096, 4096]⟩
abbrev S4096 : Shape := ⟨1, ![4096]⟩
abbrev S4096x32 : Shape := ⟨2, ![4096, 32]⟩
abbrev S8192x4096 : Shape := ⟨2, ![8192, 4096]⟩
abbrev S1x4096 : Shape := ⟨2, ![1, 4096]⟩
abbrev S2048x1024 : Shape := ⟨2, ![2048, 1024]⟩
abbrev S1024x1024 : Shape := ⟨2, ![1024, 1024]⟩
abbrev S1024x32 : Shape := ⟨2, ![1024, 32]⟩
abbrev S1x1024 : Shape := ⟨2, ![1, 1024]⟩
abbrev S2048x32 : Shape := ⟨2, ![2048, 32]⟩

abbrev nBuf : Space → Nat
  | .hbm => 12
  | .vmem => 14
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S4096x32, .f32⟩
  | .hbm, ⟨4, _⟩ => ⟨S4096x32, .f32⟩
  | .hbm, ⟨5, _⟩ => ⟨S8192x4096, .f32⟩
  | .hbm, ⟨6, _⟩ => ⟨S8192x4096, .bf16⟩
  | .hbm, ⟨7, _⟩ => ⟨S4096x4096, .bf16⟩
  | .hbm, ⟨8, _⟩ => ⟨S4096x32, .bf16⟩
  | .hbm, ⟨9, _⟩ => ⟨S1x4096, .f32⟩
  | .hbm, ⟨10, _⟩ => ⟨S8192x4096, .f32⟩
  | .hbm, ⟨11, _⟩ => ⟨S4x2048x4096, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x32, .bf16⟩
  | .local _ .vmem, ⟨5, _⟩ => ⟨S1024x32, .bf16⟩
  | .local _ .vmem, ⟨6, _⟩ => ⟨S1024x32, .f32⟩
  | .local _ .vmem, ⟨7, _⟩ => ⟨S1024x32, .f32⟩
  | .local _ .vmem, ⟨8, _⟩ => ⟨S1x1024, .f32⟩
  | .local _ .vmem, ⟨9, _⟩ => ⟨S1x1024, .f32⟩
  | .local _ .vmem, ⟨10, _⟩ => ⟨S2048x1024, .f32⟩
  | .local _ .vmem, ⟨11, _⟩ => ⟨S2048x1024, .f32⟩
  | .local _ .vmem, ⟨12, _⟩ => ⟨S2048x1024, .f32⟩
  | .local _ .vmem, ⟨13, _⟩ => ⟨S2048x32, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 4], ![false, false, false]⟩

def k0_cond4 (i : grid0.Coords) : BitVec 1 :=
  let arg2 : BitVec 32 := BitVec.ofNat 32 (i 2).val
  let c3_i32 : BitVec 32 := 3#32
  let v21 : BitVec 1 := Scalar.cmpi .eq arg2 c3_i32
  let v22 : BitVec 32 := Scalar.extui v21
  let c0_i32_13 : BitVec 32 := 0#32
  let v23 : BitVec 1 := Scalar.cmpi .ne v22 c0_i32_13
  v23

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x32 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1024x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S2048x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  shapeCasts_S4x2048x4096_S8192x4096 : S4x2048x4096.ShapeCasts S8192x4096
  bitsLt_bf16_f32 : FTy.bits .bf16 < FTy.bits .f32
  shapeCasts_S4096_S1x4096 : S4096.ShapeCasts S1x4096
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x32_S2048x32_0_0 : ∀ a, (![0, 0] : Fin 2 → Nat) a + S2048x32.size a ≤ S2048x32.size a
  h_S2048x32 : 0 < S2048x32.numel
  shapeCasts_S2048x32_S2048x32 : S2048x32.ShapeCasts S2048x32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x32_S1024x32_0_0 : ∀ a, (![0, 0] : Fin 2 → Nat) a + S1024x32.size a ≤ S1024x32.size a
  h_S1024x32 : 0 < S1024x32.numel
  shapeCasts_S1024x32_S1024x32 : S1024x32.ShapeCasts S1024x32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  shapeCasts_S8192x4096_S4x2048x4096 : S8192x4096.ShapeCasts S4x2048x4096
  dot_S2048x1024_S1024x1024_S2048x1024_1_1_0_0_n_n_wf : DotDims.WF S2048x1024 S1024x1024 S2048x1024 [1] [1] [0] [0] [] []
  dot_S2048x1024_S1024x32_S2048x32_1_0_0_1_n_n_wf : DotDims.WF S2048x1024 S1024x32 S2048x32 [1] [0] [0] [1] [] []
  dot_S2048x32_S1024x32_S2048x1024_1_1_0_0_n_n_wf : DotDims.WF S2048x32 S1024x32 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S8192x4096.size a
  hwx0_0 : ∀ i : grid0.Coords, EltTy.bits .bf16 = 32 ∨ (Rect.block (s := S8192x4096) S2048x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x32.size a ≤ S4096x32.size a
  hwx0_2 : ∀ i : grid0.Coords, EltTy.bits .bf16 = 32 ∨ (Rect.block (s := S4096x32) S1024x32.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x32.size a ≤ S4096x32.size a
  hwx0_3 : ∀ i : grid0.Coords, EltTy.bits .f32 = 32 ∨ (Rect.block (s := S4096x32) S1024x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x4096.size a
  hwx0_4 : ∀ i : grid0.Coords, EltTy.bits .f32 = 32 ∨ (Rect.block (s := S1x4096) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x1024.size a ≤ S8192x4096.size a
  hwx0_5 : ∀ i : grid0.Coords, EltTy.bits .f32 = 32 ∨ (Rect.block (s := S8192x4096) S2048x1024.size (cc0_transform_5 i) (hinb0_5 i)).WholeWords (EltTy.packing .f32)

variable [Facts₀]

def dot_S2048x1024_S1024x1024_S2048x1024_1_1_0_0_n_n : DotDims S2048x1024 S1024x1024 S2048x1024 where
  lhsContracting := [1]
  rhsContracting := [1]
  lhsNonContracting := [0]
  rhsNonContracting := [0]
  lhsBatch := []
  rhsBatch := []
  wf := dot_S2048x1024_S1024x1024_S2048x1024_1_1_0_0_n_n_wf
def dot_S2048x1024_S1024x32_S2048x32_1_0_0_1_n_n : DotDims S2048x1024 S1024x32 S2048x32 where
  lhsContracting := [1]
  rhsContracting := [0]
  lhsNonContracting := [0]
  rhsNonContracting := [1]
  lhsBatch := []
  rhsBatch := []
  wf := dot_S2048x1024_S1024x32_S2048x32_1_0_0_1_n_n_wf
def dot_S2048x32_S1024x32_S2048x1024_1_1_0_0_n_n : DotDims S2048x32 S1024x32 S2048x1024 where
  lhsContracting := [1]
  rhsContracting := [1]
  lhsNonContracting := [0]
  rhsNonContracting := [0]
  lhsBatch := []
  rhsBatch := []
  wf := dot_S2048x32_S1024x32_S2048x1024_1_1_0_0_n_n_wf

abbrev win0_0 : Pipeline.Window sig grid0 :=
  Pipeline.Window.ofSpec (Memref.whole main_v1) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S2048x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond4 i == 1#1) | ⟨_ + 6, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S4096x32 : Shape := ⟨2, ![4096, 32]⟩
abbrev S32x4096 : Shape := ⟨2, ![32, 4096]⟩
abbrev S_ : Shape := ⟨0, ![]⟩
abbrev S1x1x4096 : Shape := ⟨3, ![1, 1, 4096]⟩

abbrev nBuf : Space → Nat
  | .hbm => 15
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S4096x32, .f32⟩
  | .hbm, ⟨4, _⟩ => ⟨S4096x32, .f32⟩
  | .hbm, ⟨5, _⟩ => ⟨S32x4096, .f32⟩
  | .hbm, ⟨6, _⟩ => ⟨S4096x4096, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4x2048x4096, .f32⟩
  | .hbm, ⟨12, _⟩ => ⟨S1x1x4096, .f32⟩
  | .hbm, ⟨13, _⟩ => ⟨S4x2048x4096, .f32⟩
  | .hbm, ⟨14, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  transposes_S4096x32_S32x4096_1_0 : S4096x32.Transposes [1, 0] S32x4096
  bcast_S_S4096x4096 : S_.BroadcastsInDim S4096x4096 (![] : Fin 0 → Fin S4096x4096.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4096x32_S32x4096_S4096x4096_1_0_0_1_n_n_wf : DotDims.WF S4096x32 S32x4096 S4096x4096 [1] [0] [0] [1] [] []
  dot_S4x2048x4096_S4096x4096_S4x2048x4096_2_1_01_0_n_n_wf : DotDims.WF S4x2048x4096 S4096x4096 S4x2048x4096 [2] [1] [0, 1] [0] [] []

variable [Facts₀]

def dot_S4096x32_S32x4096_S4096x4096_1_0_0_1_n_n : DotDims S4096x32 S32x4096 S4096x4096 where
  lhsContracting := [1]
  rhsContracting := [0]
  lhsNonContracting := [0]
  rhsNonContracting := [1]
  lhsBatch := []
  rhsBatch := []
  wf := dot_S4096x32_S32x4096_S4096x4096_1_0_0_1_n_n_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.LibWholeBuffer.lean ====
/-
  Loads and stores through the rectangle that is a buffer's whole shape (all offsets zero).
  A vector load of the whole shape through a whole memref reads the memref's contents; after a sequence of
  stores whose LAST one fills the whole shape, the buffer reads that store's payload, whatever was stored or held
  before; and a whole-shape load issued after such stores reads that payload too. These are the three facts a
  kernel body that keeps an accumulator in a scratch buffer (load all, compute, store all) is read with.
-/
import Idealize.ShloMosaic.Lib.Pipeline.Frame
import Idealize.ShloMosaic.Lib.Pipeline.FrameBody
import Idealize.ShloMosaic.Lib.Pipeline.Value

namespace Idealize.ShloMosaic.WholeBuffer

variable {sig : RefSig} {Val : EltTy → Type} {κ : Kind} {sp : Space} {S : Shape} {e : EltTy}

/-- A load of the whole shape through a whole memref held at the raw contents that read `X` reads `X`. -/
theorem readAt_whole {m : Memref sig κ sp S e} (h : m.IsWhole) {off : Fin S.rank → ℕ} (hz : off = fun _ => 0)
    (inb : ∀ a, off a + S.size a ≤ S.size a) (X : S.Idx → Val e) :
    View.readAt Val m.view (Rect.unit off S.size inb).toLoadRect (h.unread X) = X := by
  rw [View.readAt_eq_ld, h.read_unread, View.ld_unit_zero hz]

/-- After stores the last of which fills the whole shape with `w`, the view reads `w`. -/
theorem read_writes_whole [∀ e, Nonempty (Val e)] (v : View sig κ sp S e) (f : v.ty.Contents Val) {off : Fin S.rank → ℕ}
    (hz : off = fun _ => 0) (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.Mem.head _, View.mem_set_unit_zero hz inb y⟩),
    View.canon_cons_unit_zero hz]

/-- A whole-shape load issued after stores the last of which filled the whole shape with `w` reads `w`. -/
theorem readCov_whole [∀ e, Nonempty (Val e)] (v : View sig κ sp S e) {off : Fin S.rank → ℕ}
    (hz : off = fun _ => 0) (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.Mem.head _, View.mem_set_unit_zero hz inb y⟩),
    View.canon_cons_unit_zero hz, View.ld_unit_zero hz]

/-- The zero offsets of a rank-2 rectangle, as the printed programs spell them. -/
theorem zero_off2 : (![0, 0] : Fin 2 → ℕ) = fun _ => 0 := by funext a; fin_cases a <;> rfl

end Idealize.ShloMosaic.WholeBuffer
-- ==== Proof.K.State.lean ====
import proofs.«142443_j28853590294649_2_alg».proof.Proof.Gen.Kernel.Frame
import proofs.«142443_j28853590294649_2_alg».proof.Proof.Gen.Kernel.Skeleton
import Idealize.ShloMosaic.Lib.Pipeline.Value
import proofs.«142443_j28853590294649_2_alg».proof.Proof.LibWholeBuffer

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The reduction axis is at its first block (the dense accumulator is reset here). -/
abbrev condK0 (i : grid0.Coords) : Prop := (Scalar.cmpi .ne (Scalar.extui (Scalar.cmpi .eq (BitVec.ofNat 32 (i 2).val) 0#32)) 0#32) = 1#1
/-- The first output tile of a row block AND the first reduction block (the projection accumulator is reset here). -/
abbrev condNK0 (i : grid0.Coords) : Prop := (Scalar.cmpi .ne (Scalar.extui (Scalar.andi (Scalar.cmpi .eq (BitVec.ofNat 32 (i 1).val) 0#32) (Scalar.cmpi .eq (BitVec.ofNat 32 (i 2).val) 0#32))) 0#32) = 1#1
/-- The first output tile of a row block (the projection is accumulated only here). -/
abbrev condN0 (i : grid0.Coords) : Prop := (Scalar.cmpi .ne (Scalar.extui (Scalar.cmpi .eq (BitVec.ofNat 32 (i 1).val) 0#32)) 0#32) = 1#1
/-- The reduction axis is at its last block (the tile is finished and stored here). -/
abbrev condK3 (i : grid0.Coords) : Prop := k0_cond4 i = 1#1

/-- Over the 64 grid points in their order (row block slowest, reduction block fastest), each condition in closed form. -/
theorem hcondK0 : ∀ t : Fin cfg0.N, condK0 (grid0.coords t) ↔ t.val % 4 = 0 :=
  (by decide +kernel : ∀ t : Fin grid0.N, condK0 (grid0.coords t) ↔ t.val % 4 = 0)
theorem hcondNK0 : ∀ t : Fin cfg0.N, condNK0 (grid0.coords t) ↔ t.val % 16 = 0 :=
  (by decide +kernel : ∀ t : Fin grid0.N, condNK0 (grid0.coords t) ↔ t.val % 16 = 0)
theorem hcondN0 : ∀ t : Fin cfg0.N, condN0 (grid0.coords t) ↔ t.val % 16 < 4 :=
  (by decide +kernel : ∀ t : Fin grid0.N, condN0 (grid0.coords t) ↔ t.val % 16 < 4)
theorem hcondK3 : ∀ t : Fin cfg0.N, condK3 (grid0.coords t) ↔ t.val % 4 = 3 :=
  (by decide +kernel : ∀ t : Fin grid0.N, condK3 (grid0.coords t) ↔ t.val % 4 = 3)

/-! ## Where the windows are idle: the inputs never, the output wherever the tile is not finished -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem idleAt0_5 : ∀ t : Fin cfg0.N, ¬condK3 (grid0.coords t) → cfg0.idle 5 (grid0.coords t) = true := by decide +kernel
theorem noFlush0_5 : ∀ t : Fin cfg0.N, ¬condK3 (grid0.coords t) → (cfg0.win 5).flush t = false := by decide +kernel
theorem liveAt0_5 : ∀ t : Fin cfg0.N, condK3 (grid0.coords t) → cfg0.idle 5 (grid0.coords t) = false := by decide +kernel

/-! ## The memrefs the body is called with at a point -/

abbrev ms0_0 (t : Fin cfg0.N) : Memref sig .tc .vmem S2048x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x32 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x32 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2048x1024 .f32 := win0_5.stage (cfg0.slots t 5)
abbrev hs0_5 (t : Fin cfg0.N) : (ms0_5 t).IsWhole := hstage0_5 ((cfg0.slots t 5).cast nbuf0_5)
/-- The dense accumulator: a [2048, 1024] scratch kept across the reduction blocks of one output tile. -/
abbrev scM0 : Memref sig .tc .vmem S2048x1024 .f32 := Memref.whole cc0_scratch0
/-- The projection accumulator: a [2048, 32] scratch kept across a whole row block. -/
abbrev scM1 : Memref sig .tc .vmem S2048x32 .f32 := Memref.whole cc0_scratch1

/-- What the launch hands the region besides the windows: the two scratch buffers at some contents and the generator register. -/
theorem PhiA0_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

variable (m : (ℓ : Loc nD τ sig) → Buf (Elt F) ℓ)

/-! ## What the two accumulators and the output tile hold after each point

Point `n` of the grid is (row block, output tile, reduction block) = (n / 16, n / 4 % 4, n % 4). -/

/-- The dense accumulator after point `n`: reset at the first reduction block of a tile (`n % 4 = 0`), and at every
    point increased by the product of the point's activation block with its weight block. -/
def accAt (c : Dev nD) : (n : ℕ) → n < cfg0.N → Vec F S2048x1024 .f32
  | 0, hn => k0_pay4 (iblk m c 0 ⟨0, hn⟩) (iblk m c 1 ⟨0, hn⟩) k0_pay1
  | n + 1, hn => k0_pay4 (iblk m c 0 ⟨n + 1, hn⟩) (iblk m c 1 ⟨n + 1, hn⟩)
      (if (n + 1) % 4 = 0 then k0_pay1 else accAt c n (Nat.lt_of_succ_lt hn))

/-- The projection accumulator after point `n`: touched only during the first output tile of a row block
    (`n % 16 < 4`), reset at that tile's first reduction block (`n % 16 = 0`) and increased by the product of the
    activation block with the block of the second factor; during the other tiles it keeps what that tile left. -/
def xbAt (c : Dev nD) : (n : ℕ) → n < cfg0.N → Vec F S2048x32 .f32
  | 0, hn => k0_pay5 (iblk m c 0 ⟨0, hn⟩) (iblk m c 2 ⟨0, hn⟩) k0_pay2
  | n + 1, hn =>
    if (n + 1) % 16 < 4 then
      k0_pay5 (iblk m c 0 ⟨n + 1, hn⟩) (iblk m c 2 ⟨n + 1, hn⟩)
        (if (n + 1) % 16 = 0 then k0_pay2 else xbAt c n (Nat.lt_of_succ_lt hn))
    else xbAt c n (Nat.lt_of_succ_lt hn)

/-- The output tile as the body would store it at point `n` (it does so at the last reduction block, `n % 4 = 3`):
    the dense accumulator plus the projections combined with the first factor's block, plus the bias block. -/
def outAt (c : Dev nD) (n : ℕ) (hn : n < cfg0.N) : Vec F S2048x1024 .f32 :=
  k0_pay6 (xbAt m c n hn) (iblk m c 3 ⟨n, hn⟩) (accAt m c n hn) (iblk m c 4 ⟨n, hn⟩)

theorem accAt_eq (c : Dev nD) (t : Fin cfg0.N) :
    accAt m c t.val t.isLt = k0_pay4 (iblk m c 0 t) (iblk m c 1 t)
      (if t.val % 4 = 0 then k0_pay1 else accAt m c (t.val - 1) (Nat.lt_of_le_of_lt (Nat.sub_le _ _) t.isLt)) := by
  obtain ⟨n, hn⟩ := t
  cases n with
  | zero => exact rfl
  | succ n => exact rfl

theorem xbAt_eq (c : Dev nD) (t : Fin cfg0.N) :
    xbAt m c t.val t.isLt =
      if t.val % 16 < 4 then
        k0_pay5 (iblk m c 0 t) (iblk m c 2 t)
          (if t.val % 16 = 0 then k0_pay2 else xbAt m c (t.val - 1) (Nat.lt_of_le_of_lt (Nat.sub_le _ _) t.isLt))
      else xbAt m c (t.val - 1) (Nat.lt_of_le_of_lt (Nat.sub_le _ _) t.isLt) := by
  obtain ⟨n, hn⟩ := t
  cases n with
  | zero => exact rfl
  | succ n => exact rfl

end Cert.Kernel.Body

end
-- ==== Proof.K.RunA.lean ====
import proofs.«142443_j28853590294649_2_alg».proof.Proof.Gen.Kernel.Frame
import proofs.«142443_j28853590294649_2_alg».proof.Proof.Gen.Kernel.Skeleton
import proofs.«142443_j28853590294649_2_alg».proof.Proof.K.State

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Idealize.ShloMosaic.WholeBuffer

variable {F : FTy → Type} [FloatOps F]

local notation "𝕄" => MT nD τ sig Unit (Elt F) ℕ (UR sig nD τ) ℕ

set_option maxHeartbeats 1000000 in
/-- The body at a point of case A — the first reduction block of the first output tile of a row block: both accumulators are reset, then increased. On whole memrefs held at known contents it runs to the end
    and leaves the inputs as they were, the dense accumulator at `(k0_pay4 x0 x1 k0_pay1)`, the projection accumulator at
    `(k0_pay5 x0 x2 k0_pay2)` and the output buffer at what it held. -/
theorem run_A (c : Dev nD) (i : grid0.Coords)
    (arg3 : Memref sig .tc .vmem S2048x1024 .bf16) (harg3 : arg3.IsWhole) (arg4 : Memref sig .tc .vmem S1024x1024 .bf16) (harg4 : arg4.IsWhole)
    (arg5 : Memref sig .tc .vmem S1024x32 .bf16) (harg5 : arg5.IsWhole) (arg6 : Memref sig .tc .vmem S1024x32 .f32) (harg6 : arg6.IsWhole)
    (arg7 : Memref sig .tc .vmem S1x1024 .f32) (harg7 : arg7.IsWhole) (arg8 : Memref sig .tc .vmem S2048x1024 .f32) (harg8 : arg8.IsWhole)
    (arg9 : Memref sig .tc .vmem S2048x1024 .f32) (harg9 : arg9.IsWhole) (arg10 : Memref sig .tc .vmem S2048x32 .f32) (harg10 : arg10.IsWhole)
    (hK0 : condK0 i) (hNK0 : condNK0 i) (hN0 : condN0 i) (hK3 : ¬condK3 i)
    (x0 : Vec F S2048x1024 .bf16) (x1 : Vec F S1024x1024 .bf16) (x2 : Vec F S1024x32 .bf16) (x3 : Vec F S1024x32 .f32) (x4 : Vec F S1x1024 .f32)
    (o5 : Vec F S2048x1024 .f32) (acc : Vec F S2048x1024 .f32) (xb : Vec F S2048x32 .f32)
    (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare o5
        ∗ owns (c : Thread nD τ) arg9 fullShare acc ∗ owns (c : Thread nD τ) arg10 fullShare xb
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4 ∗ owns (c : Thread nD τ) arg8 fullShare o5
            ∗ owns (c : Thread nD τ) arg9 fullShare (k0_pay4 x0 x1 k0_pay1) ∗ owns (c : Thread nD τ) arg10 fullShare (k0_pay5 x0 x2 k0_pay2)) -∗ K ⟨⟩))
      ⊢ wp frame (wpE (defs₀ (F := F)) Variants.none c none) E (cc0__fused_kernel i arg3 harg3 arg4 harg4 arg5 harg5 arg6 harg6 arg7 harg7 arg8 harg8 arg9 harg9 arg10 harg10) K := by
  simp only [cc0__fused_kernel_eq_skeleton]; unfold cc0__fused_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f9, %hf9, H9⟩, ⟨%f10, %hf10, H10⟩, Hk⟩
  obtain rfl := harg3.eq_unread hf0; obtain rfl := harg4.eq_unread hf1; obtain rfl := harg5.eq_unread hf2
  obtain rfl := harg6.eq_unread hf3; obtain rfl := harg7.eq_unread hf4; obtain rfl := harg8.eq_unread hf5
  obtain rfl := harg9.eq_unread hf9; obtain rfl := harg10.eq_unread hf10
  sl_exec (disch := first | exact hK0 | exact hNK0 | exact hN0 | exact hK3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H9]
  · iexists _; isplitr
    swap; · iexact H9
    ipureintro
    sl_unfold_run_names
    rw [read_writes_whole (S := S2048x1024) _ _ zero_off2]
    simp only [readAt_whole harg3 zero_off2, readAt_whole harg4 zero_off2, readAt_whole harg5 zero_off2, readAt_whole harg6 zero_off2, readAt_whole harg7 zero_off2, readAt_whole harg8 zero_off2, readAt_whole harg9 zero_off2, readAt_whole harg10 zero_off2, readCov_whole (S := S2048x1024) _ zero_off2, readCov_whole (S := S2048x32) _ zero_off2]
  iexists _; isplitr
  swap; · iexact H10
  ipureintro
  sl_unfold_run_names
  rw [read_writes_whole (S := S2048x32) _ _ zero_off2]
  simp only [readAt_whole harg3 zero_off2, readAt_whole harg4 zero_off2, readAt_whole harg5 zero_off2, readAt_whole harg6 zero_off2, readAt_whole harg7 zero_off2, readAt_whole harg8 zero_off2, readAt_whole harg9 zero_off2, readAt_whole harg10 zero_off2, readCov_whole (S := S2048x1024) _ zero_off2, readCov_whole (S := S2048x32) _ zero_off2]

end Cert.Kernel.Body

end
-- ==== Proof.K.RunB.lean ====
import proofs.«142443_j28853590294649_2_alg».proof.Proof.Gen.Kernel.Frame
import proofs.«142443_j28853590294649_2_alg».proof.Proof.Gen.Kernel.Skeleton
import proofs.«142443_j28853590294649_2_alg».proof.Proof.K.State

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Idealize.ShloMosaic.WholeBuffer

variable {F : FTy → Type} [FloatOps F]

local notation "𝕄" => MT nD τ sig Unit (Elt F) ℕ (UR sig nD τ) ℕ

set_option maxHeartbeats 1000000 in
/-- The body at a point of case B — a middle reduction block of the first output tile: both accumulators are increased. On whole memrefs held at known contents it runs to the end
    and leaves the inputs as they were, the dense accumulator at `(k0_pay4 x0 x1 acc)`, the projection accumulator at
    `(k0_pay5 x0 x2 xb)` and the output buffer at what it held. -/
theorem run_B (c : Dev nD) (i : grid0.Coords)
    (arg3 : Memref sig .tc .vmem S2048x1024 .bf16) (harg3 : arg3.IsWhole) (arg4 : Memref sig .tc .vmem S1024x1024 .bf16) (harg4 : arg4.IsWhole)
    (arg5 : Memref sig .tc .vmem S1024x32 .bf16) (harg5 : arg5.IsWhole) (arg6 : Memref sig .tc .vmem S1024x32 .f32) (harg6 : arg6.IsWhole)
    (arg7 : Memref sig .tc .vmem S1x1024 .f32) (harg7 : arg7.IsWhole) (arg8 : Memref sig .tc .vmem S2048x1024 .f32) (harg8 : arg8.IsWhole)
    (arg9 : Memref sig .tc .vmem S2048x1024 .f32) (harg9 : arg9.IsWhole) (arg10 : Memref sig .tc .vmem S2048x32 .f32) (harg10 : arg10.IsWhole)
    (hK0 : ¬condK0 i) (hNK0 : ¬condNK0 i) (hN0 : condN0 i) (hK3 : ¬condK3 i)
    (x0 : Vec F S2048x1024 .bf16) (x1 : Vec F S1024x1024 .bf16) (x2 : Vec F S1024x32 .bf16) (x3 : Vec F S1024x32 .f32) (x4 : Vec F S1x1024 .f32)
    (o5 : Vec F S2048x1024 .f32) (acc : Vec F S2048x1024 .f32) (xb : Vec F S2048x32 .f32)
    (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare o5
        ∗ owns (c : Thread nD τ) arg9 fullShare acc ∗ owns (c : Thread nD τ) arg10 fullShare xb
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4 ∗ owns (c : Thread nD τ) arg8 fullShare o5
            ∗ owns (c : Thread nD τ) arg9 fullShare (k0_pay4 x0 x1 acc) ∗ owns (c : Thread nD τ) arg10 fullShare (k0_pay5 x0 x2 xb)) -∗ K ⟨⟩))
      ⊢ wp frame (wpE (defs₀ (F := F)) Variants.none c none) E (cc0__fused_kernel i arg3 harg3 arg4 harg4 arg5 harg5 arg6 harg6 arg7 harg7 arg8 harg8 arg9 harg9 arg10 harg10) K := by
  simp only [cc0__fused_kernel_eq_skeleton]; unfold cc0__fused_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f9, %hf9, H9⟩, ⟨%f10, %hf10, H10⟩, Hk⟩
  obtain rfl := harg3.eq_unread hf0; obtain rfl := harg4.eq_unread hf1; obtain rfl := harg5.eq_unread hf2
  obtain rfl := harg6.eq_unread hf3; obtain rfl := harg7.eq_unread hf4; obtain rfl := harg8.eq_unread hf5
  obtain rfl := harg9.eq_unread hf9; obtain rfl := harg10.eq_unread hf10
  sl_exec (disch := first | exact hK0 | exact hNK0 | exact hN0 | exact hK3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H9]
  · iexists _; isplitr
    swap; · iexact H9
    ipureintro
    sl_unfold_run_names
    rw [read_writes_whole (S := S2048x1024) _ _ zero_off2]
    simp only [readAt_whole harg3 zero_off2, readAt_whole harg4 zero_off2, readAt_whole harg5 zero_off2, readAt_whole harg6 zero_off2, readAt_whole harg7 zero_off2, readAt_whole harg8 zero_off2, readAt_whole harg9 zero_off2, readAt_whole harg10 zero_off2, readCov_whole (S := S2048x1024) _ zero_off2, readCov_whole (S := S2048x32) _ zero_off2]
  iexists _; isplitr
  swap; · iexact H10
  ipureintro
  sl_unfold_run_names
  rw [read_writes_whole (S := S2048x32) _ _ zero_off2]
  simp only [readAt_whole harg3 zero_off2, readAt_whole harg4 zero_off2, readAt_whole harg5 zero_off2, readAt_whole harg6 zero_off2, readAt_whole harg7 zero_off2, readAt_whole harg8 zero_off2, readAt_whole harg9 zero_off2, readAt_whole harg10 zero_off2, readCov_whole (S := S2048x1024) _ zero_off2, readCov_whole (S := S2048x32) _ zero_off2]

end Cert.Kernel.Body

end
-- ==== Proof.K.RunC.lean ====
import proofs.«142443_j28853590294649_2_alg».proof.Proof.Gen.Kernel.Frame
import proofs.«142443_j28853590294649_2_alg».proof.Proof.Gen.Kernel.Skeleton
import proofs.«142443_j28853590294649_2_alg».proof.Proof.K.State

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Idealize.ShloMosaic.WholeBuffer

variable {F : FTy → Type} [FloatOps F]

local notation "𝕄" => MT nD τ sig Unit (Elt F) ℕ (UR sig nD τ) ℕ

set_option maxHeartbeats 1000000 in
/-- The body at a point of case C — the last reduction block of the first output tile: both accumulators are increased and the tile is finished. On whole memrefs held at known contents it runs to the end
    and leaves the inputs as they were, the dense accumulator at `(k0_pay4 x0 x1 acc)`, the projection accumulator at
    `(k0_pay5 x0 x2 xb)` and the output buffer at the finished tile. -/
theorem run_C (c : Dev nD) (i : grid0.Coords)
    (arg3 : Memref sig .tc .vmem S2048x1024 .bf16) (harg3 : arg3.IsWhole) (arg4 : Memref sig .tc .vmem S1024x1024 .bf16) (harg4 : arg4.IsWhole)
    (arg5 : Memref sig .tc .vmem S1024x32 .bf16) (harg5 : arg5.IsWhole) (arg6 : Memref sig .tc .vmem S1024x32 .f32) (harg6 : arg6.IsWhole)
    (arg7 : Memref sig .tc .vmem S1x1024 .f32) (harg7 : arg7.IsWhole) (arg8 : Memref sig .tc .vmem S2048x1024 .f32) (harg8 : arg8.IsWhole)
    (arg9 : Memref sig .tc .vmem S2048x1024 .f32) (harg9 : arg9.IsWhole) (arg10 : Memref sig .tc .vmem S2048x32 .f32) (harg10 : arg10.IsWhole)
    (hK0 : ¬condK0 i) (hNK0 : ¬condNK0 i) (hN0 : condN0 i) (hK3 : condK3 i)
    (x0 : Vec F S2048x1024 .bf16) (x1 : Vec F S1024x1024 .bf16) (x2 : Vec F S1024x32 .bf16) (x3 : Vec F S1024x32 .f32) (x4 : Vec F S1x1024 .f32)
    (o5 : Vec F S2048x1024 .f32) (acc : Vec F S2048x1024 .f32) (xb : Vec F S2048x32 .f32)
    (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare o5
        ∗ owns (c : Thread nD τ) arg9 fullShare acc ∗ owns (c : Thread nD τ) arg10 fullShare xb
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4 ∗ owns (c : Thread nD τ) arg8 fullShare (k0_pay6 (k0_pay5 x0 x2 xb) x3 (k0_pay4 x0 x1 acc) x4)
            ∗ owns (c : Thread nD τ) arg9 fullShare (k0_pay4 x0 x1 acc) ∗ owns (c : Thread nD τ) arg10 fullShare (k0_pay5 x0 x2 xb)) -∗ K ⟨⟩))
      ⊢ wp frame (wpE (defs₀ (F := F)) Variants.none c none) E (cc0__fused_kernel i arg3 harg3 arg4 harg4 arg5 harg5 arg6 harg6 arg7 harg7 arg8 harg8 arg9 harg9 arg10 harg10) K := by
  simp only [cc0__fused_kernel_eq_skeleton]; unfold cc0__fused_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f9, %hf9, H9⟩, ⟨%f10, %hf10, H10⟩, Hk⟩
  obtain rfl := harg3.eq_unread hf0; obtain rfl := harg4.eq_unread hf1; obtain rfl := harg5.eq_unread hf2
  obtain rfl := harg6.eq_unread hf3; obtain rfl := harg7.eq_unread hf4; obtain rfl := harg8.eq_unread hf5
  obtain rfl := harg9.eq_unread hf9; obtain rfl := harg10.eq_unread hf10
  sl_exec (disch := first | exact hK0 | exact hNK0 | exact hN0 | exact hK3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr
    swap; · iexact H5
    ipureintro
    sl_unfold_run_names
    rw [read_writes_whole (S := S2048x1024) _ _ zero_off2]
    simp only [readAt_whole harg3 zero_off2, readAt_whole harg4 zero_off2, readAt_whole harg5 zero_off2, readAt_whole harg6 zero_off2, readAt_whole harg7 zero_off2, readAt_whole harg8 zero_off2, readAt_whole harg9 zero_off2, readAt_whole harg10 zero_off2, readCov_whole (S := S2048x1024) _ zero_off2, readCov_whole (S := S2048x32) _ zero_off2]
  isplitl [H9]
  · iexists _; isplitr
    swap; · iexact H9
    ipureintro
    sl_unfold_run_names
    rw [read_writes_whole (S := S2048x1024) _ _ zero_off2]
    simp only [readAt_whole harg3 zero_off2, readAt_whole harg4 zero_off2, readAt_whole harg5 zero_off2, readAt_whole harg6 zero_off2, readAt_whole harg7 zero_off2, readAt_whole harg8 zero_off2, readAt_whole harg9 zero_off2, readAt_whole harg10 zero_off2, readCov_whole (S := S2048x1024) _ zero_off2, readCov_whole (S := S2048x32) _ zero_off2]
  iexists _; isplitr
  swap; · iexact H10
  ipureintro
  sl_unfold_run_names
  rw [read_writes_whole (S := S2048x32) _ _ zero_off2]
  simp only [readAt_whole harg3 zero_off2, readAt_whole harg4 zero_off2, readAt_whole harg5 zero_off2, readAt_whole harg6 zero_off2, readAt_whole harg7 zero_off2, readAt_whole harg8 zero_off2, readAt_whole harg9 zero_off2, readAt_whole harg10 zero_off2, readCov_whole (S := S2048x1024) _ zero_off2, readCov_whole (S := S2048x32) _ zero_off2]

end Cert.Kernel.Body

end
-- ==== Proof.K.RunD.lean ====
import proofs.«142443_j28853590294649_2_alg».proof.Proof.Gen.Kernel.Frame
import proofs.«142443_j28853590294649_2_alg».proof.Proof.Gen.Kernel.Skeleton
import proofs.«142443_j28853590294649_2_alg».proof.Proof.K.State

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Idealize.ShloMosaic.WholeBuffer

variable {F : FTy → Type} [FloatOps F]

local notation "𝕄" => MT nD τ sig Unit (Elt F) ℕ (UR sig nD τ) ℕ

set_option maxHeartbeats 1000000 in
/-- The body at a point of case D — the first reduction block of a later output tile: the dense accumulator is reset and increased, the projections are kept. On whole memrefs held at known contents it runs to the end
    and leaves the inputs as they were, the dense accumulator at `(k0_pay4 x0 x1 k0_pay1)`, the projection accumulator at
    `xb` and the output buffer at what it held. -/
theorem run_D (c : Dev nD) (i : grid0.Coords)
    (arg3 : Memref sig .tc .vmem S2048x1024 .bf16) (harg3 : arg3.IsWhole) (arg4 : Memref sig .tc .vmem S1024x1024 .bf16) (harg4 : arg4.IsWhole)
    (arg5 : Memref sig .tc .vmem S1024x32 .bf16) (harg5 : arg5.IsWhole) (arg6 : Memref sig .tc .vmem S1024x32 .f32) (harg6 : arg6.IsWhole)
    (arg7 : Memref sig .tc .vmem S1x1024 .f32) (harg7 : arg7.IsWhole) (arg8 : Memref sig .tc .vmem S2048x1024 .f32) (harg8 : arg8.IsWhole)
    (arg9 : Memref sig .tc .vmem S2048x1024 .f32) (harg9 : arg9.IsWhole) (arg10 : Memref sig .tc .vmem S2048x32 .f32) (harg10 : arg10.IsWhole)
    (hK0 : condK0 i) (hNK0 : ¬condNK0 i) (hN0 : ¬condN0 i) (hK3 : ¬condK3 i)
    (x0 : Vec F S2048x1024 .bf16) (x1 : Vec F S1024x1024 .bf16) (x2 : Vec F S1024x32 .bf16) (x3 : Vec F S1024x32 .f32) (x4 : Vec F S1x1024 .f32)
    (o5 : Vec F S2048x1024 .f32) (acc : Vec F S2048x1024 .f32) (xb : Vec F S2048x32 .f32)
    (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare o5
        ∗ owns (c : Thread nD τ) arg9 fullShare acc ∗ owns (c : Thread nD τ) arg10 fullShare xb
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4 ∗ owns (c : Thread nD τ) arg8 fullShare o5
            ∗ owns (c : Thread nD τ) arg9 fullShare (k0_pay4 x0 x1 k0_pay1) ∗ owns (c : Thread nD τ) arg10 fullShare xb) -∗ K ⟨⟩))
      ⊢ wp frame (wpE (defs₀ (F := F)) Variants.none c none) E (cc0__fused_kernel i arg3 harg3 arg4 harg4 arg5 harg5 arg6 harg6 arg7 harg7 arg8 harg8 arg9 harg9 arg10 harg10) K := by
  simp only [cc0__fused_kernel_eq_skeleton]; unfold cc0__fused_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f9, %hf9, H9⟩, ⟨%f10, %hf10, H10⟩, Hk⟩
  obtain rfl := harg3.eq_unread hf0; obtain rfl := harg4.eq_unread hf1; obtain rfl := harg5.eq_unread hf2
  obtain rfl := harg6.eq_unread hf3; obtain rfl := harg7.eq_unread hf4; obtain rfl := harg8.eq_unread hf5
  obtain rfl := harg9.eq_unread hf9; obtain rfl := harg10.eq_unread hf10
  sl_exec (disch := first | exact hK0 | exact hNK0 | exact hN0 | exact hK3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H9]
  · iexists _; isplitr
    swap; · iexact H9
    ipureintro
    sl_unfold_run_names
    rw [read_writes_whole (S := S2048x1024) _ _ zero_off2]
    simp only [readAt_whole harg3 zero_off2, readAt_whole harg4 zero_off2, readAt_whole harg5 zero_off2, readAt_whole harg6 zero_off2, readAt_whole harg7 zero_off2, readAt_whole harg8 zero_off2, readAt_whole harg9 zero_off2, readAt_whole harg10 zero_off2, readCov_whole (S := S2048x1024) _ zero_off2, readCov_whole (S := S2048x32) _ zero_off2]
  iexists _; isplitr; · ipureintro; exact harg10.read_unread _
  iexact H10

end Cert.Kernel.Body

end
-- ==== Proof.K.RunE.lean ====
import proofs.«142443_j28853590294649_2_alg».proof.Proof.Gen.Kernel.Frame
import proofs.«142443_j28853590294649_2_alg».proof.Proof.Gen.Kernel.Skeleton
import proofs.«142443_j28853590294649_2_alg».proof.Proof.K.State

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Idealize.ShloMosaic.WholeBuffer

variable {F : FTy → Type} [FloatOps F]

local notation "𝕄" => MT nD τ sig Unit (Elt F) ℕ (UR sig nD τ) ℕ

set_option maxHeartbeats 1000000 in
/-- The body at a point of case E — a middle reduction block of a later output tile: the dense accumulator is increased, the projections are kept. On whole memrefs held at known contents it runs to the end
    and leaves the inputs as they were, the dense accumulator at `(k0_pay4 x0 x1 acc)`, the projection accumulator at
    `xb` and the output buffer at what it held. -/
theorem run_E (c : Dev nD) (i : grid0.Coords)
    (arg3 : Memref sig .tc .vmem S2048x1024 .bf16) (harg3 : arg3.IsWhole) (arg4 : Memref sig .tc .vmem S1024x1024 .bf16) (harg4 : arg4.IsWhole)
    (arg5 : Memref sig .tc .vmem S1024x32 .bf16) (harg5 : arg5.IsWhole) (arg6 : Memref sig .tc .vmem S1024x32 .f32) (harg6 : arg6.IsWhole)
    (arg7 : Memref sig .tc .vmem S1x1024 .f32) (harg7 : arg7.IsWhole) (arg8 : Memref sig .tc .vmem S2048x1024 .f32) (harg8 : arg8.IsWhole)
    (arg9 : Memref sig .tc .vmem S2048x1024 .f32) (harg9 : arg9.IsWhole) (arg10 : Memref sig .tc .vmem S2048x32 .f32) (harg10 : arg10.IsWhole)
    (hK0 : ¬condK0 i) (hNK0 : ¬condNK0 i) (hN0 : ¬condN0 i) (hK3 : ¬condK3 i)
    (x0 : Vec F S2048x1024 .bf16) (x1 : Vec F S1024x1024 .bf16) (x2 : Vec F S1024x32 .bf16) (x3 : Vec F S1024x32 .f32) (x4 : Vec F S1x1024 .f32)
    (o5 : Vec F S2048x1024 .f32) (acc : Vec F S2048x1024 .f32) (xb : Vec F S2048x32 .f32)
    (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare o5
        ∗ owns (c : Thread nD τ) arg9 fullShare acc ∗ owns (c : Thread nD τ) arg10 fullShare xb
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4 ∗ owns (c : Thread nD τ) arg8 fullShare o5
            ∗ owns (c : Thread nD τ) arg9 fullShare (k0_pay4 x0 x1 acc) ∗ owns (c : Thread nD τ) arg10 fullShare xb) -∗ K ⟨⟩))
      ⊢ wp frame (wpE (defs₀ (F := F)) Variants.none c none) E (cc0__fused_kernel i arg3 harg3 arg4 harg4 arg5 harg5 arg6 harg6 arg7 harg7 arg8 harg8 arg9 harg9 arg10 harg10) K := by
  simp only [cc0__fused_kernel_eq_skeleton]; unfold cc0__fused_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f9, %hf9, H9⟩, ⟨%f10, %hf10, H10⟩, Hk⟩
  obtain rfl := harg3.eq_unread hf0; obtain rfl := harg4.eq_unread hf1; obtain rfl := harg5.eq_unread hf2
  obtain rfl := harg6.eq_unread hf3; obtain rfl := harg7.eq_unread hf4; obtain rfl := harg8.eq_unread hf5
  obtain rfl := harg9.eq_unread hf9; obtain rfl := harg10.eq_unread hf10
  sl_exec (disch := first | exact hK0 | exact hNK0 | exact hN0 | exact hK3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H9]
  · iexists _; isplitr
    swap; · iexact H9
    ipureintro
    sl_unfold_run_names
    rw [read_writes_whole (S := S2048x1024) _ _ zero_off2]
    simp only [readAt_whole harg3 zero_off2, readAt_whole harg4 zero_off2, readAt_whole harg5 zero_off2, readAt_whole harg6 zero_off2, readAt_whole harg7 zero_off2, readAt_whole harg8 zero_off2, readAt_whole harg9 zero_off2, readAt_whole harg10 zero_off2, readCov_whole (S := S2048x1024) _ zero_off2, readCov_whole (S := S2048x32) _ zero_off2]
  iexists _; isplitr; · ipureintro; exact harg10.read_unread _
  iexact H10

end Cert.Kernel.Body

end
-- ==== Proof.K.RunF.lean ====
import proofs.«142443_j28853590294649_2_alg».proof.Proof.Gen.Kernel.Frame
import proofs.«142443_j28853590294649_2_alg».proof.Proof.Gen.Kernel.Skeleton
import proofs.«142443_j28853590294649_2_alg».proof.Proof.K.State

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Idealize.ShloMosaic.WholeBuffer

variable {F : FTy → Type} [FloatOps F]

local notation "𝕄" => MT nD τ sig Unit (Elt F) ℕ (UR sig nD τ) ℕ

set_option maxHeartbeats 1000000 in
/-- The body at a point of case F — the last reduction block of a later output tile: the dense accumulator is increased and the tile is finished with the kept projections. On whole memrefs held at known contents it runs to the end
    and leaves the inputs as they were, the dense accumulator at `(k0_pay4 x0 x1 acc)`, the projection accumulator at
    `xb` and the output buffer at the finished tile. -/
theorem run_F (c : Dev nD) (i : grid0.Coords)
    (arg3 : Memref sig .tc .vmem S2048x1024 .bf16) (harg3 : arg3.IsWhole) (arg4 : Memref sig .tc .vmem S1024x1024 .bf16) (harg4 : arg4.IsWhole)
    (arg5 : Memref sig .tc .vmem S1024x32 .bf16) (harg5 : arg5.IsWhole) (arg6 : Memref sig .tc .vmem S1024x32 .f32) (harg6 : arg6.IsWhole)
    (arg7 : Memref sig .tc .vmem S1x1024 .f32) (harg7 : arg7.IsWhole) (arg8 : Memref sig .tc .vmem S2048x1024 .f32) (harg8 : arg8.IsWhole)
    (arg9 : Memref sig .tc .vmem S2048x1024 .f32) (harg9 : arg9.IsWhole) (arg10 : Memref sig .tc .vmem S2048x32 .f32) (harg10 : arg10.IsWhole)
    (hK0 : ¬condK0 i) (hNK0 : ¬condNK0 i) (hN0 : ¬condN0 i) (hK3 : condK3 i)
    (x0 : Vec F S2048x1024 .bf16) (x1 : Vec F S1024x1024 .bf16) (x2 : Vec F S1024x32 .bf16) (x3 : Vec F S1024x32 .f32) (x4 : Vec F S1x1024 .f32)
    (o5 : Vec F S2048x1024 .f32) (acc : Vec F S2048x1024 .f32) (xb : Vec F S2048x32 .f32)
    (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare o5
        ∗ owns (c : Thread nD τ) arg9 fullShare acc ∗ owns (c : Thread nD τ) arg10 fullShare xb
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4 ∗ owns (c : Thread nD τ) arg8 fullShare (k0_pay6 xb x3 (k0_pay4 x0 x1 acc) x4)
            ∗ owns (c : Thread nD τ) arg9 fullShare (k0_pay4 x0 x1 acc) ∗ owns (c : Thread nD τ) arg10 fullShare xb) -∗ K ⟨⟩))
      ⊢ wp frame (wpE (defs₀ (F := F)) Variants.none c none) E (cc0__fused_kernel i arg3 harg3 arg4 harg4 arg5 harg5 arg6 harg6 arg7 harg7 arg8 harg8 arg9 harg9 arg10 harg10) K := by
  simp only [cc0__fused_kernel_eq_skeleton]; unfold cc0__fused_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f9, %hf9, H9⟩, ⟨%f10, %hf10, H10⟩, Hk⟩
  obtain rfl := harg3.eq_unread hf0; obtain rfl := harg4.eq_unread hf1; obtain rfl := harg5.eq_unread hf2
  obtain rfl := harg6.eq_unread hf3; obtain rfl := harg7.eq_unread hf4; obtain rfl := harg8.eq_unread hf5
  obtain rfl := harg9.eq_unread hf9; obtain rfl := harg10.eq_unread hf10
  sl_exec (disch := first | exact hK0 | exact hNK0 | exact hN0 | exact hK3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr
    swap; · iexact H5
    ipureintro
    sl_unfold_run_names
    rw [read_writes_whole (S := S2048x1024) _ _ zero_off2]
    simp only [readAt_whole harg3 zero_off2, readAt_whole harg4 zero_off2, readAt_whole harg5 zero_off2, readAt_whole harg6 zero_off2, readAt_whole harg7 zero_off2, readAt_whole harg8 zero_off2, readAt_whole harg9 zero_off2, readAt_whole harg10 zero_off2, readCov_whole (S := S2048x1024) _ zero_off2, readCov_whole (S := S2048x32) _ zero_off2]
  isplitl [H9]
  · iexists _; isplitr
    swap; · iexact H9
    ipureintro
    sl_unfold_run_names
    rw [read_writes_whole (S := S2048x1024) _ _ zero_off2]
    simp only [readAt_whole harg3 zero_off2, readAt_whole harg4 zero_off2, readAt_whole harg5 zero_off2, readAt_whole harg6 zero_off2, readAt_whole harg7 zero_off2, readAt_whole harg8 zero_off2, readAt_whole harg9 zero_off2, readAt_whole harg10 zero_off2, readCov_whole (S := S2048x1024) _ zero_off2, readCov_whole (S := S2048x32) _ zero_off2]
  iexists _; isplitr; · ipureintro; exact harg10.read_unread _
  iexact H10

end Cert.Kernel.Body

end
-- ==== Proof.K.Frame.lean ====
import proofs.«142443_j28853590294649_2_alg».proof.Proof.Gen.Kernel.Frame
import proofs.«142443_j28853590294649_2_alg».proof.Proof.Gen.Kernel.Skeleton
import proofs.«142443_j28853590294649_2_alg».proof.Proof.K.RunA
import proofs.«142443_j28853590294649_2_alg».proof.Proof.K.RunB
import proofs.«142443_j28853590294649_2_alg».proof.Proof.K.RunC
import proofs.«142443_j28853590294649_2_alg».proof.Proof.K.RunD
import proofs.«142443_j28853590294649_2_alg».proof.Proof.K.RunE
import proofs.«142443_j28853590294649_2_alg».proof.Proof.K.RunF

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The invariant between points: the two accumulators at what the point before left -/

/-- Before point `n`: at the region's start whatever the launch hands over (both scratch buffers at anything);
    afterwards the dense accumulator at `accAt (n - 1)`, the projection accumulator at `xbAt (n - 1)`, and the
    generator register at some state. -/
def PhiS (c : Dev nD) : (n : ℕ) → n ≤ cfg0.N → sProp 𝕄
  | 0, _ => Pipeline.ΦA spec0 c
  | n + 1, hn => iprop(iprop(owns (c : Thread nD τ) scM0 fullShare (accAt m c n hn) ∗ owns (c : Thread nD τ) scM1 fullShare (xbAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0 fullShare (accAt m c n hn) ∗ owns (c : Thread nD τ) scM1 fullShare (xbAt m c n hn)) ∗ (∃ r, prngReg c r)) := rfl

theorem PhiS_pos (c : Dev nD) (n : ℕ) (h : n ≤ cfg0.N) (hz : n ≠ 0) :
    PhiS m c n h = iprop(iprop(owns (c : Thread nD τ) scM0 fullShare (accAt m c (n - 1) (by omega)) ∗ owns (c : Thread nD τ) scM1 fullShare (xbAt m c (n - 1) (by omega))) ∗ (∃ r, prngReg c r)) := by
  cases n with
  | zero => exact absurd rfl hz
  | succ n => rfl

/-! ## The pipeline's proof data -/

/-- On core `c`: the arrays as the region finds them; after the body at point `t` each input's buffer at its block and
    the output's at the tile `outAt t` (consulted only where the tile is finished and written back); the invariant `PhiS`;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t.val t.isLt
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outAt m c t.val t.isLt := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body must leave in each window's buffer: an input's block, in place; -/
theorem leaves0 (c : Dev nD) (t : Fin cfg0.N) : (dats m 0 c).leavesExact 0 t = owns (c : Thread nD τ) (ms0_0 t) fullShare (iblk m c 0 t) := by
  unfold Dat.leavesExact; rw [liveAt0_0 t, after0_0]
theorem leaves1 (c : Dev nD) (t : Fin cfg0.N) : (dats m 0 c).leavesExact 1 t = owns (c : Thread nD τ) (ms0_1 t) fullShare (iblk m c 1 t) := by
  unfold Dat.leavesExact; rw [liveAt0_1 t, after0_1]
theorem leaves2 (c : Dev nD) (t : Fin cfg0.N) : (dats m 0 c).leavesExact 2 t = owns (c : Thread nD τ) (ms0_2 t) fullShare (iblk m c 2 t) := by
  unfold Dat.leavesExact; rw [liveAt0_2 t, after0_2]
theorem leaves3 (c : Dev nD) (t : Fin cfg0.N) : (dats m 0 c).leavesExact 3 t = owns (c : Thread nD τ) (ms0_3 t) fullShare (iblk m c 3 t) := by
  unfold Dat.leavesExact; rw [liveAt0_3 t, after0_3]
theorem leaves4 (c : Dev nD) (t : Fin cfg0.N) : (dats m 0 c).leavesExact 4 t = owns (c : Thread nD τ) (ms0_4 t) fullShare (iblk m c 4 t) := by
  unfold Dat.leavesExact; rw [liveAt0_4 t, after0_4]
/-- and, where the tile is finished, the tile. -/
theorem leaves5_live (c : Dev nD) (t : Fin cfg0.N) (h : condK3 (grid0.coords t)) :
    (dats m 0 c).leavesExact 5 t = owns (c : Thread nD τ) (ms0_5 t) fullShare (outAt m c t.val t.isLt) := by
  unfold Dat.leavesExact; rw [liveAt0_5 t h, after0_5]

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 1600000 in
/-- The body obligation at a point of case A (the first reduction block of the first output tile of a row block: both accumulators are reset, then increased). -/
theorem sound_A (c : Dev nD) (t : Fin cfg0.N) (hb : t.val % 16 < 4) (ha : t.val % 4 = 0) :
    bodyPre m c t ⊢ wp frame (wpE (defs₀ (F := F)) Variants.none c none) Set.univ (bodyAt0 t) (fun _ => bodyPost m c t) := by
  have hN : t.val < 64 := lt_of_lt_of_eq t.isLt (show cfg0.N = 64 from N_0)
  have hK0 : condK0 (grid0.coords t) := (hcondK0 t).mpr (by omega)
  have hNK0 : condNK0 (grid0.coords t) := (hcondNK0 t).mpr (by omega)
  have hN0 : condN0 (grid0.coords t) := (hcondN0 t).mpr (by omega)
  have hK3 : ¬condK3 (grid0.coords t) := fun h => absurd ((hcondK3 t).mp h) (by omega)
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  rw [leaves0 m c t, leaves1 m c t, leaves2 m c t, leaves3 m c t, leaves4 m c t]
  rw [Dat.leavesExact_idle (dats m 0 c) 5 t (idleAt0_5 t hK3) (noFlush0_5 t hK3)]
  rw [accAt_eq m c t, if_pos (show t.val % 4 = 0 by omega)]
  rw [xbAt_eq m c t, if_pos hb, if_pos (show t.val % 16 = 0 by omega)]
  by_cases hz : t.val = 0
  · rw [PhiS_castSucc m c t, PhiS_zero m c _ _ hz, PhiA0_eq]
    iintro ⟨⟨⟨⟨%d9, HS0⟩, ⟨%d10, HS1⟩⟩, Hg⟩, Ho, ⟨%d0, H0⟩, ⟨%d1, H1⟩, ⟨%d2, H2⟩, ⟨%d3, H3⟩, ⟨%d4, H4⟩, ⟨%d5, H5⟩⟩
    iapply (run_A c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) scM1 (Memref.isWhole_whole _)
      hK0 hNK0 hN0 hK3 (iblk m c 0 t) (iblk m c 1 t) (iblk m c 2 t) (iblk m c 3 t) (iblk m c 4 t) ((dats m 0 c).before 5 t d5) d9 d10 Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    iintro ⟨H0, H1, H2, H3, H4, H5, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · rw [PhiS_castSucc m c t, PhiS_pos m c _ _ hz]
    iintro ⟨⟨⟨HS0, HS1⟩, Hg⟩, Ho, ⟨%d0, H0⟩, ⟨%d1, H1⟩, ⟨%d2, H2⟩, ⟨%d3, H3⟩, ⟨%d4, H4⟩, ⟨%d5, H5⟩⟩
    iapply (run_A c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) scM1 (Memref.isWhole_whole _)
      hK0 hNK0 hN0 hK3 (iblk m c 0 t) (iblk m c 1 t) (iblk m c 2 t) (iblk m c 3 t) (iblk m c 4 t) ((dats m 0 c).before 5 t d5) (accAt m c (t.val - 1) (Nat.lt_of_le_of_lt (Nat.sub_le _ _) t.isLt)) (xbAt m c (t.val - 1) (Nat.lt_of_le_of_lt (Nat.sub_le _ _) t.isLt)) Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    iintro ⟨H0, H1, H2, H3, H4, H5, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    iexists _; iexact H5

set_option maxHeartbeats 1600000 in
/-- The body obligation at a point of case B (a middle reduction block of the first output tile: both accumulators are increased). -/
theorem sound_B (c : Dev nD) (t : Fin cfg0.N) (hb : t.val % 16 < 4) (ha : ¬t.val % 4 = 0) (hd : ¬t.val % 4 = 3) :
    bodyPre m c t ⊢ wp frame (wpE (defs₀ (F := F)) Variants.none c none) Set.univ (bodyAt0 t) (fun _ => bodyPost m c t) := by
  have hN : t.val < 64 := lt_of_lt_of_eq t.isLt (show cfg0.N = 64 from N_0)
  have hK0 : ¬condK0 (grid0.coords t) := fun h => absurd ((hcondK0 t).mp h) (by omega)
  have hNK0 : ¬condNK0 (grid0.coords t) := fun h => absurd ((hcondNK0 t).mp h) (by omega)
  have hN0 : condN0 (grid0.coords t) := (hcondN0 t).mpr (by omega)
  have hK3 : ¬condK3 (grid0.coords t) := fun h => absurd ((hcondK3 t).mp h) (by omega)
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  rw [leaves0 m c t, leaves1 m c t, leaves2 m c t, leaves3 m c t, leaves4 m c t]
  rw [Dat.leavesExact_idle (dats m 0 c) 5 t (idleAt0_5 t hK3) (noFlush0_5 t hK3)]
  rw [accAt_eq m c t, if_neg (show ¬t.val % 4 = 0 by omega)]
  rw [xbAt_eq m c t, if_pos hb, if_neg (show ¬t.val % 16 = 0 by omega)]
  have hz : t.val ≠ 0 := by omega
  · rw [PhiS_castSucc m c t, PhiS_pos m c _ _ hz]
    iintro ⟨⟨⟨HS0, HS1⟩, Hg⟩, Ho, ⟨%d0, H0⟩, ⟨%d1, H1⟩, ⟨%d2, H2⟩, ⟨%d3, H3⟩, ⟨%d4, H4⟩, ⟨%d5, H5⟩⟩
    iapply (run_B c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) scM1 (Memref.isWhole_whole _)
      hK0 hNK0 hN0 hK3 (iblk m c 0 t) (iblk m c 1 t) (iblk m c 2 t) (iblk m c 3 t) (iblk m c 4 t) ((dats m 0 c).before 5 t d5) (accAt m c (t.val - 1) (Nat.lt_of_le_of_lt (Nat.sub_le _ _) t.isLt)) (xbAt m c (t.val - 1) (Nat.lt_of_le_of_lt (Nat.sub_le _ _) t.isLt)) Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    iintro ⟨H0, H1, H2, H3, H4, H5, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    iexists _; iexact H5

set_option maxHeartbeats 1600000 in
/-- The body obligation at a point of case C (the last reduction block of the first output tile: both accumulators are increased and the tile is finished). -/
theorem sound_C (c : Dev nD) (t : Fin cfg0.N) (hb : t.val % 16 < 4) (hd : t.val % 4 = 3) :
    bodyPre m c t ⊢ wp frame (wpE (defs₀ (F := F)) Variants.none c none) Set.univ (bodyAt0 t) (fun _ => bodyPost m c t) := by
  have hN : t.val < 64 := lt_of_lt_of_eq t.isLt (show cfg0.N = 64 from N_0)
  have hK0 : ¬condK0 (grid0.coords t) := fun h => absurd ((hcondK0 t).mp h) (by omega)
  have hNK0 : ¬condNK0 (grid0.coords t) := fun h => absurd ((hcondNK0 t).mp h) (by omega)
  have hN0 : condN0 (grid0.coords t) := (hcondN0 t).mpr (by omega)
  have hK3 : condK3 (grid0.coords t) := (hcondK3 t).mpr (by omega)
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  rw [leaves0 m c t, leaves1 m c t, leaves2 m c t, leaves3 m c t, leaves4 m c t]
  rw [leaves5_live m c t hK3]; unfold outAt
  rw [accAt_eq m c t, if_neg (show ¬t.val % 4 = 0 by omega)]
  rw [xbAt_eq m c t, if_pos hb, if_neg (show ¬t.val % 16 = 0 by omega)]
  have hz : t.val ≠ 0 := by omega
  · rw [PhiS_castSucc m c t, PhiS_pos m c _ _ hz]
    iintro ⟨⟨⟨HS0, HS1⟩, Hg⟩, Ho, ⟨%d0, H0⟩, ⟨%d1, H1⟩, ⟨%d2, H2⟩, ⟨%d3, H3⟩, ⟨%d4, H4⟩, ⟨%d5, H5⟩⟩
    iapply (run_C c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) scM1 (Memref.isWhole_whole _)
      hK0 hNK0 hN0 hK3 (iblk m c 0 t) (iblk m c 1 t) (iblk m c 2 t) (iblk m c 3 t) (iblk m c 4 t) ((dats m 0 c).before 5 t d5) (accAt m c (t.val - 1) (Nat.lt_of_le_of_lt (Nat.sub_le _ _) t.isLt)) (xbAt m c (t.val - 1) (Nat.lt_of_le_of_lt (Nat.sub_le _ _) t.isLt)) Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    iintro ⟨H0, H1, H2, H3, H4, H5, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    iexact H5

set_option maxHeartbeats 1600000 in
/-- The body obligation at a point of case D (the first reduction block of a later output tile: the dense accumulator is reset and increased, the projections are kept). -/
theorem sound_D (c : Dev nD) (t : Fin cfg0.N) (hb : ¬t.val % 16 < 4) (ha : t.val % 4 = 0) :
    bodyPre m c t ⊢ wp frame (wpE (defs₀ (F := F)) Variants.none c none) Set.univ (bodyAt0 t) (fun _ => bodyPost m c t) := by
  have hN : t.val < 64 := lt_of_lt_of_eq t.isLt (show cfg0.N = 64 from N_0)
  have hK0 : condK0 (grid0.coords t) := (hcondK0 t).mpr (by omega)
  have hNK0 : ¬condNK0 (grid0.coords t) := fun h => absurd ((hcondNK0 t).mp h) (by omega)
  have hN0 : ¬condN0 (grid0.coords t) := fun h => absurd ((hcondN0 t).mp h) (by omega)
  have hK3 : ¬condK3 (grid0.coords t) := fun h => absurd ((hcondK3 t).mp h) (by omega)
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  rw [leaves0 m c t, leaves1 m c t, leaves2 m c t, leaves3 m c t, leaves4 m c t]
  rw [Dat.leavesExact_idle (dats m 0 c) 5 t (idleAt0_5 t hK3) (noFlush0_5 t hK3)]
  rw [accAt_eq m c t, if_pos (show t.val % 4 = 0 by omega)]
  rw [xbAt_eq m c t, if_neg hb]
  have hz : t.val ≠ 0 := by omega
  · rw [PhiS_castSucc m c t, PhiS_pos m c _ _ hz]
    iintro ⟨⟨⟨HS0, HS1⟩, Hg⟩, Ho, ⟨%d0, H0⟩, ⟨%d1, H1⟩, ⟨%d2, H2⟩, ⟨%d3, H3⟩, ⟨%d4, H4⟩, ⟨%d5, H5⟩⟩
    iapply (run_D c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) scM1 (Memref.isWhole_whole _)
      hK0 hNK0 hN0 hK3 (iblk m c 0 t) (iblk m c 1 t) (iblk m c 2 t) (iblk m c 3 t) (iblk m c 4 t) ((dats m 0 c).before 5 t d5) (accAt m c (t.val - 1) (Nat.lt_of_le_of_lt (Nat.sub_le _ _) t.isLt)) (xbAt m c (t.val - 1) (Nat.lt_of_le_of_lt (Nat.sub_le _ _) t.isLt)) Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    iintro ⟨H0, H1, H2, H3, H4, H5, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    iexists _; iexact H5

set_option maxHeartbeats 1600000 in
/-- The body obligation at a point of case E (a middle reduction block of a later output tile: the dense accumulator is increased, the projections are kept). -/
theorem sound_E (c : Dev nD) (t : Fin cfg0.N) (hb : ¬t.val % 16 < 4) (ha : ¬t.val % 4 = 0) (hd : ¬t.val % 4 = 3) :
    bodyPre m c t ⊢ wp frame (wpE (defs₀ (F := F)) Variants.none c none) Set.univ (bodyAt0 t) (fun _ => bodyPost m c t) := by
  have hN : t.val < 64 := lt_of_lt_of_eq t.isLt (show cfg0.N = 64 from N_0)
  have hK0 : ¬condK0 (grid0.coords t) := fun h => absurd ((hcondK0 t).mp h) (by omega)
  have hNK0 : ¬condNK0 (grid0.coords t) := fun h => absurd ((hcondNK0 t).mp h) (by omega)
  have hN0 : ¬condN0 (grid0.coords t) := fun h => absurd ((hcondN0 t).mp h) (by omega)
  have hK3 : ¬condK3 (grid0.coords t) := fun h => absurd ((hcondK3 t).mp h) (by omega)
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  rw [leaves0 m c t, leaves1 m c t, leaves2 m c t, leaves3 m c t, leaves4 m c t]
  rw [Dat.leavesExact_idle (dats m 0 c) 5 t (idleAt0_5 t hK3) (noFlush0_5 t hK3)]
  rw [accAt_eq m c t, if_neg (show ¬t.val % 4 = 0 by omega)]
  rw [xbAt_eq m c t, if_neg hb]
  have hz : t.val ≠ 0 := by omega
  · rw [PhiS_castSucc m c t, PhiS_pos m c _ _ hz]
    iintro ⟨⟨⟨HS0, HS1⟩, Hg⟩, Ho, ⟨%d0, H0⟩, ⟨%d1, H1⟩, ⟨%d2, H2⟩, ⟨%d3, H3⟩, ⟨%d4, H4⟩, ⟨%d5, H5⟩⟩
    iapply (run_E c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) scM1 (Memref.isWhole_whole _)
      hK0 hNK0 hN0 hK3 (iblk m c 0 t) (iblk m c 1 t) (iblk m c 2 t) (iblk m c 3 t) (iblk m c 4 t) ((dats m 0 c).before 5 t d5) (accAt m c (t.val - 1) (Nat.lt_of_le_of_lt (Nat.sub_le _ _) t.isLt)) (xbAt m c (t.val - 1) (Nat.lt_of_le_of_lt (Nat.sub_le _ _) t.isLt)) Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    iintro ⟨H0, H1, H2, H3, H4, H5, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    iexists _; iexact H5

set_option maxHeartbeats 1600000 in
/-- The body obligation at a point of case F (the last reduction block of a later output tile: the dense accumulator is increased and the tile is finished with the kept projections). -/
theorem sound_F (c : Dev nD) (t : Fin cfg0.N) (hb : ¬t.val % 16 < 4) (hd : t.val % 4 = 3) :
    bodyPre m c t ⊢ wp frame (wpE (defs₀ (F := F)) Variants.none c none) Set.univ (bodyAt0 t) (fun _ => bodyPost m c t) := by
  have hN : t.val < 64 := lt_of_lt_of_eq t.isLt (show cfg0.N = 64 from N_0)
  have hK0 : ¬condK0 (grid0.coords t) := fun h => absurd ((hcondK0 t).mp h) (by omega)
  have hNK0 : ¬condNK0 (grid0.coords t) := fun h => absurd ((hcondNK0 t).mp h) (by omega)
  have hN0 : ¬condN0 (grid0.coords t) := fun h => absurd ((hcondN0 t).mp h) (by omega)
  have hK3 : condK3 (grid0.coords t) := (hcondK3 t).mpr (by omega)
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  rw [leaves0 m c t, leaves1 m c t, leaves2 m c t, leaves3 m c t, leaves4 m c t]
  rw [leaves5_live m c t hK3]; unfold outAt
  rw [accAt_eq m c t, if_neg (show ¬t.val % 4 = 0 by omega)]
  rw [xbAt_eq m c t, if_neg hb]
  have hz : t.val ≠ 0 := by omega
  · rw [PhiS_castSucc m c t, PhiS_pos m c _ _ hz]
    iintro ⟨⟨⟨HS0, HS1⟩, Hg⟩, Ho, ⟨%d0, H0⟩, ⟨%d1, H1⟩, ⟨%d2, H2⟩, ⟨%d3, H3⟩, ⟨%d4, H4⟩, ⟨%d5, H5⟩⟩
    iapply (run_F c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) scM1 (Memref.isWhole_whole _)
      hK0 hNK0 hN0 hK3 (iblk m c 0 t) (iblk m c 1 t) (iblk m c 2 t) (iblk m c 3 t) (iblk m c 4 t) ((dats m 0 c).before 5 t d5) (accAt m c (t.val - 1) (Nat.lt_of_le_of_lt (Nat.sub_le _ _) t.isLt)) (xbAt m c (t.val - 1) (Nat.lt_of_le_of_lt (Nat.sub_le _ _) t.isLt)) Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    iintro ⟨H0, H1, H2, H3, H4, H5, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    iexact H5

/-- The body at any point: the point's position in its row block and tile selects the case. -/
theorem sound_body (c : Dev nD) (t : Fin cfg0.N) :
    bodyPre m c t ⊢ wp frame (wpE (defs₀ (F := F)) Variants.none c none) Set.univ (bodyAt0 t) (fun _ => bodyPost m c t) := by
  by_cases hb : t.val % 16 < 4
  · by_cases ha : t.val % 4 = 0
    · exact sound_A m c t hb ha
    · by_cases hd : t.val % 4 = 3
      · exact sound_C m c t hb hd
      · exact sound_B m c t hb ha hd
  · by_cases ha : t.val % 4 = 0
    · exact sound_D m c t hb ha
    · by_cases hd : t.val % 4 = 3
      · exact sound_F m c t hb hd
      · exact sound_E m c t hb ha hd

theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives it back: what the accumulators hold is forgotten. -/
theorem hout (c : Dev nD) : (dats m 0 c).Φ (Fin.last cfg0.N) ⊢ Pipeline.ΦA spec0 c := by
  have hne : (Fin.last cfg0.N).val ≠ 0 := by rw [Fin.val_last]; have : cfg0.N = 64 := N_0; omega
  rw [show (dats m 0 c).Φ (Fin.last cfg0.N) = PhiS m c (Fin.last cfg0.N).val (Nat.le_of_lt_succ (Fin.last cfg0.N).isLt) from rfl, PhiS_pos m c _ _ hne, PhiA0_eq]
  iintro ⟨⟨HS0, HS1⟩, Hg⟩
  isplitl [HS0 HS1]
  · isplitl [HS0]
    · iexists _; iexact HS0
    iexists _; iexact HS1
  iexact Hg

/-! ## The run and the frame -/

set_option backward.isDefEq.respectTransparency.types false in
/-- Every weakly fair execution of @main terminates, and every final state has every array of the pipeline at what the
    library computes from the proof data and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The program runs to the end, faults nowhere, and leaves its five argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.Kernel.Body

end
-- ==== Proof.KI.State.lean ====
import proofs.«142443_j28853590294649_2_alg».proof.Proof.Gen.KernelIdeal.Frame
import proofs.«142443_j28853590294649_2_alg».proof.Proof.Gen.KernelIdeal.Skeleton
import Idealize.ShloMosaic.Lib.Pipeline.Value
import proofs.«142443_j28853590294649_2_alg».proof.Proof.LibWholeBuffer

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The reduction axis is at its first block (the dense accumulator is reset here). -/
abbrev condK0 (i : grid0.Coords) : Prop := (Scalar.cmpi .ne (Scalar.extui (Scalar.cmpi .eq (BitVec.ofNat 32 (i 2).val) 0#32)) 0#32) = 1#1
/-- The first output tile of a row block AND the first reduction block (the projection accumulator is reset here). -/
abbrev condNK0 (i : grid0.Coords) : Prop := (Scalar.cmpi .ne (Scalar.extui (Scalar.andi (Scalar.cmpi .eq (BitVec.ofNat 32 (i 1).val) 0#32) (Scalar.cmpi .eq (BitVec.ofNat 32 (i 2).val) 0#32))) 0#32) = 1#1
/-- The first output tile of a row block (the projection is accumulated only here). -/
abbrev condN0 (i : grid0.Coords) : Prop := (Scalar.cmpi .ne (Scalar.extui (Scalar.cmpi .eq (BitVec.ofNat 32 (i 1).val) 0#32)) 0#32) = 1#1
/-- The reduction axis is at its last block (the tile is finished and stored here). -/
abbrev condK3 (i : grid0.Coords) : Prop := k0_cond4 i = 1#1

/-- Over the 64 grid points in their order (row block slowest, reduction block fastest), each condition in closed form. -/
theorem hcondK0 : ∀ t : Fin cfg0.N, condK0 (grid0.coords t) ↔ t.val % 4 = 0 :=
  (by decide +kernel : ∀ t : Fin grid0.N, condK0 (grid0.coords t) ↔ t.val % 4 = 0)
theorem hcondNK0 : ∀ t : Fin cfg0.N, condNK0 (grid0.coords t) ↔ t.val % 16 = 0 :=
  (by decide +kernel : ∀ t : Fin grid0.N, condNK0 (grid0.coords t) ↔ t.val % 16 = 0)
theorem hcondN0 : ∀ t : Fin cfg0.N, condN0 (grid0.coords t) ↔ t.val % 16 < 4 :=
  (by decide +kernel : ∀ t : Fin grid0.N, condN0 (grid0.coords t) ↔ t.val % 16 < 4)
theorem hcondK3 : ∀ t : Fin cfg0.N, condK3 (grid0.coords t) ↔ t.val % 4 = 3 :=
  (by decide +kernel : ∀ t : Fin grid0.N, condK3 (grid0.coords t) ↔ t.val % 4 = 3)

/-! ## Where the windows are idle: the inputs never, the output wherever the tile is not finished -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem idleAt0_5 : ∀ t : Fin cfg0.N, ¬condK3 (grid0.coords t) → cfg0.idle 5 (grid0.coords t) = true := by decide +kernel
theorem noFlush0_5 : ∀ t : Fin cfg0.N, ¬condK3 (grid0.coords t) → (cfg0.win 5).flush t = false := by decide +kernel
theorem liveAt0_5 : ∀ t : Fin cfg0.N, condK3 (grid0.coords t) → cfg0.idle 5 (grid0.coords t) = false := by decide +kernel

/-! ## The memrefs the body is called with at a point -/

abbrev ms0_0 (t : Fin cfg0.N) : Memref sig .tc .vmem S2048x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x32 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x32 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2048x1024 .f32 := win0_5.stage (cfg0.slots t 5)
abbrev hs0_5 (t : Fin cfg0.N) : (ms0_5 t).IsWhole := hstage0_5 ((cfg0.slots t 5).cast nbuf0_5)
/-- The dense accumulator: a [2048, 1024] scratch kept across the reduction blocks of one output tile. -/
abbrev scM0 : Memref sig .tc .vmem S2048x1024 .f32 := Memref.whole cc0_scratch0
/-- The projection accumulator: a [2048, 32] scratch kept across a whole row block. -/
abbrev scM1 : Memref sig .tc .vmem S2048x32 .f32 := Memref.whole cc0_scratch1

/-- What the launch hands the region besides the windows: the two scratch buffers at some contents and the generator register. -/
theorem PhiA0_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

variable (m : (ℓ : Loc nD τ sig) → Buf (Elt F) ℓ)

/-! ## What the two accumulators and the output tile hold after each point

Point `n` of the grid is (row block, output tile, reduction block) = (n / 16, n / 4 % 4, n % 4). -/

/-- The dense accumulator after point `n`: reset at the first reduction block of a tile (`n % 4 = 0`), and at every
    point increased by the product of the point's activation block with its weight block. -/
def accAt (c : Dev nD) : (n : ℕ) → n < cfg0.N → Vec F S2048x1024 .f32
  | 0, hn => k0_pay4 (iblk m c 0 ⟨0, hn⟩) (iblk m c 1 ⟨0, hn⟩) k0_pay1
  | n + 1, hn => k0_pay4 (iblk m c 0 ⟨n + 1, hn⟩) (iblk m c 1 ⟨n + 1, hn⟩)
      (if (n + 1) % 4 = 0 then k0_pay1 else accAt c n (Nat.lt_of_succ_lt hn))

/-- The projection accumulator after point `n`: touched only during the first output tile of a row block
    (`n % 16 < 4`), reset at that tile's first reduction block (`n % 16 = 0`) and increased by the product of the
    activation block with the block of the second factor; during the other tiles it keeps what that tile left. -/
def xbAt (c : Dev nD) : (n : ℕ) → n < cfg0.N → Vec F S2048x32 .f32
  | 0, hn => k0_pay5 (iblk m c 0 ⟨0, hn⟩) (iblk m c 2 ⟨0, hn⟩) k0_pay2
  | n + 1, hn =>
    if (n + 1) % 16 < 4 then
      k0_pay5 (iblk m c 0 ⟨n + 1, hn⟩) (iblk m c 2 ⟨n + 1, hn⟩)
        (if (n + 1) % 16 = 0 then k0_pay2 else xbAt c n (Nat.lt_of_succ_lt hn))
    else xbAt c n (Nat.lt_of_succ_lt hn)

/-- The output tile as the body would store it at point `n` (it does so at the last reduction block, `n % 4 = 3`):
    the dense accumulator plus the projections combined with the first factor's block, plus the bias block. -/
def outAt (c : Dev nD) (n : ℕ) (hn : n < cfg0.N) : Vec F S2048x1024 .f32 :=
  k0_pay6 (xbAt m c n hn) (iblk m c 3 ⟨n, hn⟩) (accAt m c n hn) (iblk m c 4 ⟨n, hn⟩)

theorem accAt_eq (c : Dev nD) (t : Fin cfg0.N) :
    accAt m c t.val t.isLt = k0_pay4 (iblk m c 0 t) (iblk m c 1 t)
      (if t.val % 4 = 0 then k0_pay1 else accAt m c (t.val - 1) (Nat.lt_of_le_of_lt (Nat.sub_le _ _) t.isLt)) := by
  obtain ⟨n, hn⟩ := t
  cases n with
  | zero => exact rfl
  | succ n => exact rfl

theorem xbAt_eq (c : Dev nD) (t : Fin cfg0.N) :
    xbAt m c t.val t.isLt =
      if t.val % 16 < 4 then
        k0_pay5 (iblk m c 0 t) (iblk m c 2 t)
          (if t.val % 16 = 0 then k0_pay2 else xbAt m c (t.val - 1) (Nat.lt_of_le_of_lt (Nat.sub_le _ _) t.isLt))
      else xbAt m c (t.val - 1) (Nat.lt_of_le_of_lt (Nat.sub_le _ _) t.isLt) := by
  obtain ⟨n, hn⟩ := t
  cases n with
  | zero => exact rfl
  | succ n => exact rfl

end Cert.KernelIdeal.Body

end
-- ==== Proof.KI.RunA.lean ====
import proofs.«142443_j28853590294649_2_alg».proof.Proof.Gen.KernelIdeal.Frame
import proofs.«142443_j28853590294649_2_alg».proof.Proof.Gen.KernelIdeal.Skeleton
import proofs.«142443_j28853590294649_2_alg».proof.Proof.KI.State

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Idealize.ShloMosaic.WholeBuffer

variable {F : FTy → Type} [FloatOps F]

local notation "𝕄" => MT nD τ sig Unit (Elt F) ℕ (UR sig nD τ) ℕ

set_option maxHeartbeats 1000000 in
/-- The body at a point of case A — the first reduction block of the first output tile of a row block: both accumulators are reset, then increased. On whole memrefs held at known contents it runs to the end
    and leaves the inputs as they were, the dense accumulator at `(k0_pay4 x0 x1 k0_pay1)`, the projection accumulator at
    `(k0_pay5 x0 x2 k0_pay2)` and the output buffer at what it held. -/
theorem run_A (c : Dev nD) (i : grid0.Coords)
    (arg3 : Memref sig .tc .vmem S2048x1024 .bf16) (harg3 : arg3.IsWhole) (arg4 : Memref sig .tc .vmem S1024x1024 .bf16) (harg4 : arg4.IsWhole)
    (arg5 : Memref sig .tc .vmem S1024x32 .bf16) (harg5 : arg5.IsWhole) (arg6 : Memref sig .tc .vmem S1024x32 .f32) (harg6 : arg6.IsWhole)
    (arg7 : Memref sig .tc .vmem S1x1024 .f32) (harg7 : arg7.IsWhole) (arg8 : Memref sig .tc .vmem S2048x1024 .f32) (harg8 : arg8.IsWhole)
    (arg9 : Memref sig .tc .vmem S2048x1024 .f32) (harg9 : arg9.IsWhole) (arg10 : Memref sig .tc .vmem S2048x32 .f32) (harg10 : arg10.IsWhole)
    (hK0 : condK0 i) (hNK0 : condNK0 i) (hN0 : condN0 i) (hK3 : ¬condK3 i)
    (x0 : Vec F S2048x1024 .bf16) (x1 : Vec F S1024x1024 .bf16) (x2 : Vec F S1024x32 .bf16) (x3 : Vec F S1024x32 .f32) (x4 : Vec F S1x1024 .f32)
    (o5 : Vec F S2048x1024 .f32) (acc : Vec F S2048x1024 .f32) (xb : Vec F S2048x32 .f32)
    (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare o5
        ∗ owns (c : Thread nD τ) arg9 fullShare acc ∗ owns (c : Thread nD τ) arg10 fullShare xb
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4 ∗ owns (c : Thread nD τ) arg8 fullShare o5
            ∗ owns (c : Thread nD τ) arg9 fullShare (k0_pay4 x0 x1 k0_pay1) ∗ owns (c : Thread nD τ) arg10 fullShare (k0_pay5 x0 x2 k0_pay2)) -∗ K ⟨⟩))
      ⊢ wp frame (wpE (defs₀ (F := F)) Variants.none c none) E (cc0__fused_kernel i arg3 harg3 arg4 harg4 arg5 harg5 arg6 harg6 arg7 harg7 arg8 harg8 arg9 harg9 arg10 harg10) K := by
  simp only [cc0__fused_kernel_eq_skeleton]; unfold cc0__fused_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f9, %hf9, H9⟩, ⟨%f10, %hf10, H10⟩, Hk⟩
  obtain rfl := harg3.eq_unread hf0; obtain rfl := harg4.eq_unread hf1; obtain rfl := harg5.eq_unread hf2
  obtain rfl := harg6.eq_unread hf3; obtain rfl := harg7.eq_unread hf4; obtain rfl := harg8.eq_unread hf5
  obtain rfl := harg9.eq_unread hf9; obtain rfl := harg10.eq_unread hf10
  sl_exec (disch := first | exact hK0 | exact hNK0 | exact hN0 | exact hK3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H9]
  · iexists _; isplitr
    swap; · iexact H9
    ipureintro
    sl_unfold_run_names
    rw [read_writes_whole (S := S2048x1024) _ _ zero_off2]
    simp only [readAt_whole harg3 zero_off2, readAt_whole harg4 zero_off2, readAt_whole harg5 zero_off2, readAt_whole harg6 zero_off2, readAt_whole harg7 zero_off2, readAt_whole harg8 zero_off2, readAt_whole harg9 zero_off2, readAt_whole harg10 zero_off2, readCov_whole (S := S2048x1024) _ zero_off2, readCov_whole (S := S2048x32) _ zero_off2]
  iexists _; isplitr
  swap; · iexact H10
  ipureintro
  sl_unfold_run_names
  rw [read_writes_whole (S := S2048x32) _ _ zero_off2]
  simp only [readAt_whole harg3 zero_off2, readAt_whole harg4 zero_off2, readAt_whole harg5 zero_off2, readAt_whole harg6 zero_off2, readAt_whole harg7 zero_off2, readAt_whole harg8 zero_off2, readAt_whole harg9 zero_off2, readAt_whole harg10 zero_off2, readCov_whole (S := S2048x1024) _ zero_off2, readCov_whole (S := S2048x32) _ zero_off2]

end Cert.KernelIdeal.Body

end
-- ==== Proof.KI.RunB.lean ====
import proofs.«142443_j28853590294649_2_alg».proof.Proof.Gen.KernelIdeal.Frame
import proofs.«142443_j28853590294649_2_alg».proof.Proof.Gen.KernelIdeal.Skeleton
import proofs.«142443_j28853590294649_2_alg».proof.Proof.KI.State

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Idealize.ShloMosaic.WholeBuffer

variable {F : FTy → Type} [FloatOps F]

local notation "𝕄" => MT nD τ sig Unit (Elt F) ℕ (UR sig nD τ) ℕ

set_option maxHeartbeats 1000000 in
/-- The body at a point of case B — a middle reduction block of the first output tile: both accumulators are increased. On whole memrefs held at known contents it runs to the end
    and leaves the inputs as they were, the dense accumulator at `(k0_pay4 x0 x1 acc)`, the projection accumulator at
    `(k0_pay5 x0 x2 xb)` and the output buffer at what it held. -/
theorem run_B (c : Dev nD) (i : grid0.Coords)
    (arg3 : Memref sig .tc .vmem S2048x1024 .bf16) (harg3 : arg3.IsWhole) (arg4 : Memref sig .tc .vmem S1024x1024 .bf16) (harg4 : arg4.IsWhole)
    (arg5 : Memref sig .tc .vmem S1024x32 .bf16) (harg5 : arg5.IsWhole) (arg6 : Memref sig .tc .vmem S1024x32 .f32) (harg6 : arg6.IsWhole)
    (arg7 : Memref sig .tc .vmem S1x1024 .f32) (harg7 : arg7.IsWhole) (arg8 : Memref sig .tc .vmem S2048x1024 .f32) (harg8 : arg8.IsWhole)
    (arg9 : Memref sig .tc .vmem S2048x1024 .f32) (harg9 : arg9.IsWhole) (arg10 : Memref sig .tc .vmem S2048x32 .f32) (harg10 : arg10.IsWhole)
    (hK0 : ¬condK0 i) (hNK0 : ¬condNK0 i) (hN0 : condN0 i) (hK3 : ¬condK3 i)
    (x0 : Vec F S2048x1024 .bf16) (x1 : Vec F S1024x1024 .bf16) (x2 : Vec F S1024x32 .bf16) (x3 : Vec F S1024x32 .f32) (x4 : Vec F S1x1024 .f32)
    (o5 : Vec F S2048x1024 .f32) (acc : Vec F S2048x1024 .f32) (xb : Vec F S2048x32 .f32)
    (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare o5
        ∗ owns (c : Thread nD τ) arg9 fullShare acc ∗ owns (c : Thread nD τ) arg10 fullShare xb
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4 ∗ owns (c : Thread nD τ) arg8 fullShare o5
            ∗ owns (c : Thread nD τ) arg9 fullShare (k0_pay4 x0 x1 acc) ∗ owns (c : Thread nD τ) arg10 fullShare (k0_pay5 x0 x2 xb)) -∗ K ⟨⟩))
      ⊢ wp frame (wpE (defs₀ (F := F)) Variants.none c none) E (cc0__fused_kernel i arg3 harg3 arg4 harg4 arg5 harg5 arg6 harg6 arg7 harg7 arg8 harg8 arg9 harg9 arg10 harg10) K := by
  simp only [cc0__fused_kernel_eq_skeleton]; unfold cc0__fused_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f9, %hf9, H9⟩, ⟨%f10, %hf10, H10⟩, Hk⟩
  obtain rfl := harg3.eq_unread hf0; obtain rfl := harg4.eq_unread hf1; obtain rfl := harg5.eq_unread hf2
  obtain rfl := harg6.eq_unread hf3; obtain rfl := harg7.eq_unread hf4; obtain rfl := harg8.eq_unread hf5
  obtain rfl := harg9.eq_unread hf9; obtain rfl := harg10.eq_unread hf10
  sl_exec (disch := first | exact hK0 | exact hNK0 | exact hN0 | exact hK3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H9]
  · iexists _; isplitr
    swap; · iexact H9
    ipureintro
    sl_unfold_run_names
    rw [read_writes_whole (S := S2048x1024) _ _ zero_off2]
    simp only [readAt_whole harg3 zero_off2, readAt_whole harg4 zero_off2, readAt_whole harg5 zero_off2, readAt_whole harg6 zero_off2, readAt_whole harg7 zero_off2, readAt_whole harg8 zero_off2, readAt_whole harg9 zero_off2, readAt_whole harg10 zero_off2, readCov_whole (S := S2048x1024) _ zero_off2, readCov_whole (S := S2048x32) _ zero_off2]
  iexists _; isplitr
  swap; · iexact H10
  ipureintro
  sl_unfold_run_names
  rw [read_writes_whole (S := S2048x32) _ _ zero_off2]
  simp only [readAt_whole harg3 zero_off2, readAt_whole harg4 zero_off2, readAt_whole harg5 zero_off2, readAt_whole harg6 zero_off2, readAt_whole harg7 zero_off2, readAt_whole harg8 zero_off2, readAt_whole harg9 zero_off2, readAt_whole harg10 zero_off2, readCov_whole (S := S2048x1024) _ zero_off2, readCov_whole (S := S2048x32) _ zero_off2]

end Cert.KernelIdeal.Body

end
-- ==== Proof.KI.RunC.lean ====
import proofs.«142443_j28853590294649_2_alg».proof.Proof.Gen.KernelIdeal.Frame
import proofs.«142443_j28853590294649_2_alg».proof.Proof.Gen.KernelIdeal.Skeleton
import proofs.«142443_j28853590294649_2_alg».proof.Proof.KI.State

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Idealize.ShloMosaic.WholeBuffer

variable {F : FTy → Type} [FloatOps F]

local notation "𝕄" => MT nD τ sig Unit (Elt F) ℕ (UR sig nD τ) ℕ

set_option maxHeartbeats 1000000 in
/-- The body at a point of case C — the last reduction block of the first output tile: both accumulators are increased and the tile is finished. On whole memrefs held at known contents it runs to the end
    and leaves the inputs as they were, the dense accumulator at `(k0_pay4 x0 x1 acc)`, the projection accumulator at
    `(k0_pay5 x0 x2 xb)` and the output buffer at the finished tile. -/
theorem run_C (c : Dev nD) (i : grid0.Coords)
    (arg3 : Memref sig .tc .vmem S2048x1024 .bf16) (harg3 : arg3.IsWhole) (arg4 : Memref sig .tc .vmem S1024x1024 .bf16) (harg4 : arg4.IsWhole)
    (arg5 : Memref sig .tc .vmem S1024x32 .bf16) (harg5 : arg5.IsWhole) (arg6 : Memref sig .tc .vmem S1024x32 .f32) (harg6 : arg6.IsWhole)
    (arg7 : Memref sig .tc .vmem S1x1024 .f32) (harg7 : arg7.IsWhole) (arg8 : Memref sig .tc .vmem S2048x1024 .f32) (harg8 : arg8.IsWhole)
    (arg9 : Memref sig .tc .vmem S2048x1024 .f32) (harg9 : arg9.IsWhole) (arg10 : Memref sig .tc .vmem S2048x32 .f32) (harg10 : arg10.IsWhole)
    (hK0 : ¬condK0 i) (hNK0 : ¬condNK0 i) (hN0 : condN0 i) (hK3 : condK3 i)
    (x0 : Vec F S2048x1024 .bf16) (x1 : Vec F S1024x1024 .bf16) (x2 : Vec F S1024x32 .bf16) (x3 : Vec F S1024x32 .f32) (x4 : Vec F S1x1024 .f32)
    (o5 : Vec F S2048x1024 .f32) (acc : Vec F S2048x1024 .f32) (xb : Vec F S2048x32 .f32)
    (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare o5
        ∗ owns (c : Thread nD τ) arg9 fullShare acc ∗ owns (c : Thread nD τ) arg10 fullShare xb
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4 ∗ owns (c : Thread nD τ) arg8 fullShare (k0_pay6 (k0_pay5 x0 x2 xb) x3 (k0_pay4 x0 x1 acc) x4)
            ∗ owns (c : Thread nD τ) arg9 fullShare (k0_pay4 x0 x1 acc) ∗ owns (c : Thread nD τ) arg10 fullShare (k0_pay5 x0 x2 xb)) -∗ K ⟨⟩))
      ⊢ wp frame (wpE (defs₀ (F := F)) Variants.none c none) E (cc0__fused_kernel i arg3 harg3 arg4 harg4 arg5 harg5 arg6 harg6 arg7 harg7 arg8 harg8 arg9 harg9 arg10 harg10) K := by
  simp only [cc0__fused_kernel_eq_skeleton]; unfold cc0__fused_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f9, %hf9, H9⟩, ⟨%f10, %hf10, H10⟩, Hk⟩
  obtain rfl := harg3.eq_unread hf0; obtain rfl := harg4.eq_unread hf1; obtain rfl := harg5.eq_unread hf2
  obtain rfl := harg6.eq_unread hf3; obtain rfl := harg7.eq_unread hf4; obtain rfl := harg8.eq_unread hf5
  obtain rfl := harg9.eq_unread hf9; obtain rfl := harg10.eq_unread hf10
  sl_exec (disch := first | exact hK0 | exact hNK0 | exact hN0 | exact hK3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr
    swap; · iexact H5
    ipureintro
    sl_unfold_run_names
    rw [read_writes_whole (S := S2048x1024) _ _ zero_off2]
    simp only [readAt_whole harg3 zero_off2, readAt_whole harg4 zero_off2, readAt_whole harg5 zero_off2, readAt_whole harg6 zero_off2, readAt_whole harg7 zero_off2, readAt_whole harg8 zero_off2, readAt_whole harg9 zero_off2, readAt_whole harg10 zero_off2, readCov_whole (S := S2048x1024) _ zero_off2, readCov_whole (S := S2048x32) _ zero_off2]
  isplitl [H9]
  · iexists _; isplitr
    swap; · iexact H9
    ipureintro
    sl_unfold_run_names
    rw [read_writes_whole (S := S2048x1024) _ _ zero_off2]
    simp only [readAt_whole harg3 zero_off2, readAt_whole harg4 zero_off2, readAt_whole harg5 zero_off2, readAt_whole harg6 zero_off2, readAt_whole harg7 zero_off2, readAt_whole harg8 zero_off2, readAt_whole harg9 zero_off2, readAt_whole harg10 zero_off2, readCov_whole (S := S2048x1024) _ zero_off2, readCov_whole (S := S2048x32) _ zero_off2]
  iexists _; isplitr
  swap; · iexact H10
  ipureintro
  sl_unfold_run_names
  rw [read_writes_whole (S := S2048x32) _ _ zero_off2]
  simp only [readAt_whole harg3 zero_off2, readAt_whole harg4 zero_off2, readAt_whole harg5 zero_off2, readAt_whole harg6 zero_off2, readAt_whole harg7 zero_off2, readAt_whole harg8 zero_off2, readAt_whole harg9 zero_off2, readAt_whole harg10 zero_off2, readCov_whole (S := S2048x1024) _ zero_off2, readCov_whole (S := S2048x32) _ zero_off2]

end Cert.KernelIdeal.Body

end
-- ==== Proof.KI.RunD.lean ====
import proofs.«142443_j28853590294649_2_alg».proof.Proof.Gen.KernelIdeal.Frame
import proofs.«142443_j28853590294649_2_alg».proof.Proof.Gen.KernelIdeal.Skeleton
import proofs.«142443_j28853590294649_2_alg».proof.Proof.KI.State

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Idealize.ShloMosaic.WholeBuffer

variable {F : FTy → Type} [FloatOps F]

local notation "𝕄" => MT nD τ sig Unit (Elt F) ℕ (UR sig nD τ) ℕ

set_option maxHeartbeats 1000000 in
/-- The body at a point of case D — the first reduction block of a later output tile: the dense accumulator is reset and increased, the projections are kept. On whole memrefs held at known contents it runs to the end
    and leaves the inputs as they were, the dense accumulator at `(k0_pay4 x0 x1 k0_pay1)`, the projection accumulator at
    `xb` and the output buffer at what it held. -/
theorem run_D (c : Dev nD) (i : grid0.Coords)
    (arg3 : Memref sig .tc .vmem S2048x1024 .bf16) (harg3 : arg3.IsWhole) (arg4 : Memref sig .tc .vmem S1024x1024 .bf16) (harg4 : arg4.IsWhole)
    (arg5 : Memref sig .tc .vmem S1024x32 .bf16) (harg5 : arg5.IsWhole) (arg6 : Memref sig .tc .vmem S1024x32 .f32) (harg6 : arg6.IsWhole)
    (arg7 : Memref sig .tc .vmem S1x1024 .f32) (harg7 : arg7.IsWhole) (arg8 : Memref sig .tc .vmem S2048x1024 .f32) (harg8 : arg8.IsWhole)
    (arg9 : Memref sig .tc .vmem S2048x1024 .f32) (harg9 : arg9.IsWhole) (arg10 : Memref sig .tc .vmem S2048x32 .f32) (harg10 : arg10.IsWhole)
    (hK0 : condK0 i) (hNK0 : ¬condNK0 i) (hN0 : ¬condN0 i) (hK3 : ¬condK3 i)
    (x0 : Vec F S2048x1024 .bf16) (x1 : Vec F S1024x1024 .bf16) (x2 : Vec F S1024x32 .bf16) (x3 : Vec F S1024x32 .f32) (x4 : Vec F S1x1024 .f32)
    (o5 : Vec F S2048x1024 .f32) (acc : Vec F S2048x1024 .f32) (xb : Vec F S2048x32 .f32)
    (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare o5
        ∗ owns (c : Thread nD τ) arg9 fullShare acc ∗ owns (c : Thread nD τ) arg10 fullShare xb
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4 ∗ owns (c : Thread nD τ) arg8 fullShare o5
            ∗ owns (c : Thread nD τ) arg9 fullShare (k0_pay4 x0 x1 k0_pay1) ∗ owns (c : Thread nD τ) arg10 fullShare xb) -∗ K ⟨⟩))
      ⊢ wp frame (wpE (defs₀ (F := F)) Variants.none c none) E (cc0__fused_kernel i arg3 harg3 arg4 harg4 arg5 harg5 arg6 harg6 arg7 harg7 arg8 harg8 arg9 harg9 arg10 harg10) K := by
  simp only [cc0__fused_kernel_eq_skeleton]; unfold cc0__fused_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f9, %hf9, H9⟩, ⟨%f10, %hf10, H10⟩, Hk⟩
  obtain rfl := harg3.eq_unread hf0; obtain rfl := harg4.eq_unread hf1; obtain rfl := harg5.eq_unread hf2
  obtain rfl := harg6.eq_unread hf3; obtain rfl := harg7.eq_unread hf4; obtain rfl := harg8.eq_unread hf5
  obtain rfl := harg9.eq_unread hf9; obtain rfl := harg10.eq_unread hf10
  sl_exec (disch := first | exact hK0 | exact hNK0 | exact hN0 | exact hK3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H9]
  · iexists _; isplitr
    swap; · iexact H9
    ipureintro
    sl_unfold_run_names
    rw [read_writes_whole (S := S2048x1024) _ _ zero_off2]
    simp only [readAt_whole harg3 zero_off2, readAt_whole harg4 zero_off2, readAt_whole harg5 zero_off2, readAt_whole harg6 zero_off2, readAt_whole harg7 zero_off2, readAt_whole harg8 zero_off2, readAt_whole harg9 zero_off2, readAt_whole harg10 zero_off2, readCov_whole (S := S2048x1024) _ zero_off2, readCov_whole (S := S2048x32) _ zero_off2]
  iexists _; isplitr; · ipureintro; exact harg10.read_unread _
  iexact H10

end Cert.KernelIdeal.Body

end
-- ==== Proof.KI.RunE.lean ====
import proofs.«142443_j28853590294649_2_alg».proof.Proof.Gen.KernelIdeal.Frame
import proofs.«142443_j28853590294649_2_alg».proof.Proof.Gen.KernelIdeal.Skeleton
import proofs.«142443_j28853590294649_2_alg».proof.Proof.KI.State

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Idealize.ShloMosaic.WholeBuffer

variable {F : FTy → Type} [FloatOps F]

local notation "𝕄" => MT nD τ sig Unit (Elt F) ℕ (UR sig nD τ) ℕ

set_option maxHeartbeats 1000000 in
/-- The body at a point of case E — a middle reduction block of a later output tile: the dense accumulator is increased, the projections are kept. On whole memrefs held at known contents it runs to the end
    and leaves the inputs as they were, the dense accumulator at `(k0_pay4 x0 x1 acc)`, the projection accumulator at
    `xb` and the output buffer at what it held. -/
theorem run_E (c : Dev nD) (i : grid0.Coords)
    (arg3 : Memref sig .tc .vmem S2048x1024 .bf16) (harg3 : arg3.IsWhole) (arg4 : Memref sig .tc .vmem S1024x1024 .bf16) (harg4 : arg4.IsWhole)
    (arg5 : Memref sig .tc .vmem S1024x32 .bf16) (harg5 : arg5.IsWhole) (arg6 : Memref sig .tc .vmem S1024x32 .f32) (harg6 : arg6.IsWhole)
    (arg7 : Memref sig .tc .vmem S1x1024 .f32) (harg7 : arg7.IsWhole) (arg8 : Memref sig .tc .vmem S2048x1024 .f32) (harg8 : arg8.IsWhole)
    (arg9 : Memref sig .tc .vmem S2048x1024 .f32) (harg9 : arg9.IsWhole) (arg10 : Memref sig .tc .vmem S2048x32 .f32) (harg10 : arg10.IsWhole)
    (hK0 : ¬condK0 i) (hNK0 : ¬condNK0 i) (hN0 : ¬condN0 i) (hK3 : ¬condK3 i)
    (x0 : Vec F S2048x1024 .bf16) (x1 : Vec F S1024x1024 .bf16) (x2 : Vec F S1024x32 .bf16) (x3 : Vec F S1024x32 .f32) (x4 : Vec F S1x1024 .f32)
    (o5 : Vec F S2048x1024 .f32) (acc : Vec F S2048x1024 .f32) (xb : Vec F S2048x32 .f32)
    (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare o5
        ∗ owns (c : Thread nD τ) arg9 fullShare acc ∗ owns (c : Thread nD τ) arg10 fullShare xb
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4 ∗ owns (c : Thread nD τ) arg8 fullShare o5
            ∗ owns (c : Thread nD τ) arg9 fullShare (k0_pay4 x0 x1 acc) ∗ owns (c : Thread nD τ) arg10 fullShare xb) -∗ K ⟨⟩))
      ⊢ wp frame (wpE (defs₀ (F := F)) Variants.none c none) E (cc0__fused_kernel i arg3 harg3 arg4 harg4 arg5 harg5 arg6 harg6 arg7 harg7 arg8 harg8 arg9 harg9 arg10 harg10) K := by
  simp only [cc0__fused_kernel_eq_skeleton]; unfold cc0__fused_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f9, %hf9, H9⟩, ⟨%f10, %hf10, H10⟩, Hk⟩
  obtain rfl := harg3.eq_unread hf0; obtain rfl := harg4.eq_unread hf1; obtain rfl := harg5.eq_unread hf2
  obtain rfl := harg6.eq_unread hf3; obtain rfl := harg7.eq_unread hf4; obtain rfl := harg8.eq_unread hf5
  obtain rfl := harg9.eq_unread hf9; obtain rfl := harg10.eq_unread hf10
  sl_exec (disch := first | exact hK0 | exact hNK0 | exact hN0 | exact hK3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H9]
  · iexists _; isplitr
    swap; · iexact H9
    ipureintro
    sl_unfold_run_names
    rw [read_writes_whole (S := S2048x1024) _ _ zero_off2]
    simp only [readAt_whole harg3 zero_off2, readAt_whole harg4 zero_off2, readAt_whole harg5 zero_off2, readAt_whole harg6 zero_off2, readAt_whole harg7 zero_off2, readAt_whole harg8 zero_off2, readAt_whole harg9 zero_off2, readAt_whole harg10 zero_off2, readCov_whole (S := S2048x1024) _ zero_off2, readCov_whole (S := S2048x32) _ zero_off2]
  iexists _; isplitr; · ipureintro; exact harg10.read_unread _
  iexact H10

end Cert.KernelIdeal.Body

end
-- ==== Proof.KI.RunF.lean ====
import proofs.«142443_j28853590294649_2_alg».proof.Proof.Gen.KernelIdeal.Frame
import proofs.«142443_j28853590294649_2_alg».proof.Proof.Gen.KernelIdeal.Skeleton
import proofs.«142443_j28853590294649_2_alg».proof.Proof.KI.State

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Idealize.ShloMosaic.WholeBuffer

variable {F : FTy → Type} [FloatOps F]

local notation "𝕄" => MT nD τ sig Unit (Elt F) ℕ (UR sig nD τ) ℕ

set_option maxHeartbeats 1000000 in
/-- The body at a point of case F — the last reduction block of a later output tile: the dense accumulator is increased and the tile is finished with the kept projections. On whole memrefs held at known contents it runs to the end
    and leaves the inputs as they were, the dense accumulator at `(k0_pay4 x0 x1 acc)`, the projection accumulator at
    `xb` and the output buffer at the finished tile. -/
theorem run_F (c : Dev nD) (i : grid0.Coords)
    (arg3 : Memref sig .tc .vmem S2048x1024 .bf16) (harg3 : arg3.IsWhole) (arg4 : Memref sig .tc .vmem S1024x1024 .bf16) (harg4 : arg4.IsWhole)
    (arg5 : Memref sig .tc .vmem S1024x32 .bf16) (harg5 : arg5.IsWhole) (arg6 : Memref sig .tc .vmem S1024x32 .f32) (harg6 : arg6.IsWhole)
    (arg7 : Memref sig .tc .vmem S1x1024 .f32) (harg7 : arg7.IsWhole) (arg8 : Memref sig .tc .vmem S2048x1024 .f32) (harg8 : arg8.IsWhole)
    (arg9 : Memref sig .tc .vmem S2048x1024 .f32) (harg9 : arg9.IsWhole) (arg10 : Memref sig .tc .vmem S2048x32 .f32) (harg10 : arg10.IsWhole)
    (hK0 : ¬condK0 i) (hNK0 : ¬condNK0 i) (hN0 : ¬condN0 i) (hK3 : condK3 i)
    (x0 : Vec F S2048x1024 .bf16) (x1 : Vec F S1024x1024 .bf16) (x2 : Vec F S1024x32 .bf16) (x3 : Vec F S1024x32 .f32) (x4 : Vec F S1x1024 .f32)
    (o5 : Vec F S2048x1024 .f32) (acc : Vec F S2048x1024 .f32) (xb : Vec F S2048x32 .f32)
    (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare o5
        ∗ owns (c : Thread nD τ) arg9 fullShare acc ∗ owns (c : Thread nD τ) arg10 fullShare xb
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4 ∗ owns (c : Thread nD τ) arg8 fullShare (k0_pay6 xb x3 (k0_pay4 x0 x1 acc) x4)
            ∗ owns (c : Thread nD τ) arg9 fullShare (k0_pay4 x0 x1 acc) ∗ owns (c : Thread nD τ) arg10 fullShare xb) -∗ K ⟨⟩))
      ⊢ wp frame (wpE (defs₀ (F := F)) Variants.none c none) E (cc0__fused_kernel i arg3 harg3 arg4 harg4 arg5 harg5 arg6 harg6 arg7 harg7 arg8 harg8 arg9 harg9 arg10 harg10) K := by
  simp only [cc0__fused_kernel_eq_skeleton]; unfold cc0__fused_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f9, %hf9, H9⟩, ⟨%f10, %hf10, H10⟩, Hk⟩
  obtain rfl := harg3.eq_unread hf0; obtain rfl := harg4.eq_unread hf1; obtain rfl := harg5.eq_unread hf2
  obtain rfl := harg6.eq_unread hf3; obtain rfl := harg7.eq_unread hf4; obtain rfl := harg8.eq_unread hf5
  obtain rfl := harg9.eq_unread hf9; obtain rfl := harg10.eq_unread hf10
  sl_exec (disch := first | exact hK0 | exact hNK0 | exact hN0 | exact hK3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr
    swap; · iexact H5
    ipureintro
    sl_unfold_run_names
    rw [read_writes_whole (S := S2048x1024) _ _ zero_off2]
    simp only [readAt_whole harg3 zero_off2, readAt_whole harg4 zero_off2, readAt_whole harg5 zero_off2, readAt_whole harg6 zero_off2, readAt_whole harg7 zero_off2, readAt_whole harg8 zero_off2, readAt_whole harg9 zero_off2, readAt_whole harg10 zero_off2, readCov_whole (S := S2048x1024) _ zero_off2, readCov_whole (S := S2048x32) _ zero_off2]
  isplitl [H9]
  · iexists _; isplitr
    swap; · iexact H9
    ipureintro
    sl_unfold_run_names
    rw [read_writes_whole (S := S2048x1024) _ _ zero_off2]
    simp only [readAt_whole harg3 zero_off2, readAt_whole harg4 zero_off2, readAt_whole harg5 zero_off2, readAt_whole harg6 zero_off2, readAt_whole harg7 zero_off2, readAt_whole harg8 zero_off2, readAt_whole harg9 zero_off2, readAt_whole harg10 zero_off2, readCov_whole (S := S2048x1024) _ zero_off2, readCov_whole (S := S2048x32) _ zero_off2]
  iexists _; isplitr; · ipureintro; exact harg10.read_unread _
  iexact H10

end Cert.KernelIdeal.Body

end
-- ==== Proof.KI.Frame.lean ====
import proofs.«142443_j28853590294649_2_alg».proof.Proof.Gen.KernelIdeal.Frame
import proofs.«142443_j28853590294649_2_alg».proof.Proof.Gen.KernelIdeal.Skeleton
import proofs.«142443_j28853590294649_2_alg».proof.Proof.KI.RunA
import proofs.«142443_j28853590294649_2_alg».proof.Proof.KI.RunB
import proofs.«142443_j28853590294649_2_alg».proof.Proof.KI.RunC
import proofs.«142443_j28853590294649_2_alg».proof.Proof.KI.RunD
import proofs.«142443_j28853590294649_2_alg».proof.Proof.KI.RunE
import proofs.«142443_j28853590294649_2_alg».proof.Proof.KI.RunF

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The invariant between points: the two accumulators at what the point before left -/

/-- Before point `n`: at the region's start whatever the launch hands over (both scratch buffers at anything);
    afterwards the dense accumulator at `accAt (n - 1)`, the projection accumulator at `xbAt (n - 1)`, and the
    generator register at some state. -/
def PhiS (c : Dev nD) : (n : ℕ) → n ≤ cfg0.N → sProp 𝕄
  | 0, _ => Pipeline.ΦA spec0 c
  | n + 1, hn => iprop(iprop(owns (c : Thread nD τ) scM0 fullShare (accAt m c n hn) ∗ owns (c : Thread nD τ) scM1 fullShare (xbAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0 fullShare (accAt m c n hn) ∗ owns (c : Thread nD τ) scM1 fullShare (xbAt m c n hn)) ∗ (∃ r, prngReg c r)) := rfl

theorem PhiS_pos (c : Dev nD) (n : ℕ) (h : n ≤ cfg0.N) (hz : n ≠ 0) :
    PhiS m c n h = iprop(iprop(owns (c : Thread nD τ) scM0 fullShare (accAt m c (n - 1) (by omega)) ∗ owns (c : Thread nD τ) scM1 fullShare (xbAt m c (n - 1) (by omega))) ∗ (∃ r, prngReg c r)) := by
  cases n with
  | zero => exact absurd rfl hz
  | succ n => rfl

/-! ## The pipeline's proof data -/

/-- On core `c`: the arrays as the region finds them; after the body at point `t` each input's buffer at its block and
    the output's at the tile `outAt t` (consulted only where the tile is finished and written back); the invariant `PhiS`;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t.val t.isLt
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outAt m c t.val t.isLt := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body must leave in each window's buffer: an input's block, in place; -/
theorem leaves0 (c : Dev nD) (t : Fin cfg0.N) : (dats m 0 c).leavesExact 0 t = owns (c : Thread nD τ) (ms0_0 t) fullShare (iblk m c 0 t) := by
  unfold Dat.leavesExact; rw [liveAt0_0 t, after0_0]
theorem leaves1 (c : Dev nD) (t : Fin cfg0.N) : (dats m 0 c).leavesExact 1 t = owns (c : Thread nD τ) (ms0_1 t) fullShare (iblk m c 1 t) := by
  unfold Dat.leavesExact; rw [liveAt0_1 t, after0_1]
theorem leaves2 (c : Dev nD) (t : Fin cfg0.N) : (dats m 0 c).leavesExact 2 t = owns (c : Thread nD τ) (ms0_2 t) fullShare (iblk m c 2 t) := by
  unfold Dat.leavesExact; rw [liveAt0_2 t, after0_2]
theorem leaves3 (c : Dev nD) (t : Fin cfg0.N) : (dats m 0 c).leavesExact 3 t = owns (c : Thread nD τ) (ms0_3 t) fullShare (iblk m c 3 t) := by
  unfold Dat.leavesExact; rw [liveAt0_3 t, after0_3]
theorem leaves4 (c : Dev nD) (t : Fin cfg0.N) : (dats m 0 c).leavesExact 4 t = owns (c : Thread nD τ) (ms0_4 t) fullShare (iblk m c 4 t) := by
  unfold Dat.leavesExact; rw [liveAt0_4 t, after0_4]
/-- and, where the tile is finished, the tile. -/
theorem leaves5_live (c : Dev nD) (t : Fin cfg0.N) (h : condK3 (grid0.coords t)) :
    (dats m 0 c).leavesExact 5 t = owns (c : Thread nD τ) (ms0_5 t) fullShare (outAt m c t.val t.isLt) := by
  unfold Dat.leavesExact; rw [liveAt0_5 t h, after0_5]

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 1600000 in
/-- The body obligation at a point of case A (the first reduction block of the first output tile of a row block: both accumulators are reset, then increased). -/
theorem sound_A (c : Dev nD) (t : Fin cfg0.N) (hb : t.val % 16 < 4) (ha : t.val % 4 = 0) :
    bodyPre m c t ⊢ wp frame (wpE (defs₀ (F := F)) Variants.none c none) Set.univ (bodyAt0 t) (fun _ => bodyPost m c t) := by
  have hN : t.val < 64 := lt_of_lt_of_eq t.isLt (show cfg0.N = 64 from N_0)
  have hK0 : condK0 (grid0.coords t) := (hcondK0 t).mpr (by omega)
  have hNK0 : condNK0 (grid0.coords t) := (hcondNK0 t).mpr (by omega)
  have hN0 : condN0 (grid0.coords t) := (hcondN0 t).mpr (by omega)
  have hK3 : ¬condK3 (grid0.coords t) := fun h => absurd ((hcondK3 t).mp h) (by omega)
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  rw [leaves0 m c t, leaves1 m c t, leaves2 m c t, leaves3 m c t, leaves4 m c t]
  rw [Dat.leavesExact_idle (dats m 0 c) 5 t (idleAt0_5 t hK3) (noFlush0_5 t hK3)]
  rw [accAt_eq m c t, if_pos (show t.val % 4 = 0 by omega)]
  rw [xbAt_eq m c t, if_pos hb, if_pos (show t.val % 16 = 0 by omega)]
  by_cases hz : t.val = 0
  · rw [PhiS_castSucc m c t, PhiS_zero m c _ _ hz, PhiA0_eq]
    iintro ⟨⟨⟨⟨%d9, HS0⟩, ⟨%d10, HS1⟩⟩, Hg⟩, Ho, ⟨%d0, H0⟩, ⟨%d1, H1⟩, ⟨%d2, H2⟩, ⟨%d3, H3⟩, ⟨%d4, H4⟩, ⟨%d5, H5⟩⟩
    iapply (run_A c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) scM1 (Memref.isWhole_whole _)
      hK0 hNK0 hN0 hK3 (iblk m c 0 t) (iblk m c 1 t) (iblk m c 2 t) (iblk m c 3 t) (iblk m c 4 t) ((dats m 0 c).before 5 t d5) d9 d10 Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    iintro ⟨H0, H1, H2, H3, H4, H5, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · rw [PhiS_castSucc m c t, PhiS_pos m c _ _ hz]
    iintro ⟨⟨⟨HS0, HS1⟩, Hg⟩, Ho, ⟨%d0, H0⟩, ⟨%d1, H1⟩, ⟨%d2, H2⟩, ⟨%d3, H3⟩, ⟨%d4, H4⟩, ⟨%d5, H5⟩⟩
    iapply (run_A c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) scM1 (Memref.isWhole_whole _)
      hK0 hNK0 hN0 hK3 (iblk m c 0 t) (iblk m c 1 t) (iblk m c 2 t) (iblk m c 3 t) (iblk m c 4 t) ((dats m 0 c).before 5 t d5) (accAt m c (t.val - 1) (Nat.lt_of_le_of_lt (Nat.sub_le _ _) t.isLt)) (xbAt m c (t.val - 1) (Nat.lt_of_le_of_lt (Nat.sub_le _ _) t.isLt)) Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    iintro ⟨H0, H1, H2, H3, H4, H5, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    iexists _; iexact H5

set_option maxHeartbeats 1600000 in
/-- The body obligation at a point of case B (a middle reduction block of the first output tile: both accumulators are increased). -/
theorem sound_B (c : Dev nD) (t : Fin cfg0.N) (hb : t.val % 16 < 4) (ha : ¬t.val % 4 = 0) (hd : ¬t.val % 4 = 3) :
    bodyPre m c t ⊢ wp frame (wpE (defs₀ (F := F)) Variants.none c none) Set.univ (bodyAt0 t) (fun _ => bodyPost m c t) := by
  have hN : t.val < 64 := lt_of_lt_of_eq t.isLt (show cfg0.N = 64 from N_0)
  have hK0 : ¬condK0 (grid0.coords t) := fun h => absurd ((hcondK0 t).mp h) (by omega)
  have hNK0 : ¬condNK0 (grid0.coords t) := fun h => absurd ((hcondNK0 t).mp h) (by omega)
  have hN0 : condN0 (grid0.coords t) := (hcondN0 t).mpr (by omega)
  have hK3 : ¬condK3 (grid0.coords t) := fun h => absurd ((hcondK3 t).mp h) (by omega)
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  rw [leaves0 m c t, leaves1 m c t, leaves2 m c t, leaves3 m c t, leaves4 m c t]
  rw [Dat.leavesExact_idle (dats m 0 c) 5 t (idleAt0_5 t hK3) (noFlush0_5 t hK3)]
  rw [accAt_eq m c t, if_neg (show ¬t.val % 4 = 0 by omega)]
  rw [xbAt_eq m c t, if_pos hb, if_neg (show ¬t.val % 16 = 0 by omega)]
  have hz : t.val ≠ 0 := by omega
  · rw [PhiS_castSucc m c t, PhiS_pos m c _ _ hz]
    iintro ⟨⟨⟨HS0, HS1⟩, Hg⟩, Ho, ⟨%d0, H0⟩, ⟨%d1, H1⟩, ⟨%d2, H2⟩, ⟨%d3, H3⟩, ⟨%d4, H4⟩, ⟨%d5, H5⟩⟩
    iapply (run_B c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) scM1 (Memref.isWhole_whole _)
      hK0 hNK0 hN0 hK3 (iblk m c 0 t) (iblk m c 1 t) (iblk m c 2 t) (iblk m c 3 t) (iblk m c 4 t) ((dats m 0 c).before 5 t d5) (accAt m c (t.val - 1) (Nat.lt_of_le_of_lt (Nat.sub_le _ _) t.isLt)) (xbAt m c (t.val - 1) (Nat.lt_of_le_of_lt (Nat.sub_le _ _) t.isLt)) Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    iintro ⟨H0, H1, H2, H3, H4, H5, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    iexists _; iexact H5

set_option maxHeartbeats 1600000 in
/-- The body obligation at a point of case C (the last reduction block of the first output tile: both accumulators are increased and the tile is finished). -/
theorem sound_C (c : Dev nD) (t : Fin cfg0.N) (hb : t.val % 16 < 4) (hd : t.val % 4 = 3) :
    bodyPre m c t ⊢ wp frame (wpE (defs₀ (F := F)) Variants.none c none) Set.univ (bodyAt0 t) (fun _ => bodyPost m c t) := by
  have hN : t.val < 64 := lt_of_lt_of_eq t.isLt (show cfg0.N = 64 from N_0)
  have hK0 : ¬condK0 (grid0.coords t) := fun h => absurd ((hcondK0 t).mp h) (by omega)
  have hNK0 : ¬condNK0 (grid0.coords t) := fun h => absurd ((hcondNK0 t).mp h) (by omega)
  have hN0 : condN0 (grid0.coords t) := (hcondN0 t).mpr (by omega)
  have hK3 : condK3 (grid0.coords t) := (hcondK3 t).mpr (by omega)
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  rw [leaves0 m c t, leaves1 m c t, leaves2 m c t, leaves3 m c t, leaves4 m c t]
  rw [leaves5_live m c t hK3]; unfold outAt
  rw [accAt_eq m c t, if_neg (show ¬t.val % 4 = 0 by omega)]
  rw [xbAt_eq m c t, if_pos hb, if_neg (show ¬t.val % 16 = 0 by omega)]
  have hz : t.val ≠ 0 := by omega
  · rw [PhiS_castSucc m c t, PhiS_pos m c _ _ hz]
    iintro ⟨⟨⟨HS0, HS1⟩, Hg⟩, Ho, ⟨%d0, H0⟩, ⟨%d1, H1⟩, ⟨%d2, H2⟩, ⟨%d3, H3⟩, ⟨%d4, H4⟩, ⟨%d5, H5⟩⟩
    iapply (run_C c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) scM1 (Memref.isWhole_whole _)
      hK0 hNK0 hN0 hK3 (iblk m c 0 t) (iblk m c 1 t) (iblk m c 2 t) (iblk m c 3 t) (iblk m c 4 t) ((dats m 0 c).before 5 t d5) (accAt m c (t.val - 1) (Nat.lt_of_le_of_lt (Nat.sub_le _ _) t.isLt)) (xbAt m c (t.val - 1) (Nat.lt_of_le_of_lt (Nat.sub_le _ _) t.isLt)) Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    iintro ⟨H0, H1, H2, H3, H4, H5, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    iexact H5

set_option maxHeartbeats 1600000 in
/-- The body obligation at a point of case D (the first reduction block of a later output tile: the dense accumulator is reset and increased, the projections are kept). -/
theorem sound_D (c : Dev nD) (t : Fin cfg0.N) (hb : ¬t.val % 16 < 4) (ha : t.val % 4 = 0) :
    bodyPre m c t ⊢ wp frame (wpE (defs₀ (F := F)) Variants.none c none) Set.univ (bodyAt0 t) (fun _ => bodyPost m c t) := by
  have hN : t.val < 64 := lt_of_lt_of_eq t.isLt (show cfg0.N = 64 from N_0)
  have hK0 : condK0 (grid0.coords t) := (hcondK0 t).mpr (by omega)
  have hNK0 : ¬condNK0 (grid0.coords t) := fun h => absurd ((hcondNK0 t).mp h) (by omega)
  have hN0 : ¬condN0 (grid0.coords t) := fun h => absurd ((hcondN0 t).mp h) (by omega)
  have hK3 : ¬condK3 (grid0.coords t) := fun h => absurd ((hcondK3 t).mp h) (by omega)
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  rw [leaves0 m c t, leaves1 m c t, leaves2 m c t, leaves3 m c t, leaves4 m c t]
  rw [Dat.leavesExact_idle (dats m 0 c) 5 t (idleAt0_5 t hK3) (noFlush0_5 t hK3)]
  rw [accAt_eq m c t, if_pos (show t.val % 4 = 0 by omega)]
  rw [xbAt_eq m c t, if_neg hb]
  have hz : t.val ≠ 0 := by omega
  · rw [PhiS_castSucc m c t, PhiS_pos m c _ _ hz]
    iintro ⟨⟨⟨HS0, HS1⟩, Hg⟩, Ho, ⟨%d0, H0⟩, ⟨%d1, H1⟩, ⟨%d2, H2⟩, ⟨%d3, H3⟩, ⟨%d4, H4⟩, ⟨%d5, H5⟩⟩
    iapply (run_D c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) scM1 (Memref.isWhole_whole _)
      hK0 hNK0 hN0 hK3 (iblk m c 0 t) (iblk m c 1 t) (iblk m c 2 t) (iblk m c 3 t) (iblk m c 4 t) ((dats m 0 c).before 5 t d5) (accAt m c (t.val - 1) (Nat.lt_of_le_of_lt (Nat.sub_le _ _) t.isLt)) (xbAt m c (t.val - 1) (Nat.lt_of_le_of_lt (Nat.sub_le _ _) t.isLt)) Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    iintro ⟨H0, H1, H2, H3, H4, H5, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    iexists _; iexact H5

set_option maxHeartbeats 1600000 in
/-- The body obligation at a point of case E (a middle reduction block of a later output tile: the dense accumulator is increased, the projections are kept). -/
theorem sound_E (c : Dev nD) (t : Fin cfg0.N) (hb : ¬t.val % 16 < 4) (ha : ¬t.val % 4 = 0) (hd : ¬t.val % 4 = 3) :
    bodyPre m c t ⊢ wp frame (wpE (defs₀ (F := F)) Variants.none c none) Set.univ (bodyAt0 t) (fun _ => bodyPost m c t) := by
  have hN : t.val < 64 := lt_of_lt_of_eq t.isLt (show cfg0.N = 64 from N_0)
  have hK0 : ¬condK0 (grid0.coords t) := fun h => absurd ((hcondK0 t).mp h) (by omega)
  have hNK0 : ¬condNK0 (grid0.coords t) := fun h => absurd ((hcondNK0 t).mp h) (by omega)
  have hN0 : ¬condN0 (grid0.coords t) := fun h => absurd ((hcondN0 t).mp h) (by omega)
  have hK3 : ¬condK3 (grid0.coords t) := fun h => absurd ((hcondK3 t).mp h) (by omega)
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  rw [leaves0 m c t, leaves1 m c t, leaves2 m c t, leaves3 m c t, leaves4 m c t]
  rw [Dat.leavesExact_idle (dats m 0 c) 5 t (idleAt0_5 t hK3) (noFlush0_5 t hK3)]
  rw [accAt_eq m c t, if_neg (show ¬t.val % 4 = 0 by omega)]
  rw [xbAt_eq m c t, if_neg hb]
  have hz : t.val ≠ 0 := by omega
  · rw [PhiS_castSucc m c t, PhiS_pos m c _ _ hz]
    iintro ⟨⟨⟨HS0, HS1⟩, Hg⟩, Ho, ⟨%d0, H0⟩, ⟨%d1, H1⟩, ⟨%d2, H2⟩, ⟨%d3, H3⟩, ⟨%d4, H4⟩, ⟨%d5, H5⟩⟩
    iapply (run_E c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) scM1 (Memref.isWhole_whole _)
      hK0 hNK0 hN0 hK3 (iblk m c 0 t) (iblk m c 1 t) (iblk m c 2 t) (iblk m c 3 t) (iblk m c 4 t) ((dats m 0 c).before 5 t d5) (accAt m c (t.val - 1) (Nat.lt_of_le_of_lt (Nat.sub_le _ _) t.isLt)) (xbAt m c (t.val - 1) (Nat.lt_of_le_of_lt (Nat.sub_le _ _) t.isLt)) Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    iintro ⟨H0, H1, H2, H3, H4, H5, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    iexists _; iexact H5

set_option maxHeartbeats 1600000 in
/-- The body obligation at a point of case F (the last reduction block of a later output tile: the dense accumulator is increased and the tile is finished with the kept projections). -/
theorem sound_F (c : Dev nD) (t : Fin cfg0.N) (hb : ¬t.val % 16 < 4) (hd : t.val % 4 = 3) :
    bodyPre m c t ⊢ wp frame (wpE (defs₀ (F := F)) Variants.none c none) Set.univ (bodyAt0 t) (fun _ => bodyPost m c t) := by
  have hN : t.val < 64 := lt_of_lt_of_eq t.isLt (show cfg0.N = 64 from N_0)
  have hK0 : ¬condK0 (grid0.coords t) := fun h => absurd ((hcondK0 t).mp h) (by omega)
  have hNK0 : ¬condNK0 (grid0.coords t) := fun h => absurd ((hcondNK0 t).mp h) (by omega)
  have hN0 : ¬condN0 (grid0.coords t) := fun h => absurd ((hcondN0 t).mp h) (by omega)
  have hK3 : condK3 (grid0.coords t) := (hcondK3 t).mpr (by omega)
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  rw [leaves0 m c t, leaves1 m c t, leaves2 m c t, leaves3 m c t, leaves4 m c t]
  rw [leaves5_live m c t hK3]; unfold outAt
  rw [accAt_eq m c t, if_neg (show ¬t.val % 4 = 0 by omega)]
  rw [xbAt_eq m c t, if_neg hb]
  have hz : t.val ≠ 0 := by omega
  · rw [PhiS_castSucc m c t, PhiS_pos m c _ _ hz]
    iintro ⟨⟨⟨HS0, HS1⟩, Hg⟩, Ho, ⟨%d0, H0⟩, ⟨%d1, H1⟩, ⟨%d2, H2⟩, ⟨%d3, H3⟩, ⟨%d4, H4⟩, ⟨%d5, H5⟩⟩
    iapply (run_F c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) scM1 (Memref.isWhole_whole _)
      hK0 hNK0 hN0 hK3 (iblk m c 0 t) (iblk m c 1 t) (iblk m c 2 t) (iblk m c 3 t) (iblk m c 4 t) ((dats m 0 c).before 5 t d5) (accAt m c (t.val - 1) (Nat.lt_of_le_of_lt (Nat.sub_le _ _) t.isLt)) (xbAt m c (t.val - 1) (Nat.lt_of_le_of_lt (Nat.sub_le _ _) t.isLt)) Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    iintro ⟨H0, H1, H2, H3, H4, H5, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    iexact H5

/-- The body at any point: the point's position in its row block and tile selects the case. -/
theorem sound_body (c : Dev nD) (t : Fin cfg0.N) :
    bodyPre m c t ⊢ wp frame (wpE (defs₀ (F := F)) Variants.none c none) Set.univ (bodyAt0 t) (fun _ => bodyPost m c t) := by
  by_cases hb : t.val % 16 < 4
  · by_cases ha : t.val % 4 = 0
    · exact sound_A m c t hb ha
    · by_cases hd : t.val % 4 = 3
      · exact sound_C m c t hb hd
      · exact sound_B m c t hb ha hd
  · by_cases ha : t.val % 4 = 0
    · exact sound_D m c t hb ha
    · by_cases hd : t.val % 4 = 3
      · exact sound_F m c t hb hd
      · exact sound_E m c t hb ha hd

theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives it back: what the accumulators hold is forgotten. -/
theorem hout (c : Dev nD) : (dats m 0 c).Φ (Fin.last cfg0.N) ⊢ Pipeline.ΦA spec0 c := by
  have hne : (Fin.last cfg0.N).val ≠ 0 := by rw [Fin.val_last]; have : cfg0.N = 64 := N_0; omega
  rw [show (dats m 0 c).Φ (Fin.last cfg0.N) = PhiS m c (Fin.last cfg0.N).val (Nat.le_of_lt_succ (Fin.last cfg0.N).isLt) from rfl, PhiS_pos m c _ _ hne, PhiA0_eq]
  iintro ⟨⟨HS0, HS1⟩, Hg⟩
  isplitl [HS0 HS1]
  · isplitl [HS0]
    · iexists _; iexact HS0
    iexists _; iexact HS1
  iexact Hg

/-! ## The run and the frame -/

set_option backward.isDefEq.respectTransparency.types false in
/-- Every weakly fair execution of @main terminates, and every final state has every array of the pipeline at what the
    library computes from the proof data and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The program runs to the end, faults nowhere, and leaves its five argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.Body

end
-- ==== Proof.Spec.lean ====
/-
  The specification. A linear layer with a rank-32 correction folded into its weight,
      y[p, s, o] = Σ_i x[p, s, i] · (W[o, i] + Σ_j A[o, j] · B[i, j]) + bias[o],
  written in the arrangement in which the correction is applied to the activations instead of the weight:
      y[p, s, o] = Σ_i x[p, s, i] · W[o, i]  +  Σ_j (Σ_i x[p, s, i] · B[i, j]) · A[o, j]  +  bias[o].
  The two arrangements agree on finite entries (distributivity and an exchange of the two finite sums); on the
  extended reals they need not, which is where the finiteness of the inputs is used. `G` is the second
  arrangement, over explicit coordinates, as a function of the five argument arrays.
-/
import Idealize.ShloMosaic.PureOps.Ideal
import Idealize.ShloMosaic.Lib.ValueIdx

noncomputable section

open Idealize.ShloMosaic Idealize.ShloMosaic.ValueIdx
open scoped BigOperators

namespace Cert.LoraLinear

/-- The activations' shape [4, 2048, 4096] (also the result's). -/
abbrev SX : Shape := ⟨3, ![4, 2048, 4096]⟩
/-- The weight's shape [4096 (out), 4096 (in)]. -/
abbrev SW : Shape := ⟨2, ![4096, 4096]⟩
/-- The bias' shape [4096]. -/
abbrev SV : Shape := ⟨1, ![4096]⟩
/-- The shape [4096, 32] of the two low-rank factors. -/
abbrev SL : Shape := ⟨2, ![4096, 32]⟩

/-- The result at batch `p`, position `s`, output feature `o`: the dense product of the activations' row with the
    weight's row `o`, plus the row's 32 projections on `B`'s columns combined with `A`'s row `o`, plus the bias. -/
def G (x : SX.Idx → EReal) (w : SW.Idx → EReal) (bias : SV.Idx → EReal) (a b : SL.Idx → EReal)
    (p : Fin 4) (s : Fin 2048) (o : Fin 4096) : EReal :=
  ((∑ i : Fin 4096, x (ix3 p s i) * w (ix2 o i))
    + (∑ j : Fin 32, (∑ i : Fin 4096, x (ix3 p s i) * b (ix2 i j)) * a (ix2 o j)))
  + bias (ix1 o)

/-- `G` as an array of the result's shape. -/
def GA (x : SX.Idx → EReal) (w : SW.Idx → EReal) (bias : SV.Idx → EReal) (a b : SL.Idx → EReal) : SX.Idx → EReal :=
  fun i => G x w bias a b (i 0) (i 1) (i 2)

end Cert.LoraLinear

end
-- ==== Proof.Finite.lean ====
/-
  From the precondition to real entries. The precondition is the conjunction of five tests, one per argument array,
  each of the form "every entry a of the array satisfies |a| < +∞". On the extended reals |a| is max a (-a), which is
  +∞ exactly at a = +∞ and a = -∞; so the test passing at an entry says the entry is a real number.
-/
import proofs.«142443_j28853590294649_2_alg».proof.Pre_finite_inputs
import proofs.«142443_j28853590294649_2_alg».proof.Proof.Gen.Pre_finite_inputs
import Idealize.ShloMosaic.Lib.ReduceAll
import Idealize.ShloMosaic.Lib.ValueIdx
import Idealize.ShloMosaic.PureOps.Ideal
import Idealize.ShloMosaic.PureOps.Ideal.Laws

noncomputable section

open Idealize.ShloMosaic

namespace Cert.LoraLinear.Finite

open Cert.Pre_finite_inputs

/-- The rank-0 shape has one index: two indices are functions out of the empty type. -/
instance subsingleton_scalar_idx : Subsingleton S_.Idx := ⟨fun a b => funext fun d => d.elim0⟩

/-- The f32 pattern 0x7F800000 (exponent all ones, fraction zero, sign clear) denotes +∞. -/
theorem inf_pattern : Ideal.ofBits .f32 0x7F800000#32 = (⊤ : EReal) := by
  simp [Ideal.ofBits, Ideal.ieee]

/-- An extended real whose absolute value max a (-a) is below +∞ is a real number: +∞ gives max ⊤ ⊥ = ⊤ and
    -∞ gives max ⊥ ⊤ = ⊤, neither below ⊤. -/
theorem real_of_abs_lt_top (a : EReal) (h : max a (-a) < ⊤) : ∃ r : ℝ, a = (r : EReal) := by
  induction a using EReal.rec with
  | bot => simp at h
  | top => simp at h
  | coe r => exact ⟨r, rfl⟩

/-- One test, for an array of any shape: if the conjunction over all entries of "|x i| < +∞" (a reduction by `and`
    onto the one-index result, from any initial word) is 1, then every entry of x is a real number. -/
theorem real_of_all_abs_lt_inf {s : Shape} {axes : List (Fin s.rank)} (x : FVec Ideal s .f32)
    (hb : S_.BroadcastsInDim s (![] : Fin 0 → Fin s.rank)) (hr : s.ReducesTo axes S_) (hu : 0 < S_.numel)
    (init : IVec S_ 1)
    (e : Host.reduce IntOp.andi
          (cmpf .olt (Host.absf x) (broadcastInDim s ![] hb (constant (F := Ideal) S_ .f32 0x7F800000#32)))
          init hr hu ValueIdx.ix0 = 1#1) :
    ∀ i, ∃ r : ℝ, x i = (r : EReal) := by
  intro i
  have hi := Host.reduce_andi_all _ init hr hu ValueIdx.ix0 e i
  -- the entry's test: cmp (<) (max (x i) (-(x i))) (the pattern's value) = 1
  have hlt : max (x i) (-(x i)) < (⊤ : EReal) := by
    have h2 : Ideal.cmp .olt (max (x i) (-(x i))) (Ideal.ofBits .f32 0x7F800000#32) = 1#1 := hi
    rw [inf_pattern] at h2
    by_contra hn
    simp [Ideal.cmp, hn] at h2
  exact real_of_abs_lt_top _ hlt

/-- Under the precondition every entry of every argument array is a real number. The precondition's value is the
    `and` of the five tests, nested to the left; it is 1 exactly when each test is 1. -/
theorem finite_of_pre [Cert.Pre_finite_inputs.Facts] (x0 : FVec Ideal S4x2048x4096 .f32) (x1 : FVec Ideal S4096x4096 .f32) (x2 : FVec Ideal S4096 .f32)
    (x3 x4 : FVec Ideal S4096x32 .f32)
    (h : Cert.Pre_finite_inputs.fn (F := Ideal) x0 x1 x2 x3 x4 = fun _ => 1#1) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) ∧ (∀ i, ∃ r : ℝ, x4 i = (r : EReal)) := by
  have h0 := congrFun h ValueIdx.ix0
  dsimp only [Cert.Pre_finite_inputs.fn, Cert.Pre_finite_inputs.fn_part1] at h0
  obtain ⟨h0123, e4⟩ := IntOp.andi_eq_one.1 h0
  obtain ⟨h012, e3⟩ := IntOp.andi_eq_one.1 h0123
  obtain ⟨h01, e2⟩ := IntOp.andi_eq_one.1 h012
  obtain ⟨e0, e1⟩ := IntOp.andi_eq_one.1 h01
  exact ⟨real_of_all_abs_lt_inf x0 _ _ _ _ e0, real_of_all_abs_lt_inf x1 _ _ _ _ e1,
    real_of_all_abs_lt_inf x2 _ _ _ _ e2, real_of_all_abs_lt_inf x3 _ _ _ _ e3,
    real_of_all_abs_lt_inf x4 _ _ _ _ e4⟩

end Cert.LoraLinear.Finite

end
-- ==== Proof.RefValue.lean ====
/-
  The reference program computes the specification.

  Read one operation at a time, the reference's result at batch p, position s, output feature o is
      (Σ_k x[p,s,k] · (W[o,k] + (Σ_j A[o,j] · B[k,j]) · 1)) + bias[o]:
  the rank-32 correction A·Bᵀ is folded into the weight (scaled by the constant 1) before the one dense product.
  The specification G applies the correction to the activations instead:
      Σ_k x[p,s,k] · W[o,k] + Σ_j (Σ_k x[p,s,k] · B[k,j]) · A[o,j] + bias[o].
  Over the reals the two agree by distributivity and an exchange of the two finite sums. Over the extended reals
  distributivity needs finite entries, so the law is proved for real numbers and carried to finite extended reals
  through the coercion, which commutes with products, sums of two, and finite sums.
-/
import proofs.«142443_j28853590294649_2_alg».proof.Proof.Gen.ReferenceIdeal.Read
import proofs.«142443_j28853590294649_2_alg».proof.Proof.Spec

noncomputable section

open Idealize.ShloMosaic Idealize.ShloMosaic.ValueIdx
open Cert.ReferenceIdeal Cert.ReferenceIdeal.Read
open scoped BigOperators

namespace Cert.LoraLinear.Ref

/-! ## The algebraic law -/

/-- Over the reals: folding the low-rank correction into the weight, or applying it to the activations, is the same
    number (distributivity, then the two finite sums exchanged). -/
theorem fold_real {ι κ : Type*} [Fintype ι] [Fintype κ] (x w : ι → ℝ) (a : κ → ℝ) (b : ι → κ → ℝ) :
    ∑ k, x k * (w k + (∑ j, a j * b k j) * 1) = ∑ k, x k * w k + ∑ j, (∑ k, x k * b k j) * a j := by
  have h : ∀ k, x k * (w k + (∑ j, a j * b k j) * 1) = x k * w k + ∑ j, x k * b k j * a j := by
    intro k
    rw [mul_one, mul_add, Finset.mul_sum]
    congr 1
    exact Finset.sum_congr rfl fun j _ => by ring
  simp only [h]
  rw [Finset.sum_add_distrib, Finset.sum_comm]
  congr 1
  exact Finset.sum_congr rfl fun j _ => (Finset.sum_mul _ _ _).symm

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The same law for extended reals all of whose entries are finite. -/
theorem fold_ereal {ι κ : Type*} [Fintype ι] [Fintype κ] (x w : ι → EReal) (a : κ → EReal) (b : ι → κ → EReal)
    (hx : ∀ k, ∃ r : ℝ, x k = (r : EReal)) (hw : ∀ k, ∃ r : ℝ, w k = (r : EReal))
    (ha : ∀ j, ∃ r : ℝ, a j = (r : EReal)) (hb : ∀ k j, ∃ r : ℝ, b k j = (r : EReal)) :
    ∑ k, x k * (w k + (∑ j, a j * b k j) * 1) = ∑ k, x k * w k + ∑ j, (∑ k, x k * b k j) * a j := by
  choose xr hx using hx
  choose wr hw using hw
  choose ar ha using ha
  choose br hb using hb
  simp only [hx, hw, ha, hb]
  have h := congrArg (fun r : ℝ => (r : EReal)) (fold_real xr wr ar br)
  simp only [coe_sum, EReal.coe_add, EReal.coe_mul, EReal.coe_one] at h
  exact h

/-! ## The constant -/

/-- The f32 word 0x3F800000 (sign 0, biased exponent 127, significand 0) is the number one. -/
theorem one_f32 : Ideal.ofBits .f32 0x3F800000#32 = (1 : EReal) := by
  simp [Ideal.ofBits, Ideal.ieee]
  rw [← EReal.coe_mul]
  norm_num

/-! ## The reference's index maps at coordinates -/

/-- The dense product reads the activations' row (p, s) at the contraction coordinate. -/
theorem lidx5 (p : Fin 4) (s : Fin 2048) (o k : Fin 4096) : lidx_main_v5 (ix3 p s o) k = ix3 p s k :=
  funext fun a => Fin.ext (by match a with | ⟨0, _⟩ => rfl | ⟨1, _⟩ => rfl | ⟨2, _⟩ => rfl)

/-- … and the corrected weight's row o at the contraction coordinate. -/
theorem ridx5 (p : Fin 4) (s : Fin 2048) (o k : Fin 4096) : ridx_main_v5 (ix3 p s o) k = ix2 o k :=
  funext fun a => Fin.ext (by match a with | ⟨0, _⟩ => rfl | ⟨1, _⟩ => rfl)

/-- The correction's entry (o, k) reads the first factor's row o at the rank coordinate … -/
theorem lidx1 (o k : Fin 4096) (j : Fin 32) : lidx_main_v1 (ix2 o k) j = ix2 o j :=
  funext fun a => Fin.ext (by match a with | ⟨0, _⟩ => rfl | ⟨1, _⟩ => rfl)

/-- … and, through the transposition, the second factor's row k at the rank coordinate. -/
theorem idx0 (o k : Fin 4096) (j : Fin 32) : idx_main_v0 (ridx_main_v1 (ix2 o k) j) = ix2 k j :=
  funext fun a => Fin.ext (by match a with | ⟨0, _⟩ => rfl | ⟨1, _⟩ => rfl)

/-- The bias, broadcast along batch and position, is read at the output feature. -/
theorem idx67 (p : Fin 4) (s : Fin 2048) (o : Fin 4096) : idx_main_v6 (idx_main_v7 (ix3 p s o)) = ix1 o :=
  funext fun a => Fin.ext (by match a with | ⟨0, _⟩ => rfl)

/-! ## The reference at an index -/

/-- The reference's result at (p, s, o), one operation at a time: the activations' row against the weight's row o
    corrected by the rank-32 product scaled by one, plus the bias at o. -/
theorem ref_at (x0 : FVec Ideal S4x2048x4096 .f32) (x1 : FVec Ideal S4096x4096 .f32) (x2 : FVec Ideal S4096 .f32)
    (x3 x4 : FVec Ideal S4096x32 .f32) (p : Fin 4) (s : Fin 2048) (o : Fin 4096) :
    val_main_v8 (F := Ideal) x0 x1 x2 x3 x4 (ix3 p s o)
      = (∑ k : Fin 4096, x0 (ix3 p s k) * (x1 (ix2 o k) + (∑ j : Fin 32, x3 (ix2 o j) * x4 (ix2 k j)) * 1))
        + x2 (ix1 o) := by
  rw [val_main_v8_apply, val_main_v5_apply, val_main_v7_apply, val_main_v6_apply]
  simp only [val_main_v4_apply, val_main_v3_apply, val_main_v1_apply, val_main_v0_apply, val_main_v2_apply,
    val_main_cst_apply, Ideal.addf_def, Ideal.mulf_def, Ideal.ofBits_def, one_f32, lidx5, ridx5, lidx1, idx0, idx67]

/-- At finite activations, weight and factors the reference's result at (p, s, o) is the specification's. -/
theorem ref_at_G (x0 : FVec Ideal S4x2048x4096 .f32) (x1 : FVec Ideal S4096x4096 .f32) (x2 : FVec Ideal S4096 .f32)
    (x3 x4 : FVec Ideal S4096x32 .f32)
    (h0 : ∀ i, ∃ r : ℝ, x0 i = (r : EReal)) (h1 : ∀ i, ∃ r : ℝ, x1 i = (r : EReal))
    (h3 : ∀ i, ∃ r : ℝ, x3 i = (r : EReal)) (h4 : ∀ i, ∃ r : ℝ, x4 i = (r : EReal))
    (p : Fin 4) (s : Fin 2048) (o : Fin 4096) :
    val_main_v8 (F := Ideal) x0 x1 x2 x3 x4 (ix3 p s o) = G x0 x1 x2 x3 x4 p s o := by
  rw [ref_at, G]
  congr 1
  exact fold_ereal (fun k : Fin 4096 => x0 (ix3 p s k)) (fun k : Fin 4096 => x1 (ix2 o k))
    (fun j : Fin 32 => x3 (ix2 o j)) (fun (k : Fin 4096) (j : Fin 32) => x4 (ix2 k j))
    (fun k => h0 _) (fun k => h1 _) (fun j => h3 _) (fun k j => h4 _)

/-- The reference's result is the specification, as arrays. -/
theorem ref_eq_G (x0 : FVec Ideal S4x2048x4096 .f32) (x1 : FVec Ideal S4096x4096 .f32) (x2 : FVec Ideal S4096 .f32)
    (x3 x4 : FVec Ideal S4096x32 .f32)
    (h0 : ∀ i, ∃ r : ℝ, x0 i = (r : EReal)) (h1 : ∀ i, ∃ r : ℝ, x1 i = (r : EReal))
    (h3 : ∀ i, ∃ r : ℝ, x3 i = (r : EReal)) (h4 : ∀ i, ∃ r : ℝ, x4 i = (r : EReal)) :
    val_main_v8 (F := Ideal) x0 x1 x2 x3 x4 = GA x0 x1 x2 x3 x4 := by
  funext i
  obtain ⟨p, s, o, rfl⟩ : ∃ (p : Fin 4) (s : Fin 2048) (o : Fin 4096), i = ix3 p s o := ⟨i 0, i 1, i 2, eq_ix3 i⟩
  exact ref_at_G x0 x1 x2 x3 x4 h0 h1 h3 h4 p s o

end Cert.LoraLinear.Ref

end
-- ==== Proof.HostSide.lean ====
/-
  The host operations around the region, read at an index.

  Before the region the program lays its arguments out for the kernel: the activations [4, 2048, 4096] are viewed
  as the matrix [8192, 4096] whose row r is position r % 2048 of batch r / 2048, and narrowed to bf16; the weight and
  the second low-rank factor are narrowed to bf16; the bias [4096] is viewed as the row [1, 4096]. On extended reals a
  change of float format is the identity, so each of these arrays is an argument array re-indexed. After the region
  the result matrix [8192, 4096] is viewed back as [4, 2048, 4096]: entry (p, s, o) is row 2048·p + s, column o.
-/
import proofs.«142443_j28853590294649_2_alg».proof.Proof.Gen.KernelIdeal.Frame
import Idealize.ShloMosaic.Lib.Pipeline.Value
import Idealize.ShloMosaic.Lib.ValueIdx
import Idealize.ShloMosaic.Lib.ValueLayout

noncomputable section

open Cert.KernelIdeal Cert.KernelIdeal.Gen
open Idealize.ShloMosaic Idealize.ShloMosaic.TcCoe Idealize.ShloMosaic.ValueIdx Idealize.SL.Sem

namespace Cert.LoraLinear.Host

/-! ## The two views between [4, 2048, 4096] and [8192, 4096] -/

/-- A [4, 2048, 4096] array viewed as [8192, 4096]: row r is position r % 2048 of batch r / 2048 (the row-major
    positions agree: (r / 2048 · 2048 + r % 2048) · 4096 + k = r · 4096 + k). -/
theorem shapeCast_rows_apply {α : Type} (x : S4x2048x4096.Idx → α) (h : S4x2048x4096.ShapeCasts S8192x4096)
    (r : Fin 8192) (k : Fin 4096) :
    shapeCast S8192x4096 x h (ix2 r k)
      = x (ix3 (⟨r.val / 2048, by omega⟩ : Fin 4) (⟨r.val % 2048, by omega⟩ : Fin 2048) k) :=
  shapeCast_apply x h _ _ (by
    rw [Shape.rowMajor_val_three, Shape.rowMajor_val_two]
    show (r.val / 2048 * 2048 + r.val % 2048) * 4096 + k.val = r.val * 4096 + k.val
    omega)

/-- An [8192, 4096] array viewed as [4, 2048, 4096]: entry (p, s, o) is row 2048·p + s, column o. -/
theorem shapeCast_batches_apply {α : Type} (y : S8192x4096.Idx → α) (h : S8192x4096.ShapeCasts S4x2048x4096)
    (p : Fin 4) (s : Fin 2048) (o : Fin 4096) :
    shapeCast S4x2048x4096 y h (ix3 p s o) = y (ix2 (⟨2048 * p.val + s.val, by omega⟩ : Fin 8192) o) :=
  shapeCast_apply y h _ _ (by
    rw [Shape.rowMajor_val_three, Shape.rowMajor_val_two]
    show (2048 * p.val + s.val) * 4096 + o.val = (p.val * 2048 + s.val) * 4096 + o.val
    omega)

/-! ## The arrays the region finds -/

section Before

variable (m : (ℓ : Loc nD τ sig) → Buf (Elt Ideal) ℓ) (c : Dev nD)

/-- The activations the region finds: the argument viewed [8192, 4096] (the narrowing is the identity). -/
theorem V_v1_eq : @Eq (S8192x4096.Idx → EReal) (Gen.V m c main_v1)
    (shapeCast S8192x4096 (m ((c : Thread nD τ).loc main_arg0)) shapeCasts_S4x2048x4096_S8192x4096) := by
  show StableHlo.after hostOps0 (fun b => m (c, b)) (Proc.devRef .tc main_v1) = _
  after_results
  rfl

/-- Row r, column k of the activations the region finds is the argument at batch r / 2048, position r % 2048. -/
theorem V_v1_apply (r : Fin 8192) (k : Fin 4096) :
    (Gen.V m c main_v1 : S8192x4096.Idx → EReal) (ix2 r k)
      = (m ((c : Thread nD τ).loc main_arg0) : S4x2048x4096.Idx → EReal)
          (ix3 (⟨r.val / 2048, by omega⟩ : Fin 4) (⟨r.val % 2048, by omega⟩ : Fin 2048) k) :=
  (congrFun (V_v1_eq m c) (ix2 r k)).trans (shapeCast_rows_apply _ _ r k)

/-- The weight the region finds is the argument (the narrowing is the identity). -/
theorem V_v2_eq : @Eq (S4096x4096.Idx → EReal) (Gen.V m c main_v2) (m ((c : Thread nD τ).loc main_arg1)) := by
  show StableHlo.after hostOps0 (fun b => m (c, b)) (Proc.devRef .tc main_v2) = _
  after_results
  rfl

/-- The second low-rank factor the region finds is the argument (the narrowing is the identity). -/
theorem V_v3_eq : @Eq (S4096x32.Idx → EReal) (Gen.V m c main_v3) (m ((c : Thread nD τ).loc main_arg4)) := by
  show StableHlo.after hostOps0 (fun b => m (c, b)) (Proc.devRef .tc main_v3) = _
  after_results
  rfl

/-- The bias row the region finds: the argument viewed [1, 4096]. -/
theorem V_v4_eq : @Eq (S1x4096.Idx → EReal) (Gen.V m c main_v4)
    (shapeCast S1x4096 (m ((c : Thread nD τ).loc main_arg2)) shapeCasts_S4096_S1x4096) := by
  show StableHlo.after hostOps0 (fun b => m (c, b)) (Proc.devRef .tc main_v4) = _
  after_results
  rfl

/-- Column o of the bias row the region finds is the argument at o. -/
theorem V_v4_apply (o : Fin 4096) :
    (Gen.V m c main_v4 : S1x4096.Idx → EReal) (ix2 (0 : Fin 1) o)
      = (m ((c : Thread nD τ).loc main_arg2) : S4096.Idx → EReal) (ix1 o) :=
  (congrFun (V_v4_eq m c) (ix2 (0 : Fin 1) o)).trans (shapeCast_a_1a_apply _ _ (0 : Fin 1) o)

end Before

/-! ## The result after the region -/

section After

variable (m : (ℓ : Loc nD τ sig) → Buf (Elt Ideal) ℓ)
  (dats : (p : Fin 1) → (c : Dev nD) → Pipeline.Dat τ (Elt Ideal) Unit ℕ (UR sig nD τ) ℕ (cfgs p) c) (c : Dev nD)

/-- The program's result: whatever matrix Y the region leaves in its output array, viewed [4, 2048, 4096]. -/
theorem tail_v6_eq (Y : S8192x4096.Idx → EReal) (hY : @Eq (S8192x4096.Idx → EReal) ((dats 0 c).arrAt 5 cfg0.N) Y) :
    @Eq (S4x2048x4096.Idx → EReal) (Pipeline.afterTail₀ cfgs dats 0 (Gen.V0 m) [Gen.hostOps1] c main_v6)
      (shapeCast S4x2048x4096 Y shapeCasts_S8192x4096_S4x2048x4096) := by
  have hW : @Eq (S8192x4096.Idx → EReal)
      (Pipeline.withArrays (cfgs 0).spec c (Gen.V0 m c) (fun w => (dats 0 c).arrAt w (cfgs 0).N)
        (Proc.devRef .tc main_v5)) Y :=
    (Pipeline.withArrays_arr spec0 launch0.win.arr_inj c _ _ 5).trans hY
  unfold Pipeline.afterTail₀
  show StableHlo.after hostOps1 _ (Proc.devRef .tc main_v6) = _
  after_results
  exact congrArg (fun z : S8192x4096.Idx → EReal => shapeCast S4x2048x4096 z shapeCasts_S8192x4096_S4x2048x4096) hW

/-- The program's result at batch p, position s, output feature o is the region's output at row 2048·p + s,
    column o. -/
theorem tail_v6_apply (Y : S8192x4096.Idx → EReal) (hY : @Eq (S8192x4096.Idx → EReal) ((dats 0 c).arrAt 5 cfg0.N) Y)
    (p : Fin 4) (s : Fin 2048) (o : Fin 4096) :
    (Pipeline.afterTail₀ cfgs dats 0 (Gen.V0 m) [Gen.hostOps1] c main_v6 : S4x2048x4096.Idx → EReal) (ix3 p s o)
      = Y (ix2 (⟨2048 * p.val + s.val, by omega⟩ : Fin 8192) o) :=
  (congrFun (tail_v6_eq m dats c Y hY) (ix3 p s o)).trans (shapeCast_batches_apply _ _ p s o)

end After

end Cert.LoraLinear.Host

end
-- ==== Proof.KernelForm.lean ====
/-
  The kernel's result as a function of the five arguments. Before the tiled region the activations are flattened to
  [8192, 4096] (row 2048·p + s is position s of batch p) and the operands narrowed in format, which at exact
  arithmetic changes nothing; after it the [8192, 4096] result is cut back into [4, 2048, 4096]. So the closed form of
  the region's result over the arrays it finds, read at row 2048·p + s, is the specification `G` at (p, s, o).
-/
import proofs.«142443_j28853590294649_2_alg».proof.Proof.Spec
import proofs.«142443_j28853590294649_2_alg».proof.Proof.HostSide

set_option maxRecDepth 16384

noncomputable section

namespace Cert.LoraLinear.KernelValue

open Idealize.ShloMosaic Idealize.ShloMosaic.TcCoe Idealize.ShloMosaic.ValueIdx Idealize.SL.Sem
open Cert.KernelIdeal Cert.KernelIdeal.Gen Cert.LoraLinear
open scoped BigOperators

variable (m : (ℓ : Loc nD τ sig) → Buf (Elt Ideal) ℓ) (c : Dev nD)

/-- The arrays the region finds, as extended-real arrays: the flattened activations, the weight, the second and the
    first low-rank factor, and the bias as a row. -/
abbrev Xf : S8192x4096.Idx → EReal := Gen.V m c main_v1
abbrev Wv : S4096x4096.Idx → EReal := Gen.V m c main_v2
abbrev Bv : S4096x32.Idx → EReal := Gen.V m c main_v3
abbrev Av : S4096x32.Idx → EReal := Gen.V m c main_arg3
abbrev bv : S1x4096.Idx → EReal := Gen.V m c main_v4

/-- The region's result over the arrays it finds, at row `r` and output feature `o` of the flattened layout. -/
def tileForm (r : Fin 8192) (o : Fin 4096) : EReal :=
  ((∑ i : Fin 4096, Xf m c (ix2 r i) * Wv m c (ix2 o i))
    + (∑ j : Fin 32, (∑ i : Fin 4096, Xf m c (ix2 r i) * Bv m c (ix2 i j)) * Av m c (ix2 o j)))
  + bv m c (ix2 (0 : Fin 1) o)

/-- Row 2048·p + s of the flattened activations is position `s` of batch `p`. -/
theorem x_row (p : Fin 4) (s : Fin 2048) (i : Fin 4096) (h : 2048 * p.val + s.val < 8192) :
    Xf m c (ix2 (⟨2048 * p.val + s.val, h⟩ : Fin 8192) i)
      = (m ((c : Thread nD τ).loc main_arg0) : S4x2048x4096.Idx → EReal) (ix3 p s i) := by
  unfold Xf
  rw [Cert.LoraLinear.Host.V_v1_apply m c]
  have e1 : (2048 * p.val + s.val) / 2048 = p.val := by omega
  have e2 : (2048 * p.val + s.val) % 2048 = s.val := by omega
  exact congrArg _ (funext fun a => by
    match a with
    | ⟨0, _⟩ => exact Fin.ext e1
    | ⟨1, _⟩ => exact Fin.ext e2
    | ⟨2, _⟩ => rfl)

/-- The closed form at row 2048·p + s is the specification at (p, s, o). -/
theorem tileForm_eq_G (p : Fin 4) (s : Fin 2048) (o : Fin 4096) (h : 2048 * p.val + s.val < 8192) :
    tileForm m c (⟨2048 * p.val + s.val, h⟩ : Fin 8192) o
      = G (m ((c : Thread nD τ).loc main_arg0)) (m ((c : Thread nD τ).loc main_arg1)) (m ((c : Thread nD τ).loc main_arg2))
          (m ((c : Thread nD τ).loc main_arg3)) (m ((c : Thread nD τ).loc main_arg4)) p s o := by
  unfold tileForm G
  simp only [x_row m c p s _ h]
  unfold Wv Bv Av bv
  rw [Cert.LoraLinear.Host.V_v2_eq m c, Cert.LoraLinear.Host.V_v3_eq m c, Gen.V_main_arg3 m c, Cert.LoraLinear.Host.V_v4_apply m c]

end Cert.LoraLinear.KernelValue

end
-- ==== Proof.Payload.lean ====
/-
  The kernel body's arithmetic, read at one element, at the ideal values (a float is an extended real, every
  operation the exact one, a change of format the identity).

  The body keeps two accumulators over the grid's contraction axis: a [2048, 1024] tile of the dense product and a
  [2048, 32] tile of the activations' projections on the low-rank factor. Each store's value is a pure function of
  the blocks read before it; here each of them is read at a coordinate pair:
    · the two initialisations are the zero tile;
    · the dense step adds, at (p, q), the sum over the block's 1024 contraction positions k of x[p, k] · w[q, k]
      (the weight's block is indexed (out, in): the contraction runs along both operands' second axis);
    · the projection step adds, at (p, j), the sum over k of x[p, k] · b[k, j];
    · the last step adds, at (p, q), the sum over the 32 rank positions j of xb[p, j] · a[q, j], scaled by the
      literal 1, and then the bias' entry q (the bias block [1, 1024] broadcast along the rows).
  All of these hold for arbitrary extended reals: nothing is assumed finite.
-/
import proofs.«142443_j28853590294649_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws
import Idealize.ShloMosaic.Lib.IdealHost

noncomputable section

open Idealize.ShloMosaic Idealize.ShloMosaic.ValueIdx
open Cert.KernelIdeal Cert.KernelIdeal.Gen
open scoped BigOperators

namespace Cert.LoraLinear.Pay

variable [Cert.KernelIdeal.Facts]
open Cert.KernelIdeal.Facts₀ Cert.KernelIdeal.Facts

/-! ## The three products into the zero tile, at a coordinate pair

For each of the three dimension records: where the operands are read. The result's row comes from the left
operand's free axis, its column from the right operand's free axis, and the one contraction coordinate sits on the
contracted axis of each. -/

theorem dense_lhs_row (i : S2048x1024.Idx) (c : dot_S2048x1024_S1024x1024_S2048x1024_1_1_0_0_n_n.contr.Idx) :
    (dot_S2048x1024_S1024x1024_S2048x1024_1_1_0_0_n_n.lhsIdx i c 0).val = (i 0).val := by
  unfold DotDims.lhsIdx
  rw [dif_neg (show ¬(0 : Fin S2048x1024.rank) ∈ dot_S2048x1024_S1024x1024_S2048x1024_1_1_0_0_n_n.lhsBatch by decide),
    dif_pos (show (0 : Fin S2048x1024.rank) ∈ dot_S2048x1024_S1024x1024_S2048x1024_1_1_0_0_n_n.lhsNonContracting by decide)]
  rfl
theorem dense_lhs_contr (i : S2048x1024.Idx) (c : dot_S2048x1024_S1024x1024_S2048x1024_1_1_0_0_n_n.contr.Idx) :
    (dot_S2048x1024_S1024x1024_S2048x1024_1_1_0_0_n_n.lhsIdx i c 1).val = (c ⟨0, by decide⟩).val :=
  dot_S2048x1024_S1024x1024_S2048x1024_1_1_0_0_n_n.lhsIdx_val_of_single rfl i c
theorem dense_rhs_col (i : S2048x1024.Idx) (c : dot_S2048x1024_S1024x1024_S2048x1024_1_1_0_0_n_n.contr.Idx) :
    (dot_S2048x1024_S1024x1024_S2048x1024_1_1_0_0_n_n.rhsIdx i c 0).val = (i 1).val := by
  unfold DotDims.rhsIdx
  rw [dif_neg (show ¬(0 : Fin S1024x1024.rank) ∈ dot_S2048x1024_S1024x1024_S2048x1024_1_1_0_0_n_n.rhsBatch by decide),
    dif_pos (show (0 : Fin S1024x1024.rank) ∈ dot_S2048x1024_S1024x1024_S2048x1024_1_1_0_0_n_n.rhsNonContracting by decide)]
  rfl
theorem dense_rhs_contr (i : S2048x1024.Idx) (c : dot_S2048x1024_S1024x1024_S2048x1024_1_1_0_0_n_n.contr.Idx) :
    (dot_S2048x1024_S1024x1024_S2048x1024_1_1_0_0_n_n.rhsIdx i c 1).val = (c ⟨0, by decide⟩).val :=
  dot_S2048x1024_S1024x1024_S2048x1024_1_1_0_0_n_n.rhsIdx_val_of_single rfl i c

/-- x · wᵀ: both operands are contracted along their second axis, so the element (p, q) is the sum over the
    contraction position k of x[p, k] · w[q, k]. -/
theorem matmul_x_wT (x : FVec Ideal S2048x1024 .bf16) (w : FVec Ideal S1024x1024 .bf16) (p : Fin 2048) (q : Fin 1024) :
    (matmul (F := Ideal) dot_S2048x1024_S1024x1024_S2048x1024_1_1_0_0_n_n none x w
        (constant S2048x1024 .f32 0x00000000#32)) (ix2 p q)
      = ∑ k : Fin 1024, x (ix2 p k) * w (ix2 q k) := by
  simp only [matmul]
  rw [Ideal.matmul_constant_zero_apply,
    ← Equiv.sum_comp (ValueIdx.contrEquiv1 dot_S2048x1024_S1024x1024_S2048x1024_1_1_0_0_n_n 1024 rfl rfl).symm]
  refine Finset.sum_congr rfl fun k _ => ?_
  have hk := ValueIdx.contrEquiv1_symm_val dot_S2048x1024_S1024x1024_S2048x1024_1_1_0_0_n_n 1024 rfl rfl k
  have el : dot_S2048x1024_S1024x1024_S2048x1024_1_1_0_0_n_n.lhsIdx (ix2 p q)
      ((ValueIdx.contrEquiv1 dot_S2048x1024_S1024x1024_S2048x1024_1_1_0_0_n_n 1024 rfl rfl).symm k) = ix2 p k :=
    funext fun a => Fin.ext (by
      match a with
      | ⟨0, _⟩ => exact dense_lhs_row _ _
      | ⟨1, _⟩ => exact (dense_lhs_contr _ _).trans hk)
  have er : dot_S2048x1024_S1024x1024_S2048x1024_1_1_0_0_n_n.rhsIdx (ix2 p q)
      ((ValueIdx.contrEquiv1 dot_S2048x1024_S1024x1024_S2048x1024_1_1_0_0_n_n 1024 rfl rfl).symm k) = ix2 q k :=
    funext fun a => Fin.ext (by
      match a with
      | ⟨0, _⟩ => exact dense_rhs_col _ _
      | ⟨1, _⟩ => exact (dense_rhs_contr _ _).trans hk)
  rw [el, er]

theorem proj_lhs_row (i : S2048x32.Idx) (c : dot_S2048x1024_S1024x32_S2048x32_1_0_0_1_n_n.contr.Idx) :
    (dot_S2048x1024_S1024x32_S2048x32_1_0_0_1_n_n.lhsIdx i c 0).val = (i 0).val := by
  unfold DotDims.lhsIdx
  rw [dif_neg (show ¬(0 : Fin S2048x1024.rank) ∈ dot_S2048x1024_S1024x32_S2048x32_1_0_0_1_n_n.lhsBatch by decide),
    dif_pos (show (0 : Fin S2048x1024.rank) ∈ dot_S2048x1024_S1024x32_S2048x32_1_0_0_1_n_n.lhsNonContracting by decide)]
  rfl
theorem proj_lhs_contr (i : S2048x32.Idx) (c : dot_S2048x1024_S1024x32_S2048x32_1_0_0_1_n_n.contr.Idx) :
    (dot_S2048x1024_S1024x32_S2048x32_1_0_0_1_n_n.lhsIdx i c 1).val = (c ⟨0, by decide⟩).val :=
  dot_S2048x1024_S1024x32_S2048x32_1_0_0_1_n_n.lhsIdx_val_of_single rfl i c
theorem proj_rhs_col (i : S2048x32.Idx) (c : dot_S2048x1024_S1024x32_S2048x32_1_0_0_1_n_n.contr.Idx) :
    (dot_S2048x1024_S1024x32_S2048x32_1_0_0_1_n_n.rhsIdx i c 1).val = (i 1).val := by
  unfold DotDims.rhsIdx
  rw [dif_neg (show ¬(1 : Fin S1024x32.rank) ∈ dot_S2048x1024_S1024x32_S2048x32_1_0_0_1_n_n.rhsBatch by decide),
    dif_pos (show (1 : Fin S1024x32.rank) ∈ dot_S2048x1024_S1024x32_S2048x32_1_0_0_1_n_n.rhsNonContracting by decide)]
  rfl
theorem proj_rhs_contr (i : S2048x32.Idx) (c : dot_S2048x1024_S1024x32_S2048x32_1_0_0_1_n_n.contr.Idx) :
    (dot_S2048x1024_S1024x32_S2048x32_1_0_0_1_n_n.rhsIdx i c 0).val = (c ⟨0, by decide⟩).val :=
  dot_S2048x1024_S1024x32_S2048x32_1_0_0_1_n_n.rhsIdx_val_of_single rfl i c

/-- x · b: the left operand is contracted along its second axis and the right along its first, so the element
    (p, j) is the sum over the contraction position k of x[p, k] · b[k, j]. -/
theorem matmul_x_b (x : FVec Ideal S2048x1024 .bf16) (b : FVec Ideal S1024x32 .bf16) (p : Fin 2048) (q : Fin 32) :
    (matmul (F := Ideal) dot_S2048x1024_S1024x32_S2048x32_1_0_0_1_n_n none x b
        (constant S2048x32 .f32 0x00000000#32)) (ix2 p q)
      = ∑ k : Fin 1024, x (ix2 p k) * b (ix2 k q) := by
  simp only [matmul]
  rw [Ideal.matmul_constant_zero_apply,
    ← Equiv.sum_comp (ValueIdx.contrEquiv1 dot_S2048x1024_S1024x32_S2048x32_1_0_0_1_n_n 1024 rfl rfl).symm]
  refine Finset.sum_congr rfl fun k _ => ?_
  have hk := ValueIdx.contrEquiv1_symm_val dot_S2048x1024_S1024x32_S2048x32_1_0_0_1_n_n 1024 rfl rfl k
  have el : dot_S2048x1024_S1024x32_S2048x32_1_0_0_1_n_n.lhsIdx (ix2 p q)
      ((ValueIdx.contrEquiv1 dot_S2048x1024_S1024x32_S2048x32_1_0_0_1_n_n 1024 rfl rfl).symm k) = ix2 p k :=
    funext fun a => Fin.ext (by
      match a with
      | ⟨0, _⟩ => exact proj_lhs_row _ _
      | ⟨1, _⟩ => exact (proj_lhs_contr _ _).trans hk)
  have er : dot_S2048x1024_S1024x32_S2048x32_1_0_0_1_n_n.rhsIdx (ix2 p q)
      ((ValueIdx.contrEquiv1 dot_S2048x1024_S1024x32_S2048x32_1_0_0_1_n_n 1024 rfl rfl).symm k) = ix2 k q :=
    funext fun a => Fin.ext (by
      match a with
      | ⟨0, _⟩ => exact (proj_rhs_contr _ _).trans hk
      | ⟨1, _⟩ => exact proj_rhs_col _ _)
  rw [el, er]

theorem corr_lhs_row (i : S2048x1024.Idx) (c : dot_S2048x32_S1024x32_S2048x1024_1_1_0_0_n_n.contr.Idx) :
    (dot_S2048x32_S1024x32_S2048x1024_1_1_0_0_n_n.lhsIdx i c 0).val = (i 0).val := by
  unfold DotDims.lhsIdx
  rw [dif_neg (show ¬(0 : Fin S2048x32.rank) ∈ dot_S2048x32_S1024x32_S2048x1024_1_1_0_0_n_n.lhsBatch by decide),
    dif_pos (show (0 : Fin S2048x32.rank) ∈ dot_S2048x32_S1024x32_S2048x1024_1_1_0_0_n_n.lhsNonContracting by decide)]
  rfl
theorem corr_lhs_contr (i : S2048x1024.Idx) (c : dot_S2048x32_S1024x32_S2048x1024_1_1_0_0_n_n.contr.Idx) :
    (dot_S2048x32_S1024x32_S2048x1024_1_1_0_0_n_n.lhsIdx i c 1).val = (c ⟨0, by decide⟩).val :=
  dot_S2048x32_S1024x32_S2048x1024_1_1_0_0_n_n.lhsIdx_val_of_single rfl i c
theorem corr_rhs_col (i : S2048x1024.Idx) (c : dot_S2048x32_S1024x32_S2048x1024_1_1_0_0_n_n.contr.Idx) :
    (dot_S2048x32_S1024x32_S2048x1024_1_1_0_0_n_n.rhsIdx i c 0).val = (i 1).val := by
  unfold DotDims.rhsIdx
  rw [dif_neg (show ¬(0 : Fin S1024x32.rank) ∈ dot_S2048x32_S1024x32_S2048x1024_1_1_0_0_n_n.rhsBatch by decide),
    dif_pos (show (0 : Fin S1024x32.rank) ∈ dot_S2048x32_S1024x32_S2048x1024_1_1_0_0_n_n.rhsNonContracting by decide)]
  rfl
theorem corr_rhs_contr (i : S2048x1024.Idx) (c : dot_S2048x32_S1024x32_S2048x1024_1_1_0_0_n_n.contr.Idx) :
    (dot_S2048x32_S1024x32_S2048x1024_1_1_0_0_n_n.rhsIdx i c 1).val = (c ⟨0, by decide⟩).val :=
  dot_S2048x32_S1024x32_S2048x1024_1_1_0_0_n_n.rhsIdx_val_of_single rfl i c

/-- xb · aᵀ: both operands are contracted along their second axis (the 32 rank positions), so the element (p, q) is
    the sum over j of xb[p, j] · a[q, j]. -/
theorem matmul_xb_aT (xb : FVec Ideal S2048x32 .bf16) (a : FVec Ideal S1024x32 .bf16) (p : Fin 2048) (q : Fin 1024) :
    (matmul (F := Ideal) dot_S2048x32_S1024x32_S2048x1024_1_1_0_0_n_n none xb a
        (constant S2048x1024 .f32 0x00000000#32)) (ix2 p q)
      = ∑ k : Fin 32, xb (ix2 p k) * a (ix2 q k) := by
  simp only [matmul]
  rw [Ideal.matmul_constant_zero_apply,
    ← Equiv.sum_comp (ValueIdx.contrEquiv1 dot_S2048x32_S1024x32_S2048x1024_1_1_0_0_n_n 32 rfl rfl).symm]
  refine Finset.sum_congr rfl fun k _ => ?_
  have hk := ValueIdx.contrEquiv1_symm_val dot_S2048x32_S1024x32_S2048x1024_1_1_0_0_n_n 32 rfl rfl k
  have el : dot_S2048x32_S1024x32_S2048x1024_1_1_0_0_n_n.lhsIdx (ix2 p q)
      ((ValueIdx.contrEquiv1 dot_S2048x32_S1024x32_S2048x1024_1_1_0_0_n_n 32 rfl rfl).symm k) = ix2 p k :=
    funext fun a => Fin.ext (by
      match a with
      | ⟨0, _⟩ => exact corr_lhs_row _ _
      | ⟨1, _⟩ => exact (corr_lhs_contr _ _).trans hk)
  have er : dot_S2048x32_S1024x32_S2048x1024_1_1_0_0_n_n.rhsIdx (ix2 p q)
      ((ValueIdx.contrEquiv1 dot_S2048x32_S1024x32_S2048x1024_1_1_0_0_n_n 32 rfl rfl).symm k) = ix2 q k :=
    funext fun a => Fin.ext (by
      match a with
      | ⟨0, _⟩ => exact corr_rhs_col _ _
      | ⟨1, _⟩ => exact (corr_rhs_contr _ _).trans hk)
  rw [el, er]

/-! ## The payloads at a coordinate pair -/

/-- The dense accumulator's initial value: the zero tile. -/
theorem pay1_apply (p : Fin 2048) (q : Fin 1024) : k0_pay1 (F := Ideal) (ix2 p q) = 0 := by
  unfold Gen.k0_pay1
  simp only [shapeCast_self]
  exact Ideal.ofBits_zero_f32

/-- The projection accumulator's initial value: the zero tile. -/
theorem pay2_apply (p : Fin 2048) (j : Fin 32) : k0_pay2 (F := Ideal) (ix2 p j) = 0 := by
  unfold Gen.k0_pay2
  simp only [shapeCast_self]
  exact Ideal.ofBits_zero_f32

/-- The dense step: the accumulator's element plus the block's contribution to the dense product. -/
theorem pay4_apply (x : Vec Ideal S2048x1024 .bf16) (w : Vec Ideal S1024x1024 .bf16) (acc : Vec Ideal S2048x1024 .f32)
    (p : Fin 2048) (q : Fin 1024) :
    k0_pay4 (F := Ideal) x w acc (ix2 p q) = acc (ix2 p q) + ∑ k : Fin 1024, x (ix2 p k) * w (ix2 q k) := by
  unfold Gen.k0_pay4 Gen.k0_pay3
  simp only [shapeCast_self]
  rw [addf_apply, matmul_x_wT]

/-- The projection step: the accumulator's element plus the block's contribution to the activations' projection on
    the low-rank factor's column j. -/
theorem pay5_apply (x : Vec Ideal S2048x1024 .bf16) (b : Vec Ideal S1024x32 .bf16) (xb : Vec Ideal S2048x32 .f32)
    (p : Fin 2048) (j : Fin 32) :
    k0_pay5 (F := Ideal) x b xb (ix2 p j) = xb (ix2 p j) + ∑ k : Fin 1024, x (ix2 p k) * b (ix2 k j) := by
  unfold Gen.k0_pay5 Gen.k0_pay3
  simp only [shapeCast_self]
  rw [addf_apply, matmul_x_b]

/-- The last step: the dense accumulator's element, plus the low-rank correction (the 32 projections of row p
    combined with the factor's row q; the literal 1 it is scaled by drops out), plus the bias' entry q, the bias
    block [1, 1024] being repeated along the rows. -/
theorem pay6_apply (xb : Vec Ideal S2048x32 .f32) (a : Vec Ideal S1024x32 .f32) (acc : Vec Ideal S2048x1024 .f32)
    (bias : Vec Ideal S1x1024 .f32) (p : Fin 2048) (q : Fin 1024) :
    k0_pay6 (F := Ideal) xb a acc bias (ix2 p q)
      = (acc (ix2 p q) + ∑ j : Fin 32, xb (ix2 p j) * a (ix2 q j)) + bias (ix2 (0 : Fin 1) q) := by
  unfold Gen.k0_pay6
  simp only [shapeCast_self]
  rw [addf_apply, addf_apply, mulf_apply, broadcast_apply, matmul_xb_aT,
    broadcastTo_apply bias _ (ix2 p q) (ix2 (0 : Fin 1) q)
      (fun c => match c with | ⟨0, _⟩ => rfl | ⟨1, _⟩ => rfl)]
  simp only [truncf_apply]
  rw [show (Scalar.ofBits .f32 0x3F800000#32 : Ideal .f32) = 1 from Ideal.ofBits_one_f32, mul_one]

end Cert.LoraLinear.Pay

end
-- ==== Proof.Blocks.lean ====
/-
  The pipeline's blocks read at an index. The grid is 4 × 4 × 4 with coordinates (gm, gn, gk); every window cuts its
  array into blocks of a fixed size, and the block a window holds at a grid point is the one whose block index the
  window's index map gives there. A block's entry at local coordinates y is the array's entry at the coordinates
  (block index on the axis) × (block size on the axis) + y, axis by axis.
-/
import proofs.«142443_j28853590294649_2_alg».proof.Proof.Gen.KernelIdeal.Frame
import Idealize.ShloMosaic.Lib.ValueIdx

set_option maxRecDepth 16384

noncomputable section

open Idealize.ShloMosaic Idealize.ShloMosaic.ValueIdx Idealize.ShloMosaic.TcCoe Idealize.SL.Sem

namespace Cert.LoraLinear.Blocks

open Cert.KernelIdeal Cert.KernelIdeal.Gen

variable {F : FTy → Type} [FloatOps F]
variable (m : (ℓ : Loc nD τ sig) → Buf (Elt F) ℓ)

/-- Each grid coordinate is below 4. -/
theorem coords_lt (t : Fin cfg0.N) :
    (grid0.coords t 0).val < 4 ∧ (grid0.coords t 1).val < 4 ∧ (grid0.coords t 2).val < 4 :=
  ⟨(grid0.coords t 0).isLt, (grid0.coords t 1).isLt, (grid0.coords t 2).isLt⟩

/-- The six index maps over the grid: which grid coordinate (or the constant 0) each axis of each window's block index is. -/
theorem index_facts : ∀ t : Fin cfg0.N,
    win0_0.index t (0 : Fin 2) = (grid0.coords t 0).val ∧ win0_0.index t (1 : Fin 2) = (grid0.coords t 2).val
    ∧ win0_1.index t (0 : Fin 2) = (grid0.coords t 1).val ∧ win0_1.index t (1 : Fin 2) = (grid0.coords t 2).val
    ∧ win0_2.index t (0 : Fin 2) = (grid0.coords t 2).val ∧ win0_2.index t (1 : Fin 2) = 0
    ∧ win0_3.index t (0 : Fin 2) = (grid0.coords t 1).val ∧ win0_3.index t (1 : Fin 2) = 0
    ∧ win0_4.index t (0 : Fin 2) = 0 ∧ win0_4.index t (1 : Fin 2) = (grid0.coords t 1).val
    ∧ win0_5.index t (0 : Fin 2) = (grid0.coords t 0).val ∧ win0_5.index t (1 : Fin 2) = (grid0.coords t 1).val :=
  (by decide +kernel : ∀ t : Fin grid0.N, _)

/-- Window 0 (the activations, [8192, 4096] in blocks [2048, 1024] at block (gm, gk)). -/
theorem iblk0_apply (c : Dev nD) (t : Fin cfg0.N) (p : Fin 2048) (k : Fin 1024) :
    (Gen.iblk m c 0 t : S2048x1024.Idx → Elt F .bf16) (ix2 p k)
      = (Gen.V m c main_v1 : S8192x4096.Idx → Elt F .bf16)
          (ix2 ⟨2048 * (grid0.coords t 0).val + p.val, by have := (coords_lt t).1; omega⟩
               ⟨1024 * (grid0.coords t 2).val + k.val, by have := (coords_lt t).2.2; omega⟩) := by
  obtain ⟨e00, e01, -⟩ := index_facts t
  unfold Gen.iblk
  rw [View.read_apply]
  show Gen.V m c main_v1 _ = Gen.V m c main_v1 _
  congr 1
  funext a
  apply Fin.ext
  match a with
  | ⟨0, _⟩ => show win0_0.index t 0 * 2048 + 1 * p.val = 2048 * (grid0.coords t 0).val + p.val; rw [e00]; omega
  | ⟨1, _⟩ => show win0_0.index t 1 * 1024 + 1 * k.val = 1024 * (grid0.coords t 2).val + k.val; rw [e01]; omega

/-- Window 1 (the weight, [4096, 4096] in blocks [1024, 1024] at block (gn, gk)). -/
theorem iblk1_apply (c : Dev nD) (t : Fin cfg0.N) (q : Fin 1024) (k : Fin 1024) :
    (Gen.iblk m c 1 t : S1024x1024.Idx → Elt F .bf16) (ix2 q k)
      = (Gen.V m c main_v2 : S4096x4096.Idx → Elt F .bf16)
          (ix2 ⟨1024 * (grid0.coords t 1).val + q.val, by have := (coords_lt t).2.1; omega⟩
               ⟨1024 * (grid0.coords t 2).val + k.val, by have := (coords_lt t).2.2; omega⟩) := by
  obtain ⟨-, -, e10, e11, -⟩ := index_facts t
  unfold Gen.iblk
  rw [View.read_apply]
  show Gen.V m c main_v2 _ = Gen.V m c main_v2 _
  congr 1
  funext a
  apply Fin.ext
  match a with
  | ⟨0, _⟩ => show win0_1.index t 0 * 1024 + 1 * q.val = 1024 * (grid0.coords t 1).val + q.val; rw [e10]; omega
  | ⟨1, _⟩ => show win0_1.index t 1 * 1024 + 1 * k.val = 1024 * (grid0.coords t 2).val + k.val; rw [e11]; omega

/-- Window 2 (the input-side low-rank factor, [4096, 32] in blocks [1024, 32] at block (gk, 0)). -/
theorem iblk2_apply (c : Dev nD) (t : Fin cfg0.N) (k : Fin 1024) (j : Fin 32) :
    (Gen.iblk m c 2 t : S1024x32.Idx → Elt F .bf16) (ix2 k j)
      = (Gen.V m c main_v3 : S4096x32.Idx → Elt F .bf16)
          (ix2 ⟨1024 * (grid0.coords t 2).val + k.val, by have := (coords_lt t).2.2; omega⟩ j) := by
  obtain ⟨-, -, -, -, e20, e21, -⟩ := index_facts t
  unfold Gen.iblk
  rw [View.read_apply]
  show Gen.V m c main_v3 _ = Gen.V m c main_v3 _
  congr 1
  funext a
  apply Fin.ext
  match a with
  | ⟨0, _⟩ => show win0_2.index t 0 * 1024 + 1 * k.val = 1024 * (grid0.coords t 2).val + k.val; rw [e20]; omega
  | ⟨1, _⟩ => show win0_2.index t 1 * 32 + 1 * j.val = j.val; rw [e21]; omega

/-- Window 3 (the output-side low-rank factor, [4096, 32] in blocks [1024, 32] at block (gn, 0)). -/
theorem iblk3_apply (c : Dev nD) (t : Fin cfg0.N) (q : Fin 1024) (j : Fin 32) :
    (Gen.iblk m c 3 t : S1024x32.Idx → Elt F .f32) (ix2 q j)
      = (Gen.V m c main_arg3 : S4096x32.Idx → Elt F .f32)
          (ix2 ⟨1024 * (grid0.coords t 1).val + q.val, by have := (coords_lt t).2.1; omega⟩ j) := by
  obtain ⟨-, -, -, -, -, -, e30, e31, -⟩ := index_facts t
  unfold Gen.iblk
  rw [View.read_apply]
  show Gen.V m c main_arg3 _ = Gen.V m c main_arg3 _
  congr 1
  funext a
  apply Fin.ext
  match a with
  | ⟨0, _⟩ => show win0_3.index t 0 * 1024 + 1 * q.val = 1024 * (grid0.coords t 1).val + q.val; rw [e30]; omega
  | ⟨1, _⟩ => show win0_3.index t 1 * 32 + 1 * j.val = j.val; rw [e31]; omega

/-- Window 4 (the bias as a row, [1, 4096] in blocks [1, 1024] at block (0, gn)). -/
theorem iblk4_apply (c : Dev nD) (t : Fin cfg0.N) (q : Fin 1024) :
    (Gen.iblk m c 4 t : S1x1024.Idx → Elt F .f32) (ix2 (0 : Fin 1) q)
      = (Gen.V m c main_v4 : S1x4096.Idx → Elt F .f32)
          (ix2 (0 : Fin 1) ⟨1024 * (grid0.coords t 1).val + q.val, by have := (coords_lt t).2.1; omega⟩) := by
  obtain ⟨-, -, -, -, -, -, -, -, e40, e41, -⟩ := index_facts t
  unfold Gen.iblk
  rw [View.read_apply]
  show Gen.V m c main_v4 _ = Gen.V m c main_v4 _
  congr 1
  funext a
  apply Fin.ext
  match a with
  | ⟨0, _⟩ => show win0_4.index t 0 * 1 + 1 * (0 : Fin 1).val = (0 : Fin 1).val; rw [e40]; rfl
  | ⟨1, _⟩ => show win0_4.index t 1 * 1024 + 1 * q.val = 1024 * (grid0.coords t 1).val + q.val; rw [e41]; omega

/-- Window 5 (the result, [8192, 4096] in blocks [2048, 1024] at block (gm, gn)): where an entry of the block lies in
    the array. -/
theorem out5_emb (t : Fin cfg0.N) (p : Fin 2048) (q : Fin 1024) :
    (((cfg0.win 5).blk t).view.emb (ix2 p q : S2048x1024.Idx) : S8192x4096.Idx)
      = ix2 ⟨2048 * (grid0.coords t 0).val + p.val, by have := (coords_lt t).1; omega⟩
            ⟨1024 * (grid0.coords t 1).val + q.val, by have := (coords_lt t).2.1; omega⟩ := by
  obtain ⟨-, -, -, -, -, -, -, -, -, -, e50, e51⟩ := index_facts t
  funext a
  apply Fin.ext
  match a with
  | ⟨0, _⟩ => show win0_5.index t 0 * 2048 + 1 * p.val = 2048 * (grid0.coords t 0).val + p.val; rw [e50]; omega
  | ⟨1, _⟩ => show win0_5.index t 1 * 1024 + 1 * q.val = 1024 * (grid0.coords t 1).val + q.val; rw [e51]; omega

end Cert.LoraLinear.Blocks

end
-- ==== Proof.TileValue.lean ====
/-
  The finished output tile read at one element.

  Point n of the 4 × 4 × 4 grid is (row block, output tile, reduction block) = (n / 16, n / 4 % 4, n % 4). The dense
  accumulator is reset at the first reduction block of a tile and gathers one product per reduction block, so at the
  tile's last reduction block it holds four of them; the projection accumulator gathers its four products during the
  row block's first output tile and is left alone during the other three. Read at an element, the four products
  over the blocks' 1024 contraction positions are the one sum over all 4096 positions.
-/
import proofs.«142443_j28853590294649_2_alg».proof.Proof.KI.State
import proofs.«142443_j28853590294649_2_alg».proof.Proof.Payload
import proofs.«142443_j28853590294649_2_alg».proof.Proof.Blocks
import proofs.«142443_j28853590294649_2_alg».proof.Proof.KernelForm
import Idealize.ShloMosaic.Lib.ValueIdx
import Mathlib.Algebra.BigOperators.Fin

set_option maxRecDepth 16384

noncomputable section

open Idealize.ShloMosaic Idealize.ShloMosaic.ValueIdx Idealize.ShloMosaic.TcCoe Idealize.SL.Sem
open Cert.KernelIdeal Cert.KernelIdeal.Gen Cert.KernelIdeal.Body
open scoped BigOperators

namespace Cert.LoraLinear.Tile

/-! ## The grid points stepped through, and their coordinates -/

/-- The grid point `d` steps before `t` (truncated at the first point). -/
abbrev back (t : Fin cfg0.N) (d : ℕ) : Fin cfg0.N := ⟨t.val - d, Nat.lt_of_le_of_lt (Nat.sub_le _ _) t.isLt⟩

/-- The three coordinates of grid point `t` in closed form: row block slowest, reduction block fastest. -/
theorem coords_closed : ∀ t : Fin cfg0.N,
    (grid0.coords t 0).val = t.val / 16 ∧ (grid0.coords t 1).val = t.val / 4 % 4 ∧ (grid0.coords t 2).val = t.val % 4 :=
  (by decide +kernel : ∀ t : Fin grid0.N, _)

/-- There are 64 grid points. -/
theorem N_eq : cfg0.N = 64 := by decide

/-! ## Four consecutive blocks of 1024 make up a sum over 4096 positions -/

theorem sum_four_blocks {M : Type*} [AddCommMonoid M] (f : Fin 4096 → M) :
    ∑ i : Fin 4096, f i
      = (((∑ k : Fin 1024, f ⟨1024 * 0 + k.val, by omega⟩) + ∑ k : Fin 1024, f ⟨1024 * 1 + k.val, by omega⟩)
          + ∑ k : Fin 1024, f ⟨1024 * 2 + k.val, by omega⟩) + ∑ k : Fin 1024, f ⟨1024 * 3 + k.val, by omega⟩ := by
  have e1 := Fin.sum_univ_add (a := 3072) (b := 1024) f
  have e2 := Fin.sum_univ_add (a := 2048) (b := 1024) (fun i : Fin 3072 => f (Fin.castAdd 1024 i))
  have e3 := Fin.sum_univ_add (a := 1024) (b := 1024) (fun i : Fin 2048 => f (Fin.castAdd 1024 (Fin.castAdd 1024 i)))
  rw [e1, e2, e3]
  refine congrArg₂ (· + ·) (congrArg₂ (· + ·) (congrArg₂ (· + ·) ?_ ?_) ?_) ?_ <;>
    exact Finset.sum_congr rfl fun k _ => congrArg f (Fin.ext (by
      simp only [Fin.coe_castAdd, Fin.coe_natAdd] <;> omega))

/-! ## The two accumulators unrolled over a tile's four reduction blocks (no arithmetic, any float instance) -/

section Structure
variable {F : FTy → Type} [FloatOps F]
variable (m : (ℓ : Loc nD τ sig) → Buf (Elt F) ℓ) (c : Dev nD)

/-- Away from a tile's first reduction block the dense accumulator is the previous point's plus this point's product. -/
theorem acc_step (t u : Fin cfg0.N) (hu : u.val + 1 = t.val) (h : t.val % 4 ≠ 0) :
    accAt m c t.val t.isLt = k0_pay4 (iblk m c 0 t) (iblk m c 1 t) (accAt m c u.val u.isLt) := by
  obtain ⟨n, hn⟩ := u
  obtain ⟨t', ht'⟩ := t
  simp only at hu
  subst hu
  show k0_pay4 _ _ (if (n + 1) % 4 = 0 then k0_pay1 else accAt m c n _) = _
  rw [if_neg h]

/-- At a tile's first reduction block it starts from the zero tile. -/
theorem acc_base (t : Fin cfg0.N) (h : t.val % 4 = 0) :
    accAt m c t.val t.isLt = k0_pay4 (iblk m c 0 t) (iblk m c 1 t) k0_pay1 := by
  rw [accAt_eq m c t, if_pos h]

/-- At a tile's last reduction block the dense accumulator is four products deep over the zero tile. -/
theorem acc_unroll (t : Fin cfg0.N) (ht : t.val % 4 = 3) :
    accAt m c t.val t.isLt
      = k0_pay4 (iblk m c 0 t) (iblk m c 1 t)
          (k0_pay4 (iblk m c 0 (back t 1)) (iblk m c 1 (back t 1))
            (k0_pay4 (iblk m c 0 (back t 2)) (iblk m c 1 (back t 2))
              (k0_pay4 (iblk m c 0 (back t 3)) (iblk m c 1 (back t 3)) k0_pay1))) := by
  rw [acc_step m c t (back t 1) (by show t.val - 1 + 1 = t.val; omega) (by omega),
    acc_step m c (back t 1) (back t 2) (by show t.val - 2 + 1 = t.val - 1; omega) (by show (t.val - 1) % 4 ≠ 0; omega),
    acc_step m c (back t 2) (back t 3) (by show t.val - 3 + 1 = t.val - 2; omega) (by show (t.val - 2) % 4 ≠ 0; omega),
    acc_base m c (back t 3) (by show (t.val - 3) % 4 = 0; omega)]

/-- During a row block's first output tile, away from its first point, the projection accumulator is the previous
    point's plus this point's product. -/
theorem xb_step (t u : Fin cfg0.N) (hu : u.val + 1 = t.val) (h : t.val % 16 < 4) (h0 : t.val % 16 ≠ 0) :
    xbAt m c t.val t.isLt = k0_pay5 (iblk m c 0 t) (iblk m c 2 t) (xbAt m c u.val u.isLt) := by
  obtain ⟨n, hn⟩ := u
  obtain ⟨t', ht'⟩ := t
  simp only at hu
  subst hu
  show (if (n + 1) % 16 < 4 then k0_pay5 _ _ (if (n + 1) % 16 = 0 then k0_pay2 else xbAt m c n _) else xbAt m c n _) = _
  rw [if_pos h, if_neg h0]

/-- At a row block's first point it starts from the zero tile. -/
theorem xb_base (t : Fin cfg0.N) (h : t.val % 16 = 0) :
    xbAt m c t.val t.isLt = k0_pay5 (iblk m c 0 t) (iblk m c 2 t) k0_pay2 := by
  rw [xbAt_eq m c t, if_pos (by omega), if_pos h]

/-- The projection accumulator does not depend on how its point's bound is proved, nor on how the point is written. -/
theorem xb_congr {n n' : ℕ} (e : n = n') (hn : n < cfg0.N) (hn' : n' < cfg0.N) : xbAt m c n hn = xbAt m c n' hn' := by
  subst e; rfl

/-- After a row block's first output tile the projection accumulator is left as that tile's last point left it:
    `d` points after a point `s` with `s % 16 = 3`, for `d` up to 12. -/
theorem xb_keep_add (s : ℕ) (hs : s % 16 = 3) :
    ∀ d : ℕ, d ≤ 12 → ∀ (h : s + d < cfg0.N) (h' : s < cfg0.N), xbAt m c (s + d) h = xbAt m c s h'
  | 0, _, h, h' => rfl
  | d + 1, hd, h, h' => by
    have step : xbAt m c (s + (d + 1)) h = xbAt m c (s + d) (by omega) := by
      show (if (s + d + 1) % 16 < 4 then _ else xbAt m c (s + d) _) = _
      rw [if_neg (by omega)]
    exact step.trans (xb_keep_add s hs d (by omega) _ h')

/-- So at every point of a row block from the first tile's last on, it is what that point left. -/
theorem xb_keep (t : Fin cfg0.N) (ht : 3 ≤ t.val % 16) :
    xbAt m c t.val t.isLt = xbAt m c (back t (t.val % 16 - 3)).val (back t (t.val % 16 - 3)).isLt := by
  have hN := N_eq
  refine (xb_congr m c (show t.val = (t.val - (t.val % 16 - 3)) + (t.val % 16 - 3) by omega) t.isLt (by omega)).trans ?_
  exact xb_keep_add m c (t.val - (t.val % 16 - 3)) (by omega) (t.val % 16 - 3) (by omega) _ _

/-- At the first tile's last point the projection accumulator is four products deep over the zero tile. -/
theorem xb_unroll (s : Fin cfg0.N) (hs : s.val % 16 = 3) :
    xbAt m c s.val s.isLt
      = k0_pay5 (iblk m c 0 s) (iblk m c 2 s)
          (k0_pay5 (iblk m c 0 (back s 1)) (iblk m c 2 (back s 1))
            (k0_pay5 (iblk m c 0 (back s 2)) (iblk m c 2 (back s 2))
              (k0_pay5 (iblk m c 0 (back s 3)) (iblk m c 2 (back s 3)) k0_pay2))) := by
  rw [xb_step m c s (back s 1) (by show s.val - 1 + 1 = s.val; omega) (by omega) (by omega),
    xb_step m c (back s 1) (back s 2) (by show s.val - 2 + 1 = s.val - 1; omega)
      (by show (s.val - 1) % 16 < 4; omega) (by show (s.val - 1) % 16 ≠ 0; omega),
    xb_step m c (back s 2) (back s 3) (by show s.val - 3 + 1 = s.val - 2; omega)
      (by show (s.val - 2) % 16 < 4; omega) (by show (s.val - 2) % 16 ≠ 0; omega),
    xb_base m c (back s 3) (by show (s.val - 3) % 16 = 0; omega)]

end Structure

/-! ## At the ideal values: the blocks of the stepped-through points, their coordinates supplied -/

section AtIdeal
variable (m : (ℓ : Loc nD τ sig) → Buf (Elt Ideal) ℓ) (c : Dev nD)
open Cert.LoraLinear.KernelValue

/-- The row of the whole activations' array that row `p` of point `t`'s block is. -/
abbrev rowOf (t : Fin cfg0.N) (p : Fin 2048) : Fin 8192 :=
  ⟨2048 * (grid0.coords t 0).val + p.val, by have := (Blocks.coords_lt t).1; omega⟩
/-- The output feature that column `q` of point `t`'s tile is. -/
abbrev colOf (t : Fin cfg0.N) (q : Fin 1024) : Fin 4096 :=
  ⟨1024 * (grid0.coords t 1).val + q.val, by have := (Blocks.coords_lt t).2.1; omega⟩

/-- The region's blocks at a grid point, typed as the body's loads are: the activations', the weight's, the
    input-side factor's, the output-side factor's and the bias'. -/
abbrev xblk (u : Fin cfg0.N) : Vec Ideal S2048x1024 .bf16 := Gen.iblk m c 0 u
abbrev wblk (u : Fin cfg0.N) : Vec Ideal S1024x1024 .bf16 := Gen.iblk m c 1 u
abbrev bblk (u : Fin cfg0.N) : Vec Ideal S1024x32 .bf16 := Gen.iblk m c 2 u
abbrev ablk (u : Fin cfg0.N) : Vec Ideal S1024x32 .f32 := Gen.iblk m c 3 u
abbrev biasblk (u : Fin cfg0.N) : Vec Ideal S1x1024 .f32 := Gen.iblk m c 4 u

/-- The coordinates of the point `d` steps before `t`. -/
theorem coords_back (t : Fin cfg0.N) (d : ℕ) :
    (grid0.coords (back t d) 0).val = (t.val - d) / 16 ∧ (grid0.coords (back t d) 1).val = (t.val - d) / 4 % 4
      ∧ (grid0.coords (back t d) 2).val = (t.val - d) % 4 := coords_closed (back t d)
/-- The coordinates of the point `d` steps before the point `e` steps before `t`. -/
theorem coords_back2 (t : Fin cfg0.N) (e d : ℕ) :
    (grid0.coords (back (back t e) d) 0).val = (t.val - e - d) / 16
      ∧ (grid0.coords (back (back t e) d) 1).val = (t.val - e - d) / 4 % 4
      ∧ (grid0.coords (back (back t e) d) 2).val = (t.val - e - d) % 4 := coords_closed (back (back t e) d)

/-- The activations' block at a point whose row block is `g0` and whose reduction block is `g2`. -/
theorem iblk0_at (u : Fin cfg0.N) (g0 g2 : ℕ) (h0 : (grid0.coords u 0).val = g0) (h2 : (grid0.coords u 2).val = g2)
    (hr : g0 < 4) (hk : g2 < 4) (p : Fin 2048) (k : Fin 1024) :
    xblk m c u (ix2 p k) = Xf m c (ix2 ⟨2048 * g0 + p.val, by omega⟩ ⟨1024 * g2 + k.val, by omega⟩) := by
  subst h0 h2
  exact Blocks.iblk0_apply m c u p k

/-- The weight's block at a point whose output tile is `g1` and whose reduction block is `g2`. -/
theorem iblk1_at (u : Fin cfg0.N) (g1 g2 : ℕ) (h1 : (grid0.coords u 1).val = g1) (h2 : (grid0.coords u 2).val = g2)
    (ho : g1 < 4) (hk : g2 < 4) (q : Fin 1024) (k : Fin 1024) :
    wblk m c u (ix2 q k) = Wv m c (ix2 ⟨1024 * g1 + q.val, by omega⟩ ⟨1024 * g2 + k.val, by omega⟩) := by
  subst h1 h2
  exact Blocks.iblk1_apply m c u q k

/-- The input-side factor's block at a point whose reduction block is `g2`. -/
theorem iblk2_at (u : Fin cfg0.N) (g2 : ℕ) (h2 : (grid0.coords u 2).val = g2) (hk : g2 < 4) (k : Fin 1024) (j : Fin 32) :
    bblk m c u (ix2 k j) = Bv m c (ix2 ⟨1024 * g2 + k.val, by omega⟩ j) := by
  subst h2
  exact Blocks.iblk2_apply m c u k j

/-! ## The two accumulators at an element, at a tile's last reduction block -/

/-- One term of the dense product for the tile's element (p, q): position `i` of the activations' row times
    position `i` of the weight's row. -/
abbrev denseTerm (t : Fin cfg0.N) (p : Fin 2048) (q : Fin 1024) (i : Fin 4096) : EReal :=
  Xf m c (ix2 (rowOf t p) i) * Wv m c (ix2 (colOf t q) i)

/-- One term of the projection of the activations' row on the input-side factor's column `j`. -/
abbrev projTerm (t : Fin cfg0.N) (p : Fin 2048) (j : Fin 32) (i : Fin 4096) : EReal :=
  Xf m c (ix2 (rowOf t p) i) * Bv m c (ix2 i j)

/-- The product a point `u` of `t`'s tile contributes, its reduction block being `b`: the terms of block `b`. -/
theorem dense_block (t u : Fin cfg0.N) (b : ℕ) (hb : b < 4)
    (h0 : (grid0.coords u 0).val = (grid0.coords t 0).val) (h1 : (grid0.coords u 1).val = (grid0.coords t 1).val)
    (h2 : (grid0.coords u 2).val = b) (p : Fin 2048) (q : Fin 1024) :
    ∑ k : Fin 1024, xblk m c u (ix2 p k) * wblk m c u (ix2 q k)
      = ∑ k : Fin 1024, denseTerm m c t p q ⟨1024 * b + k.val, by omega⟩ :=
  Finset.sum_congr rfl fun k _ => by
    rw [iblk0_at m c u _ b h0 h2 (Blocks.coords_lt t).1 hb p k, iblk1_at m c u _ b h1 h2 (Blocks.coords_lt t).2.1 hb q k]
    try rfl

/-- The product a point `u` of `t`'s row block contributes to the projection, its reduction block being `b`. -/
theorem proj_block (t u : Fin cfg0.N) (b : ℕ) (hb : b < 4)
    (h0 : (grid0.coords u 0).val = (grid0.coords t 0).val) (h2 : (grid0.coords u 2).val = b) (p : Fin 2048) (j : Fin 32) :
    ∑ k : Fin 1024, xblk m c u (ix2 p k) * bblk m c u (ix2 k j)
      = ∑ k : Fin 1024, projTerm m c t p j ⟨1024 * b + k.val, by omega⟩ :=
  Finset.sum_congr rfl fun k _ => by
    rw [iblk0_at m c u _ b h0 h2 (Blocks.coords_lt t).1 hb p k, iblk2_at m c u b h2 hb k j]
    try rfl

/-- The dense accumulator's element at a tile's last reduction block: the whole dense product. -/
theorem acc_apply (t : Fin cfg0.N) (ht : t.val % 4 = 3) (p : Fin 2048) (q : Fin 1024) :
    accAt m c t.val t.isLt (ix2 p q) = ∑ i : Fin 4096, denseTerm m c t p q i := by
  have hN := N_eq
  have hlt := t.isLt
  obtain ⟨a0, a1, a2⟩ := coords_closed t
  obtain ⟨b0, b1, b2⟩ := coords_back t 1
  obtain ⟨c0, c1, c2⟩ := coords_back t 2
  obtain ⟨d0, d1, d2⟩ := coords_back t 3
  rw [acc_unroll m c t ht, Pay.pay4_apply, Pay.pay4_apply, Pay.pay4_apply, Pay.pay4_apply, Pay.pay1_apply, zero_add,
    dense_block m c t (back t 3) 0 (by omega) (by omega) (by omega) (by omega) p q,
    dense_block m c t (back t 2) 1 (by omega) (by omega) (by omega) (by omega) p q,
    dense_block m c t (back t 1) 2 (by omega) (by omega) (by omega) (by omega) p q,
    dense_block m c t t 3 (by omega) rfl rfl (by omega) p q]
  exact (sum_four_blocks _).symm

/-- The projection accumulator's element at a tile's last reduction block, whichever of the row block's four tiles it
    is: the whole projection, gathered during the first tile and kept since. -/
theorem xb_apply (t : Fin cfg0.N) (ht : t.val % 4 = 3) (p : Fin 2048) (j : Fin 32) :
    xbAt m c t.val t.isLt (ix2 p j) = ∑ i : Fin 4096, projTerm m c t p j i := by
  have hN := N_eq
  have hlt := t.isLt
  obtain ⟨a0, a1, a2⟩ := coords_closed t
  obtain ⟨b0, b1, b2⟩ := coords_back t (t.val % 16 - 3)
  obtain ⟨c0, c1, c2⟩ := coords_back2 t (t.val % 16 - 3) 1
  obtain ⟨d0, d1, d2⟩ := coords_back2 t (t.val % 16 - 3) 2
  obtain ⟨e0, e1, e2⟩ := coords_back2 t (t.val % 16 - 3) 3
  rw [xb_keep m c t (by omega),
    xb_unroll m c (back t (t.val % 16 - 3)) (by show (t.val - (t.val % 16 - 3)) % 16 = 3; omega),
    Pay.pay5_apply, Pay.pay5_apply, Pay.pay5_apply, Pay.pay5_apply, Pay.pay2_apply, zero_add,
    proj_block m c t (back (back t (t.val % 16 - 3)) 3) 0 (by omega) (by omega) (by omega) p j,
    proj_block m c t (back (back t (t.val % 16 - 3)) 2) 1 (by omega) (by omega) (by omega) p j,
    proj_block m c t (back (back t (t.val % 16 - 3)) 1) 2 (by omega) (by omega) (by omega) p j,
    proj_block m c t (back t (t.val % 16 - 3)) 3 (by omega) (by omega) (by omega) p j]
  exact (sum_four_blocks _).symm

/-! ## The finished tile at an element -/

/-- At a tile's last reduction block the stored tile's element (p, q) is, over the arrays the region reads, the dense
    product of the activations' row with the weight's row, plus the row's 32 projections combined with the
    output-side factor's row, plus the bias' entry: the row and the output feature being those of the whole arrays. -/
theorem outAt_apply (t : Fin cfg0.N) (ht : t.val % 4 = 3) (p : Fin 2048) (q : Fin 1024) :
    outAt m c t.val t.isLt (ix2 p q)
      = ((∑ i : Fin 4096, Xf m c (ix2 (rowOf t p) i) * Wv m c (ix2 (colOf t q) i))
          + (∑ j : Fin 32, (∑ i : Fin 4096, Xf m c (ix2 (rowOf t p) i) * Bv m c (ix2 i j)) * Av m c (ix2 (colOf t q) j)))
        + bv m c (ix2 (0 : Fin 1) (colOf t q)) := by
  have hx : ∀ j : Fin 32, xbAt m c t.val t.isLt (ix2 p j) * ablk m c t (ix2 q j)
      = (∑ i : Fin 4096, projTerm m c t p j i) * Av m c (ix2 (colOf t q) j) := fun j => by
    rw [xb_apply m c t ht p j, show ablk m c t (ix2 q j) = Av m c (ix2 (colOf t q) j) from Blocks.iblk3_apply m c t q j]
  have hb : biasblk m c t (ix2 (0 : Fin 1) q) = bv m c (ix2 (0 : Fin 1) (colOf t q)) := Blocks.iblk4_apply m c t q
  show k0_pay6 (xbAt m c t.val t.isLt) (ablk m c t) (accAt m c t.val t.isLt) (biasblk m c t) (ix2 p q) = _
  rw [Pay.pay6_apply, acc_apply m c t ht p q, Finset.sum_congr rfl (fun j _ => hx j), hb]

/-- The same against the closed form of the region's result. -/
theorem outAt_tileForm (t : Fin cfg0.N) (ht : t.val % 4 = 3) (p : Fin 2048) (q : Fin 1024) :
    outAt m c t.val t.isLt (ix2 p q) = tileForm m c (rowOf t p) (colOf t q) :=
  (outAt_apply m c t ht p q).trans rfl

end AtIdeal

end Cert.LoraLinear.Tile

end
-- ==== Proof.FinalArray.lean ====
/-
  From the written-back tiles to the whole result matrix.

  The result [8192, 4096] is tiled 4 × 4 by blocks [2048, 1024]. The grid's 64 points run over (row block, output
  tile, reduction block); a tile is written back once, at its last reduction block (the points congruent to 3 modulo
  4), into block (row block, output tile) of the array. If the tile stored there is, entry by entry, the block of ONE
  matrix Y2 — the dense product plus the low-rank correction plus the bias, over the arrays as the region finds them —
  then, the sixteen written-back blocks covering the array, the array ends holding Y2.
-/
import proofs.«142443_j28853590294649_2_alg».proof.Proof.KI.Frame
import proofs.«142443_j28853590294649_2_alg».proof.Proof.Blocks
import Idealize.ShloMosaic.Lib.Pipeline.Value
import Idealize.ShloMosaic.Lib.ValueIdx

set_option maxRecDepth 16384

noncomputable section

open Cert.KernelIdeal Cert.KernelIdeal.Gen
open Idealize.ShloMosaic Idealize.ShloMosaic.TcCoe Idealize.ShloMosaic.ValueIdx Idealize.SL.Sem
open scoped BigOperators

namespace Cert.LoraLinear.Final

/-! ## The result matrix -/

section Matrix

variable (m : (ℓ : Loc nD τ sig) → Buf (Elt Ideal) ℓ) (c : Dev nD)

/-- The activations the region finds, as a matrix of extended reals. -/
abbrev Xf : S8192x4096.Idx → EReal := Gen.V m c main_v1
/-- The weight the region finds. -/
abbrev Wv : S4096x4096.Idx → EReal := Gen.V m c main_v2
/-- The second low-rank factor the region finds. -/
abbrev Bv : S4096x32.Idx → EReal := Gen.V m c main_v3
/-- The first low-rank factor the region finds. -/
abbrev Av : S4096x32.Idx → EReal := Gen.V m c main_arg3
/-- The bias row the region finds. -/
abbrev bv : S1x4096.Idx → EReal := Gen.V m c main_v4

/-- Entry (r, o) of the result matrix: row r of the activations against row o of the weight, plus the row's 32
    projections on the second factor's columns combined with row o of the first factor, plus the bias at o. -/
def Y2at (r : Fin 8192) (o : Fin 4096) : EReal :=
  ((∑ i : Fin 4096, Xf m c (ix2 r i) * Wv m c (ix2 o i))
    + (∑ j : Fin 32, (∑ i : Fin 4096, Xf m c (ix2 r i) * Bv m c (ix2 i j)) * Av m c (ix2 o j)))
  + bv m c (ix2 (0 : Fin 1) o)

/-- The result matrix. -/
def Y2 : S8192x4096.Idx → EReal := fun i => Y2at m c (i 0) (i 1)

theorem Y2_ix2 (r : Fin 8192) (o : Fin 4096) : Y2 m c (ix2 r o) = Y2at m c r o := rfl

end Matrix

/-! ## The written-back blocks cover the array -/

section Cover

/-- Every block (a, b) of the 4 × 4 tiling of the result is the block of some grid point that writes back. -/
theorem onto5 : ∀ (a b : Fin 4), ∃ t : Fin cfg0.N, t.val % 4 = 3
    ∧ win0_5.index t (0 : Fin 2) = a.val ∧ win0_5.index t (1 : Fin 2) = b.val :=
  (by decide +kernel : ∀ (a b : Fin 4), ∃ t : Fin grid0.N, t.val % 4 = 3
    ∧ win0_5.index t (0 : Fin 2) = a.val ∧ win0_5.index t (1 : Fin 2) = b.val)

/-- An index of the result array is in point t's block iff each coordinate is in the block's range on its axis. -/
theorem mem_blk5 (t : Fin cfg0.N) (i : S8192x4096.Idx) :
    i ∈ ((cfg0.win 5).blk t).view.set ↔ ∀ a : Fin 2, win0_5.index t a * S2048x1024.size a ≤ (i a).val
      ∧ (i a).val < win0_5.index t a * S2048x1024.size a + S2048x1024.size a := by
  show i ∈ ((View.whole main_v5).slice (win0_5.rect t)).set ↔ _
  rw [View.set_slice_whole, Rect.mem_set_unit]
  exact Iff.rfl

/-- Every index (r, o) of the result array lies in the block of a point that writes back: the point of row block
    r / 2048 and output tile o / 1024 at its last reduction block. -/
theorem cover5 (i : S8192x4096.Idx) :
    ∃ t : Fin cfg0.N, (cfg0.win 5).flush t = true ∧ i ∈ ((cfg0.win 5).blk t).view.set := by
  have hi0 : (i 0).val < 8192 := (i 0).isLt
  have hi1 : (i 1).val < 4096 := (i 1).isLt
  obtain ⟨t, ht, q0, q1⟩ := onto5 ⟨(i 0).val / 2048, by omega⟩ ⟨(i 1).val / 1024, by omega⟩
  have q0' : win0_5.index t (0 : Fin 2) = (i 0).val / 2048 := q0
  have q1' : win0_5.index t (1 : Fin 2) = (i 1).val / 1024 := q1
  refine ⟨t, (flush0_5 t).mpr ht, ?_⟩
  rw [mem_blk5]
  intro a
  match a with
  | ⟨0, _⟩ =>
    show win0_5.index t (0 : Fin 2) * 2048 ≤ (i 0).val ∧ (i 0).val < win0_5.index t (0 : Fin 2) * 2048 + 2048
    omega
  | ⟨1, _⟩ =>
    show win0_5.index t (1 : Fin 2) * 1024 ≤ (i 1).val ∧ (i 1).val < win0_5.index t (1 : Fin 2) * 1024 + 1024
    omega

end Cover

/-! ## The array after the region -/

section Final

variable (m : (ℓ : Loc nD τ sig) → Buf (Elt Ideal) ℓ) (c : Dev nD)

/-- Block t of the result matrix read at its local (p, q): the matrix at row 2048·(row block) + p, column
    1024·(output tile) + q. -/
theorem read5_apply (t : Fin cfg0.N) (p : Fin 2048) (q : Fin 1024) :
    (((cfg0.win 5).blk t).view.read (Elt Ideal) (Y2 m c) : S2048x1024.Idx → EReal) (ix2 p q)
      = Y2at m c ⟨2048 * (grid0.coords t 0).val + p.val, by have := (Blocks.coords_lt t).1; omega⟩
          ⟨1024 * (grid0.coords t 1).val + q.val, by have := (Blocks.coords_lt t).2.1; omega⟩ := by
  rw [View.read_apply]
  show Y2 m c (((cfg0.win 5).blk t).view.emb (ix2 p q : S2048x1024.Idx)) = _
  rw [Blocks.out5_emb t p q]
  rfl

/-- For ANY proof data whose tile after the body at point t is the tile the body computes there: if at every
    writing-back point that tile is, entry by entry, the result matrix's block, the result array ends holding the
    matrix (every flushed block is a block of the one matrix, and the flushed blocks cover the array). -/
theorem final5_of (dat : Pipeline.Dat τ (Elt Ideal) Unit ℕ (UR sig nD τ) ℕ cfg0 c)
    (hafter : ∀ t, dat.after 5 t = Body.outAt m c t.val t.isLt)
    (htile : ∀ (t : Fin cfg0.N) (ht : t.val % 4 = 3) (p : Fin 2048) (q : Fin 1024),
      (Body.outAt m c t.val t.isLt : S2048x1024.Idx → EReal) (ix2 p q)
        = Y2at m c ⟨2048 * (grid0.coords t 0).val + p.val, by have := (Blocks.coords_lt t).1; omega⟩
          ⟨1024 * (grid0.coords t 1).val + q.val, by have := (Blocks.coords_lt t).2.1; omega⟩) :
    @Eq (S8192x4096.Idx → EReal) (dat.arrAt 5 cfg0.N) (Y2 m c) := by
  refine dat.arrAt_eq_of_cover 5 (Y2 m c) (fun t hf => ?_) cover5
  have ht : t.val % 4 = 3 := (flush0_5 t).mp hf
  show (cfg0.win 5).cut (grid0.coords t) (dat.after 5 t) = _
  rw [hafter]
  funext j
  obtain ⟨p, q, rfl⟩ : ∃ (p : Fin 2048) (q : Fin 1024), j = ix2 p q :=
    ⟨j 0, j 1, eq_ix2 (n0 := 2048) (n1 := 1024) j⟩
  exact (htile t ht p q).trans (read5_apply m c t p q).symm

/-- The result array after the region, for the kernel's proof data, given the finished tile's closed form. -/
theorem final5_of_tile
    (htile : ∀ (t : Fin cfg0.N) (ht : t.val % 4 = 3) (p : Fin 2048) (q : Fin 1024),
      (Body.outAt m c t.val t.isLt : S2048x1024.Idx → EReal) (ix2 p q)
        = Y2at m c ⟨2048 * (grid0.coords t 0).val + p.val, by have := (Blocks.coords_lt t).1; omega⟩
          ⟨1024 * (grid0.coords t 1).val + q.val, by have := (Blocks.coords_lt t).2.1; omega⟩) :
    @Eq (S8192x4096.Idx → EReal) ((Body.dats m 0 c).arrAt 5 cfg0.N) (Y2 m c) :=
  final5_of m c (Body.dats m 0 c) (Body.after0_5 m c) htile

end Final

end Cert.LoraLinear.Final

end
-- ==== Proof.Claims.lean ====
/-
  The five claims.
  Frames: the tiled kernel keeps two accumulators in scratch memory across its 4 × 4 × 4 grid — the dense product,
  reset at the first reduction block of every output tile, and the rank-32 projection of the activations, built only
  during the first output tile of a row block and re-read by the other three. Its body has six control cases; each is
  run once on memrefs at known contents, and an invariant carried from point to point names what both accumulators
  hold. The word-level program and its reading at exact arithmetic have the same text, so the same proof serves both.
  Value: at the last reduction block the body stores (dense accumulator + projections · first factor's block) + bias
  into the tile, and the tiles that are written back are the restrictions of ONE function of the region's arrays, which
  read through the flattening before the region and the reshaping after it is the specification `G`. The reference
  folds the low-rank product into the weight first; on finite entries the two arrangements agree (distributivity and an
  exchange of two finite sums), and the precondition says exactly that every entry is finite.
-/
import proofs.«142443_j28853590294649_2_alg».proof.Defs
import proofs.«142443_j28853590294649_2_alg».proof.Proof.Gen.Kernel
import proofs.«142443_j28853590294649_2_alg».proof.Proof.Gen.KernelIdeal
import proofs.«142443_j28853590294649_2_alg».proof.Proof.Gen.ReferenceIdeal
import proofs.«142443_j28853590294649_2_alg».proof.Proof.Gen.Pre_finite_inputs
import proofs.«142443_j28853590294649_2_alg».proof.Proof.Gen.ReferenceIdeal.Run
import proofs.«142443_j28853590294649_2_alg».proof.Proof.Gen.ReferenceIdeal.Read
import proofs.«142443_j28853590294649_2_alg».proof.Proof.K.Frame
import proofs.«142443_j28853590294649_2_alg».proof.Proof.KI.Frame
import proofs.«142443_j28853590294649_2_alg».proof.Proof.Spec
import proofs.«142443_j28853590294649_2_alg».proof.Proof.Finite
import proofs.«142443_j28853590294649_2_alg».proof.Proof.RefValue
import proofs.«142443_j28853590294649_2_alg».proof.Proof.HostSide
import proofs.«142443_j28853590294649_2_alg».proof.Proof.KernelForm
import proofs.«142443_j28853590294649_2_alg».proof.Proof.TileValue
import proofs.«142443_j28853590294649_2_alg».proof.Proof.FinalArray

set_option maxRecDepth 16384

noncomputable section

namespace Cert.LoraLinear.Claims

open Idealize.ShloMosaic Idealize.ShloMosaic.TcCoe Idealize.ShloMosaic.ValueIdx Idealize.SL.Sem
open Cert.LoraLinear

/-! ## The kernel's result -/

section KernelSide

open Cert.KernelIdeal Cert.KernelIdeal.Gen Cert.KernelIdeal.Body

variable (m : (ℓ : Loc nD τ sig) → Buf (Elt Ideal) ℓ) (ρ : Dev nD → PrngReg)

/-- After the region the [8192, 4096] result array is, entry by entry, the closed form over the arrays the region found:
    every entry lies in the tile of exactly one (row block, output tile), written back at that tile's last reduction block. -/
theorem final5 (c : Dev nD) : @Eq (S8192x4096.Idx → EReal) ((dats m 0 c).arrAt 5 cfg0.N) (Final.Y2 m c) :=
  Final.final5_of_tile m c (fun t ht p q => Tile.outAt_apply m c t ht p q)

/-- The program's result, the reshaped array, is the specification of the five arguments. -/
theorem v6_eq (c : Dev nD) :
    @Eq (S4x2048x4096.Idx → EReal) (Pipeline.afterTail₀ cfgs (dats m) 0 (Gen.V0 m) [Gen.hostOps1] c main_v6)
      (GA (m ((c : Thread nD τ).loc main_arg0)) (m ((c : Thread nD τ).loc main_arg1)) (m ((c : Thread nD τ).loc main_arg2))
        (m ((c : Thread nD τ).loc main_arg3)) (m ((c : Thread nD τ).loc main_arg4))) := by
  funext i
  obtain ⟨p, s, o, rfl⟩ : ∃ (p : Fin 4) (s : Fin 2048) (o : Fin 4096), i = ix3 p s o := ⟨i 0, i 1, i 2, eq_ix3 i⟩
  rw [Host.tail_v6_apply m (dats m) c (Final.Y2 m c) (final5 m c) p s o]
  exact KernelValue.tileForm_eq_G m c p s o _

/-- Every weakly fair execution of the idealized kernel ends with its result at the specification and its arguments unchanged. -/
theorem kernel_run : θ_run (defs (F := Ideal)) (onTc (τ := τ) (main (F := Ideal))) ⟨m, fun _ => 0, ρ⟩ (fun r => ∀ c : Dev nD,
      r.2.mem ((c.tc : Thread nD τ).loc main_v6)
        = GA (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v6 (Pipeline.mem_restRefs_of main_v6 (by decide) (by decide))).trans (v6_eq m c),
      ((h c).2 main_arg0 (Pipeline.mem_restRefs_of main_arg0 (by decide) (by decide))).trans (Gen.W_main_arg0 m (dats m) c),
      ((h c).2 main_arg1 (Pipeline.mem_restRefs_of main_arg1 (by decide) (by decide))).trans (Gen.W_main_arg1 m (dats m) c),
      ((h c).2 main_arg2 (Pipeline.mem_restRefs_of main_arg2 (by decide) (by decide))).trans (Gen.W_main_arg2 m (dats m) c),
      ((h c).1 3).trans (((dats m 0 c).arrAt_in 3 rfl _).trans ((A_eq m c 3).trans (Gen.V_main_arg3 m c))),
      ((h c).2 main_arg4 (Pipeline.mem_restRefs_of main_arg4 (by decide) (by decide))).trans (Gen.W_main_arg4 m (dats m) c)⟩)
    (run_main m ρ)

end KernelSide

/-! ## The claims -/

theorem frame_k : Cert.frame_Kernel (hKernel := Cert.Kernel.Gen.facts) (hPre_finite_inputs := Cert.Pre_finite_inputs.Gen.facts) :=
  fun m ρ _ => Cert.Kernel.Body.frame m ρ

theorem frame_ki : Cert.frame_KernelIdeal (hKernelIdeal := Cert.KernelIdeal.Gen.facts) (hPre_finite_inputs := Cert.Pre_finite_inputs.Gen.facts) :=
  fun m ρ _ => Cert.KernelIdeal.Body.frame m ρ

/-- The reference has no kernel: its frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- No operation of the kernel was rewritten when it was read at exact arithmetic. -/
theorem preserves : Cert.preserves_Kernel_KernelIdeal := trivial

/-- From memories agreeing on the five arguments, all finite, both programs end at the specification `G` of the arguments:
    the kernel by its closed form, the reference because folding the low-rank product into the weight is the same
    function on finite entries. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => GA (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), kernel_run m ρ, ?_⟩
  refine (θ_run Cert.ReferenceIdeal.defs _ _).mono (fun _ h c => ⟨?_, (h c).2⟩) (Cert.ReferenceIdeal.Value.run (F := Ideal) m' ρ')
  obtain ⟨f0, f1, _, f3, f4⟩ := Finite.finite_of_pre _ _ _ _ _ (hpre c)
  rw [(h c).1, Cert.ReferenceIdeal.Read.val_main_v8_eq, (hagree c).1, (hagree c).2.1, (hagree c).2.2.1, (hagree c).2.2.2.1, (hagree c).2.2.2.2]
  exact Ref.ref_eq_G _ _ _ _ _ f0 f1 f3 f4

end Cert.LoraLinear.Claims

end
-- ==== Proof.lean ====
/-
  The certificate of a linear layer with a rank-32 correction of its weight, computed by a tiled kernel that applies
  the correction to the activations instead (y = x·Wᵀ + (x·B)·Aᵀ + bias), against the plain formulation that corrects the
  weight first (y = x·(W + A·Bᵀ)ᵀ + bias). The claims are proved in Proof/Claims.lean; here they are put together under
  the witnesses of the programs' stated side conditions.
-/
import proofs.«142443_j28853590294649_2_alg».proof.Defs
import proofs.«142443_j28853590294649_2_alg».proof.Proof.Gen.Kernel
import proofs.«142443_j28853590294649_2_alg».proof.Proof.Gen.Kernel.Skeleton
import proofs.«142443_j28853590294649_2_alg».proof.Proof.Gen.Kernel.Launch
import proofs.«142443_j28853590294649_2_alg».proof.Proof.Gen.Kernel.Points
import proofs.«142443_j28853590294649_2_alg».proof.Proof.Gen.Kernel.Frame
import proofs.«142443_j28853590294649_2_alg».proof.Proof.Gen.KernelIdeal
import proofs.«142443_j28853590294649_2_alg».proof.Proof.Gen.KernelIdeal.Skeleton
import proofs.«142443_j28853590294649_2_alg».proof.Proof.Gen.KernelIdeal.Launch
import proofs.«142443_j28853590294649_2_alg».proof.Proof.Gen.KernelIdeal.Points
import proofs.«142443_j28853590294649_2_alg».proof.Proof.Gen.KernelIdeal.Frame
import proofs.«142443_j28853590294649_2_alg».proof.Proof.Gen.ReferenceIdeal
import proofs.«142443_j28853590294649_2_alg».proof.Proof.Gen.ReferenceIdeal.Run
import proofs.«142443_j28853590294649_2_alg».proof.Proof.Gen.ReferenceIdeal.Read
import proofs.«142443_j28853590294649_2_alg».proof.Proof.Gen.Pre_finite_inputs
import proofs.«142443_j28853590294649_2_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Cert.LoraLinear.Claims.frame_k, Cert.LoraLinear.Claims.frame_ki, Cert.LoraLinear.Claims.frame_ri,
    Cert.LoraLinear.Claims.preserves, Cert.LoraLinear.Claims.algebraic⟩

end Cert.Proof

end
